-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S16384x32 : Shape := ⟨2, ![16384, 32]⟩
abbrev S8192x16384 : Shape := ⟨2, ![8192, 16384]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S8192x16384 : S_.BroadcastsInDim S8192x16384 (![] : Fin 0 → Fin S8192x16384.rank)
  reducesTo_S8192x16384_S_d0_1 : S8192x16384.ReducesTo [0, 1] S_

variable [Facts]

def fn {F : FTy → Type} [FloatOps F] (main_arg0 : FVec F S8192x32 .f32) (main_arg1 : FVec F S16384x32 .f32) (main_arg2 : FVec F S8192x16384 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  main_v13
-- ==== Kernel.lean ====
abbrev S8192x32 : Shape := ⟨2, ![8192, 32]⟩
abbrev S16384x32 : Shape := ⟨2, ![16384, 32]⟩
abbrev S8192x16384 : Shape := ⟨2, ![8192, 16384]⟩
abbrev S2x16384x32 : Shape := ⟨3, ![2, 16384, 32]⟩
abbrev S512x2048 : Shape := ⟨2, ![512, 2048]⟩
abbrev S512x32 : Shape := ⟨2, ![512, 32]⟩
abbrev S2048x32 : Shape := ⟨2, ![2048, 32]⟩
abbrev S1x16384x32 : Shape := ⟨3, ![1, 16384, 32]⟩
abbrev S1x2048x32 : Shape := ⟨3, ![1, 2048, 32]⟩
abbrev S_ : Shape := ⟨0, ![]⟩

abbrev nBuf : Space → Nat
  | .hbm => 37
  | .vmem => 29
  | .smem => 0
  | _ => 0

abbrev bufTy : (tb : Table) → Fin (tcTables nBuf tb) → BufTy
  | .hbm, ⟨0, _⟩ => ⟨S8192x32, .f32⟩
  | .hbm, ⟨1, _⟩ => ⟨S16384x32, .f32⟩
  | .hbm, ⟨2, _⟩ => ⟨S8192x16384, .f32⟩
  | .hbm, ⟨3, _⟩ => ⟨S8192x32, .f32⟩
  | .hbm, ⟨4, _⟩ => ⟨S2x16384x32, .f32⟩
  | .hbm, ⟨5, _⟩ => ⟨S8192x16384, .bf16⟩
  | .hbm, ⟨6, _⟩ => ⟨S1x16384x32, .f32⟩
  | .hbm, ⟨7, _⟩ => ⟨S16384x32, .f32⟩
  | .hbm, ⟨8, _⟩ => ⟨S1x16384x32, .f32⟩
  | .hbm, ⟨9, _⟩ => ⟨S16384x32, .f32⟩
  | .hbm, ⟨10, _⟩ => ⟨S16384x32, .f32⟩
  | .hbm, ⟨11, _⟩ => ⟨S8192x32, .f32⟩
  | .hbm, ⟨12, _⟩ => ⟨S16384x32, .f32⟩
  | .hbm, ⟨13, _⟩ => ⟨S8192x32, .f32⟩
  | .hbm, ⟨14, _⟩ => ⟨S2x16384x32, .f32⟩
  | .hbm, ⟨15, _⟩ => ⟨S1x16384x32, .f32⟩
  | .hbm, ⟨16, _⟩ => ⟨S16384x32, .f32⟩
  | .hbm, ⟨17, _⟩ => ⟨S1x16384x32, .f32⟩
  | .hbm, ⟨18, _⟩ => ⟨S16384x32, .f32⟩
  | .hbm, ⟨19, _⟩ => ⟨S16384x32, .f32⟩
  | .hbm, ⟨20, _⟩ => ⟨S8192x32, .f32⟩
  | .hbm, ⟨21, _⟩ => ⟨S16384x32, .f32⟩
  | .hbm, ⟨22, _⟩ => ⟨S8192x32, .f32⟩
  | .hbm, ⟨23, _⟩ => ⟨S2x16384x32, .f32⟩
  | .hbm, ⟨24, _⟩ => ⟨S1x16384x32, .f32⟩
  | .hbm, ⟨25, _⟩ => ⟨S16384x32, .f32⟩
  | .hbm, ⟨26, _⟩ => ⟨S1x16384x32, .f32⟩
  | .hbm, ⟨27, _⟩ => ⟨S16384x32, .f32⟩
  | .hbm, ⟨28, _⟩ => ⟨S16384x32, .f32⟩
  | .hbm, ⟨29, _⟩ => ⟨S8192x32, .f32⟩
  | .hbm, ⟨30, _⟩ => ⟨S16384x32, .f32⟩
  | .hbm, ⟨31, _⟩ => ⟨S_, .f32⟩
  | .hbm, ⟨32, _⟩ => ⟨S8192x32, .f32⟩
  | .hbm, ⟨33, _⟩ => ⟨S8192x32, .f32⟩
  | .hbm, ⟨34, _⟩ => ⟨S_, .f32⟩
  | .hbm, ⟨35, _⟩ => ⟨S16384x32, .f32⟩
  | .hbm, ⟨36, _⟩ => ⟨S16384x32, .f32⟩
  | .local _ .vmem, ⟨0, _⟩ => ⟨S512x2048, .f32⟩
  | .local _ .vmem, ⟨1, _⟩ => ⟨S512x2048, .f32⟩
  | .local _ .vmem, ⟨2, _⟩ => ⟨S512x32, .f32⟩
  | .local _ .vmem, ⟨3, _⟩ => ⟨S512x32, .f32⟩
  | .local _ .vmem, ⟨4, _⟩ => ⟨S2048x32, .f32⟩
  | .local _ .vmem, ⟨5, _⟩ => ⟨S2048x32, .f32⟩
  | .local _ .vmem, ⟨6, _⟩ => ⟨S512x32, .f32⟩
  | .local _ .vmem, ⟨7, _⟩ => ⟨S512x32, .f32⟩
  | .local _ .vmem, ⟨8, _⟩ => ⟨S1x16384x32, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x32, .f32⟩
  | .local _ .vmem, ⟨14, _⟩ => ⟨S512x32, .f32⟩
  | .local _ .vmem, ⟨15, _⟩ => ⟨S2048x32, .f32⟩
  | .local _ .vmem, ⟨16, _⟩ => ⟨S2048x32, .f32⟩
  | .local _ .vmem, ⟨17, _⟩ => ⟨S512x32, .f32⟩
  | .local _ .vmem, ⟨18, _⟩ => ⟨S512x32, .f32⟩
  | .local _ .vmem, ⟨19, _⟩ => ⟨S1x16384x32, .f32⟩
  | .local _ .vmem, ⟨20, _⟩ => ⟨S512x2048, .bf16⟩
  | .local _ .vmem, ⟨21, _⟩ => ⟨S512x2048, .bf16⟩
  | .local _ .vmem, ⟨22, _⟩ => ⟨S512x32, .f32⟩
  | .local _ .vmem, ⟨23, _⟩ => ⟨S512x32, .f32⟩
  | .local _ .vmem, ⟨24, _⟩ => ⟨S2048x32, .f32⟩
  | .local _ .vmem, ⟨25, _⟩ => ⟨S2048x32, .f32⟩
  | .local _ .vmem, ⟨26, _⟩ => ⟨S512x32, .f32⟩
  | .local _ .vmem, ⟨27, _⟩ => ⟨S512x32, .f32⟩
  | .local _ .vmem, ⟨28, _⟩ => ⟨S1x16384x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c2048_i32 : BitVec 32 := 2048#32
  let v16 : BitVec 32 := Scalar.muli arg2 c2048_i32
  v16
def k0_off1 (i : grid0.Coords) : Fin 3 → Nat :=
  let c0_14 : Index := 0#32
  let arg2 : BitVec 32 := BitVec.ofNat 32 (i 2).val
  let c2048_i32 : BitVec 32 := 2048#32
  let v16 : BitVec 32 := Scalar.muli arg2 c2048_i32
  let v17 : BitVec 32 := v16
  let v22 : Index := Scalar.indexCast v17
  let c0_15 : Index := 0#32
  ![0, v22.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x16384x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev grid1 : Pipeline.Grid := ⟨3, ![2, 8, 8], ![false, false, false]⟩

def k1_mult1 (i : grid1.Coords) : BitVec 32 :=
  let arg2 : BitVec 32 := BitVec.ofNat 32 (i 2).val
  let c2048_i32 : BitVec 32 := 2048#32
  let v18 : BitVec 32 := Scalar.muli arg2 c2048_i32
  v18
def k1_off1 (i : grid1.Coords) : Fin 3 → Nat :=
  let c0_14 : Index := 0#32
  let arg2 : BitVec 32 := BitVec.ofNat 32 (i 2).val
  let c2048_i32 : BitVec 32 := 2048#32
  let v18 : BitVec 32 := Scalar.muli arg2 c2048_i32
  let v19 : BitVec 32 := v18
  let v24 : Index := Scalar.indexCast v19
  let c0_15 : Index := 0#32
  ![0, v24.toNat, 0]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S512x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1x16384x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false, false]

abbrev grid2 : Pipeline.Grid := ⟨3, ![2, 8, 8], ![false, false, false]⟩

def k2_mult1 (i : grid2.Coords) : BitVec 32 :=
  let arg2 : BitVec 32 := BitVec.ofNat 32 (i 2).val
  let c2048_i32 : BitVec 32 := 2048#32
  let v18 : BitVec 32 := Scalar.muli arg2 c2048_i32
  v18
def k2_off1 (i : grid2.Coords) : Fin 3 → Nat :=
  let c0_14 : Index := 0#32
  let arg2 : BitVec 32 := BitVec.ofNat 32 (i 2).val
  let c2048_i32 : BitVec 32 := 2048#32
  let v18 : BitVec 32 := Scalar.muli arg2 c2048_i32
  let v19 : BitVec 32 := v18
  let v24 : Index := Scalar.indexCast v19
  let c0_15 : Index := 0#32
  ![0, v24.toNat, 0]
def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S512x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S2048x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, true]

abbrev stage2_3 : Fin 2 → Memref sig .tc .vmem S512x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 1 → Memref sig .tc .vmem S1x16384x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, false, false]

class Facts₀ : Prop where
  inb_S512x32_S512x32_0_0 : ∀ a, (![0, 0] : Fin 2 → Nat) a + S512x32.size a ≤ S512x32.size a
  h_S512x32 : 0 < S512x32.numel
  inb_S1x16384x32_S1x16384x32_0_0_0 : ∀ a, (![0, 0, 0] : Fin 3 → Nat) a + S1x16384x32.size a ≤ S1x16384x32.size a
  h_S1x16384x32 : 0 < S1x16384x32.numel
  shapeCasts_S1x16384x32_S16384x32 : S1x16384x32.ShapeCasts S16384x32
  shapeCasts_S16384x32_S1x16384x32 : S16384x32.ShapeCasts S1x16384x32
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S512x32_S512x32 : S512x32.ShapeCasts S512x32
  h_S1x2048x32 : 0 < S1x2048x32.numel
  shapeCasts_S1x2048x32_S2048x32 : S1x2048x32.ShapeCasts S2048x32
  shapeCasts_S2048x32_S1x2048x32 : S2048x32.ShapeCasts S1x2048x32
  packedbf16_S512x2048_S512x2048_0_0 : (Rect.unit (s := S512x2048) ![0, 0] S512x2048.size inb_S512x2048_S512x2048_0_0).PackedRows (EltTy.packing .bf16)
  slices_S2x16384x32_S1x16384x32_0_0_0 : S2x16384x32.Slices ![0, 0, 0] S1x16384x32
  slices_S2x16384x32_S1x16384x32_1_0_0 : S2x16384x32.Slices ![1, 0, 0] S1x16384x32
  shapeCasts_S512x2048_S512x2048 : S512x2048.ShapeCasts S512x2048
  shapeCasts_S2048x32_S2048x32 : S2048x32.ShapeCasts S2048x32
  bcast_S_S8192x32 : S_.BroadcastsInDim S8192x32 (![] : Fin 0 → Fin S8192x32.rank)
  bcast_S_S16384x32 : S_.BroadcastsInDim S16384x32 (![] : Fin 0 → Fin S16384x32.rank)
  dot_S512x2048_S2048x32_S512x32_1_0_0_1_n_n_wf : DotDims.WF S512x2048 S2048x32 S512x32 [1] [0] [0] [1] [] []
  dot_S512x2048_S512x32_S2048x32_0_0_1_1_n_n_wf : DotDims.WF S512x2048 S512x32 S2048x32 [0] [0] [1] [1] [] []
  hrank0 : 0 < grid0.rank
  k0_mult1_dvd : ∀ i : grid0.Coords, 2048 ∣ (k0_mult1 i).toNat
  k0_off1_inb : ∀ i : grid0.Coords, ∀ a, (k0_off1 i) a + S1x2048x32.size a ≤ S1x16384x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x16384.size a
  hwx0_0 : ∀ i : grid0.Coords, EltTy.bits .f32 = 32 ∨ (Rect.block (s := S8192x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S8192x32.size a
  hwx0_1 : ∀ i : grid0.Coords, EltTy.bits .f32 = 32 ∨ (Rect.block (s := S8192x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S16384x32.size a
  hwx0_2 : ∀ i : grid0.Coords, EltTy.bits .f32 = 32 ∨ (Rect.block (s := S16384x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S8192x32.size a
  hwx0_3 : ∀ i : grid0.Coords, EltTy.bits .f32 = 32 ∨ (Rect.block (s := S8192x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16384x32.size a ≤ S2x16384x32.size a
  hwx0_4 : ∀ i : grid0.Coords, EltTy.bits .f32 = 32 ∨ (Rect.block (s := S2x16384x32) S1x16384x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x16384.size a
  hwx0_5 : ∀ i : grid0.Coords, EltTy.bits .bf16 = 32 ∨ (Rect.block (s := S8192x16384) S512x2048.size (cc0_transform_5 i) (hinb0_5 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S1x2048x32.size a ≤ S1x16384x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x16384.size a
  hwx1_0 : ∀ i : grid1.Coords, EltTy.bits .bf16 = 32 ∨ (Rect.block (s := S8192x16384) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x32.size a ≤ S8192x32.size a
  hwx1_1 : ∀ i : grid1.Coords, EltTy.bits .f32 = 32 ∨ (Rect.block (s := S8192x32) S512x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S16384x32.size a
  hwx1_2 : ∀ i : grid1.Coords, EltTy.bits .f32 = 32 ∨ (Rect.block (s := S16384x32) S2048x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x32.size a ≤ S8192x32.size a
  hwx1_3 : ∀ i : grid1.Coords, EltTy.bits .f32 = 32 ∨ (Rect.block (s := S8192x32) S512x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16384x32.size a ≤ S2x16384x32.size a
  hwx1_4 : ∀ i : grid1.Coords, EltTy.bits .f32 = 32 ∨ (Rect.block (s := S2x16384x32) S1x16384x32.size (cc1_transform_4 i) (hinb1_4 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S1x2048x32.size a ≤ S1x16384x32.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x16384.size a
  hwx2_0 : ∀ i : grid2.Coords, EltTy.bits .bf16 = 32 ∨ (Rect.block (s := S8192x16384) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x32.size a ≤ S8192x32.size a
  hwx2_1 : ∀ i : grid2.Coords, EltTy.bits .f32 = 32 ∨ (Rect.block (s := S8192x32) S512x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x32.size a ≤ S16384x32.size a
  hwx2_2 : ∀ i : grid2.Coords, EltTy.bits .f32 = 32 ∨ (Rect.block (s := S16384x32) S2048x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x32.size a ≤ S8192x32.size a
  hwx2_3 : ∀ i : grid2.Coords, EltTy.bits .f32 = 32 ∨ (Rect.block (s := S8192x32) S512x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16384x32.size a ≤ S2x16384x32.size a
  hwx2_4 : ∀ i : grid2.Coords, EltTy.bits .f32 = 32 ∨ (Rect.block (s := S2x16384x32) S1x16384x32.size (cc2_transform_4 i) (hinb2_4 i)).WholeWords (EltTy.packing .f32)

variable [Facts₀]

def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf
def dot_S512x2048_S512x32_S2048x32_0_0_1_1_n_n : DotDims S512x2048 S512x32 S2048x32 where
  lhsContracting := [0]
  rhsContracting := [0]
  lhsNonContracting := [1]
  rhsNonContracting := [1]
  lhsBatch := []
  rhsBatch := []
  wf := dot_S512x2048_S512x32_S2048x32_0_0_1_1_n_n_wf

abbrev win0_0 : Pipeline.Window sig grid0 :=
  Pipeline.Window.ofSpec (Memref.whole main_arg2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x16384x32.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_2) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S512x32.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S1x16384x32.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0_2) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_0) S512x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2048x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16_0) S512x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16_1) S1x16384x32.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x32 : Shape := ⟨2, ![8192, 32]⟩
abbrev S16384x32 : Shape := ⟨2, ![16384, 32]⟩
abbrev S8192x16384 : Shape := ⟨2, ![8192, 16384]⟩
abbrev S16384x8192 : Shape := ⟨2, ![16384, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S16384x32, .f32⟩
  | .hbm, ⟨2, _⟩ => ⟨S8192x16384, .f32⟩
  | .hbm, ⟨3, _⟩ => ⟨S8192x32, .f32⟩
  | .hbm, ⟨4, _⟩ => ⟨S16384x8192, .f32⟩
  | .hbm, ⟨5, _⟩ => ⟨S16384x32, .f32⟩
  | .hbm, ⟨6, _⟩ => ⟨S8192x32, .f32⟩
  | .hbm, ⟨7, _⟩ => ⟨S16384x32, .f32⟩
  | .hbm, ⟨8, _⟩ => ⟨S8192x32, .f32⟩
  | .hbm, ⟨9, _⟩ => ⟨S16384x8192, .f32⟩
  | .hbm, ⟨10, _⟩ => ⟨S16384x32, .f32⟩
  | .hbm, ⟨11, _⟩ => ⟨S8192x32, .f32⟩
  | .hbm, ⟨12, _⟩ => ⟨S16384x32, .f32⟩
  | .hbm, ⟨13, _⟩ => ⟨S8192x32, .f32⟩
  | .hbm, ⟨14, _⟩ => ⟨S16384x8192, .f32⟩
  | .hbm, ⟨15, _⟩ => ⟨S16384x32, .f32⟩
  | .hbm, ⟨16, _⟩ => ⟨S8192x32, .f32⟩
  | .hbm, ⟨17, _⟩ => ⟨S16384x32, .f32⟩
  | .hbm, ⟨18, _⟩ => ⟨S_, .f32⟩
  | .hbm, ⟨19, _⟩ => ⟨S8192x32, .f32⟩
  | .hbm, ⟨20, _⟩ => ⟨S8192x32, .f32⟩
  | .hbm, ⟨21, _⟩ => ⟨S_, .f32⟩
  | .hbm, ⟨22, _⟩ => ⟨S16384x32, .f32⟩
  | .hbm, ⟨23, _⟩ => ⟨S16384x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  transposes_S8192x16384_S16384x8192_1_0 : S8192x16384.Transposes [1, 0] S16384x8192
  bcast_S_S8192x32 : S_.BroadcastsInDim S8192x32 (![] : Fin 0 → Fin S8192x32.rank)
  bcast_S_S16384x32 : S_.BroadcastsInDim S16384x32 (![] : Fin 0 → Fin S16384x32.rank)
  dot_S8192x16384_S16384x32_S8192x32_1_0_0_1_n_n_wf : DotDims.WF S8192x16384 S16384x32 S8192x32 [1] [0] [0] [1] [] []
  dot_S16384x8192_S8192x32_S16384x32_1_0_0_1_n_n_wf : DotDims.WF S16384x8192 S8192x32 S16384x32 [1] [0] [0] [1] [] []

variable [Facts₀]

def dot_S8192x16384_S16384x32_S8192x32_1_0_0_1_n_n : DotDims S8192x16384 S16384x32 S8192x32 where
  lhsContracting := [1]
  rhsContracting := [0]
  lhsNonContracting := [0]
  rhsNonContracting := [1]
  lhsBatch := []
  rhsBatch := []
  wf := dot_S8192x16384_S16384x32_S8192x32_1_0_0_1_n_n_wf
def dot_S16384x8192_S8192x32_S16384x32_1_0_0_1_n_n : DotDims S16384x8192 S8192x32 S16384x32 where
  lhsContracting := [1]
  rhsContracting := [0]
  lhsNonContracting := [0]
  rhsNonContracting := [1]
  lhsBatch := []
  rhsBatch := []
  wf := dot_S16384x8192_S8192x32_S16384x32_1_0_0_1_n_n_wf

class Facts : Prop extends Facts₀ where

variable [Facts]
-- ==== Proof.Conds.lean ====
/-
  The two branch conditions of each round's kernel body, as functions of the grid point, and where on the
  grid (2 × 8 × 8 = 128 points, row-major: t = 64·c + 8·i + j) each holds.
  The first (`j = 0`) resets the row-tile accumulator of u_next; the second (`i = 0 ∧ j = 0`) resets the
  per-core partial of i_next. So j = 0 exactly at t ≡ 0 (mod 8) and i = j = 0 exactly at t ≡ 0 (mod 64).
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Region 0: the condition `j = 0` of the first `scf.if`, over the coordinates. -/
abbrev condJ0 (i : grid0.Coords) : Prop := (Scalar.cmpi .ne (Scalar.extui (Scalar.cmpi .eq (BitVec.ofNat 32 (i 2).val) 0#32)) 0#32) = 1#1
/-- Region 0: the condition `i = 0 ∧ j = 0` of the second `scf.if`. -/
abbrev condIJ0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0` holds exactly at the points ≡ 0 (mod 8): decided over the grid. -/
theorem hcondJ0 : ∀ t : Fin cfg0.N, condJ0 (grid0.coords t) ↔ t.val % 8 = 0 :=
  (by decide +kernel : ∀ t : Fin grid0.N, condJ0 (grid0.coords t) ↔ t.val % 8 = 0)
/-- `i = 0 ∧ j = 0` holds exactly at the points ≡ 0 (mod 64). -/
theorem hcondIJ0 : ∀ t : Fin cfg0.N, condIJ0 (grid0.coords t) ↔ t.val % 64 = 0 :=
  (by decide +kernel : ∀ t : Fin grid0.N, condIJ0 (grid0.coords t) ↔ t.val % 64 = 0)

/-- Region 1: the condition `j = 0` of the first `scf.if`, over the coordinates. -/
abbrev condJ1 (i : grid1.Coords) : Prop := (Scalar.cmpi .ne (Scalar.extui (Scalar.cmpi .eq (BitVec.ofNat 32 (i 2).val) 0#32)) 0#32) = 1#1
/-- Region 1: the condition `i = 0 ∧ j = 0` of the second `scf.if`. -/
abbrev condIJ1 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0` holds exactly at the points ≡ 0 (mod 8): decided over the grid. -/
theorem hcondJ1 : ∀ t : Fin cfg1.N, condJ1 (grid1.coords t) ↔ t.val % 8 = 0 :=
  (by decide +kernel : ∀ t : Fin grid1.N, condJ1 (grid1.coords t) ↔ t.val % 8 = 0)
/-- `i = 0 ∧ j = 0` holds exactly at the points ≡ 0 (mod 64). -/
theorem hcondIJ1 : ∀ t : Fin cfg1.N, condIJ1 (grid1.coords t) ↔ t.val % 64 = 0 :=
  (by decide +kernel : ∀ t : Fin grid1.N, condIJ1 (grid1.coords t) ↔ t.val % 64 = 0)

/-- Region 2: the condition `j = 0` of the first `scf.if`, over the coordinates. -/
abbrev condJ2 (i : grid2.Coords) : Prop := (Scalar.cmpi .ne (Scalar.extui (Scalar.cmpi .eq (BitVec.ofNat 32 (i 2).val) 0#32)) 0#32) = 1#1
/-- Region 2: the condition `i = 0 ∧ j = 0` of the second `scf.if`. -/
abbrev condIJ2 (i : grid2.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0` holds exactly at the points ≡ 0 (mod 8): decided over the grid. -/
theorem hcondJ2 : ∀ t : Fin cfg2.N, condJ2 (grid2.coords t) ↔ t.val % 8 = 0 :=
  (by decide +kernel : ∀ t : Fin grid2.N, condJ2 (grid2.coords t) ↔ t.val % 8 = 0)
/-- `i = 0 ∧ j = 0` holds exactly at the points ≡ 0 (mod 64). -/
theorem hcondIJ2 : ∀ t : Fin cfg2.N, condIJ2 (grid2.coords t) ↔ t.val % 64 = 0 :=
  (by decide +kernel : ∀ t : Fin grid2.N, condIJ2 (grid2.coords t) ↔ t.val % 64 = 0)

end Cert.KernelIdeal.Hand

end
-- ==== Proof.R0RunA.lean ====
/-
  Region 0 (round 0: f32 adjacency in, bf16 copy out), control case A: the kernel body run on whole staging
  memrefs. The three inputs' buffers hold their blocks and come back unchanged; each output's buffer ends as the body's
  stores written, last first, over what it held. The piece lists are whatever the run of the body's stores produces.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case A. -/
noncomputable def kernelRun0_A (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole)
    (hc0 : condJ0 i) (hc1 : condIJ0 i)
    (x0 : Vec F S512x2048 .f32) (x1 : Vec F S512x32 .f32) (x2 : Vec F S2048x32 .f32) :
    (L3 : List (View.Piece (Elt F) S512x32 .f32)) ×' (L4 : List (View.Piece (Elt F) S1x16384x32 .f32)) ×' { L5 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)) -∗ K ⟨⟩))
          ⊢ wp frame (wpE (defs₀ (F := F)) Variants.none c none) E (cc0_kernel i arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact H5

end Cert.KernelIdeal.Hand

end
-- ==== Proof.R0RunB.lean ====
/-
  Region 0 (round 0: f32 adjacency in, bf16 copy out), control case B: the kernel body run on whole staging
  memrefs. The three inputs' buffers hold their blocks and come back unchanged; each output's buffer ends as the body's
  stores written, last first, over what it held. The piece lists are whatever the run of the body's stores produces.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case B. -/
noncomputable def kernelRun0_B (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole)
    (hc0 : condJ0 i) (hc1 : ¬condIJ0 i)
    (x0 : Vec F S512x2048 .f32) (x1 : Vec F S512x32 .f32) (x2 : Vec F S2048x32 .f32) (f4 : arg7.view.ty.Contents (Elt F)) :
    (L3 : List (View.Piece (Elt F) S512x32 .f32)) ×' (L4 : List (View.Piece (Elt F) S1x16384x32 .f32)) ×' { L5 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (arg7.view.loc (c : Thread nD τ) ↦[arg7.view.set]{fullShare} f4) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (arg7.view.loc (c : Thread nD τ) ↦[arg7.view.set]{fullShare} arg7.view.writes (Elt F) f4 L4)
                ∗ (∃ f, arg8.view.loc (c : Thread nD τ) ↦[arg8.view.set]{fullShare} arg8.view.writes (Elt F) f L5)) -∗ K ⟨⟩))
          ⊢ wp frame (wpE (defs₀ (F := F)) Variants.none c none) E (cc0_kernel i arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, H4, ⟨%d5, %f5, -, H5⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexact H4
    iexists _; iexact H5

end Cert.KernelIdeal.Hand

end
-- ==== Proof.R0RunC.lean ====
/-
  Region 0 (round 0: f32 adjacency in, bf16 copy out), control case C: the kernel body run on whole staging
  memrefs. The three inputs' buffers hold their blocks and come back unchanged; each output's buffer ends as the body's
  stores written, last first, over what it held. The piece lists are whatever the run of the body's stores produces.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case C. -/
noncomputable def kernelRun0_C (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole)
    (hc0 : ¬condJ0 i) (hc1 : ¬condIJ0 i)
    (x0 : Vec F S512x2048 .f32) (x1 : Vec F S512x32 .f32) (x2 : Vec F S2048x32 .f32) (f3 : arg6.view.ty.Contents (Elt F)) (f4 : arg7.view.ty.Contents (Elt F)) :
    (L3 : List (View.Piece (Elt F) S512x32 .f32)) ×' (L4 : List (View.Piece (Elt F) S1x16384x32 .f32)) ×' { L5 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (arg6.view.loc (c : Thread nD τ) ↦[arg6.view.set]{fullShare} f3) ∗ (arg7.view.loc (c : Thread nD τ) ↦[arg7.view.set]{fullShare} f4) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) f3 L3) ∗ (arg7.view.loc (c : Thread nD τ) ↦[arg7.view.set]{fullShare} arg7.view.writes (Elt F) f4 L4)
                ∗ (∃ f, arg8.view.loc (c : Thread nD τ) ↦[arg8.view.set]{fullShare} arg8.view.writes (Elt F) f L5)) -∗ K ⟨⟩))
          ⊢ wp frame (wpE (defs₀ (F := F)) Variants.none c none) E (cc0_kernel i arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, H3, H4, ⟨%d5, %f5, -, H5⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    isplitl [H4]; · iexact H4
    iexists _; iexact H5

end Cert.KernelIdeal.Hand

end
-- ==== Proof.R0Data.lean ====
/-
  Region 0 (round 0) as a pipeline: what every window's staging buffer holds after the body at each of the 128 grid
  points.

  The grid is (core c, row tile i, column tile j), t = 64·c + 8·i + j. The three inputs are re-read from their arrays.
  Output 3 (u_next's row tile, index (8c+i, 0)) is reset where j = 0, added to at every j, and written back after
  j = 7. Output 4 (core c's partial of i_next, index (c,0,0), the whole [16384,32] partial resident) is reset where
  i = j = 0, has its rows 2048·j … 2048·j+2047 added to at every point, and is written back after the core's last
  point. Output 5 (the bf16 copy of the adjacency tile) is stored whole and written back at every point.
  So the contents after point t are a recursion on t: at a reset the fresh value, else a function of what point t−1 left.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R0RunA
import proofs.«153668_j35003983462547_2_alg».proof.Proof.R0RunB
import proofs.«153668_j35003983462547_2_alg».proof.Proof.R0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, through which contents that do not depend on what the buffer held are stated. -/
abbrev VO0_3 : View sig .tc .vmem S512x32 .f32 := (Memref.whole cc0_stg3_0 : Memref sig .tc .vmem S512x32 .f32).view
abbrev VO0_4 : View sig .tc .vmem S1x16384x32 .f32 := (Memref.whole cc0_stg4_0 : Memref sig .tc .vmem S1x16384x32 .f32).view
abbrev VO0_5 : View sig .tc .vmem S512x2048 .bf16 := (Memref.whole cc0_stg5_0 : Memref sig .tc .vmem S512x2048 .bf16).view
/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16384x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .bf16 := win0_5.stage (cfg0.slots t 5)
abbrev hs0_5 (t : Fin cfg0.N) : (ms0_5 t).IsWhole := hstage0_5 ((cfg0.slots t 5).cast nbuf0_5)

/-! ## Where a case's stores fill an output's block whatever it held -/

theorem cover0_A_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) (y : S512x32.Idx) :
    ∃ pc ∈ (kernelRun0_A c i arg3 harg3 arg4 harg4 arg5 harg5 arg6 harg6 arg7 harg7 arg8 harg8 hc0 hc1 x0 x1 x2).1, y ∈ pc.1.set :=
  View.cover_of_tiledL (kernelRun0_A c i arg3 harg3 arg4 harg4 arg5 harg5 arg6 harg6 arg7 harg7 arg8 harg8 hc0 hc1 x0 x1 x2).1 S512x32.size (by sl_kernel_rfl) y
theorem cover0_A_4 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) (y : S1x16384x32.Idx) :
    ∃ pc ∈ (kernelRun0_A c i arg3 harg3 arg4 harg4 arg5 harg5 arg6 harg6 arg7 harg7 arg8 harg8 hc0 hc1 x0 x1 x2).2.1, y ∈ pc.1.set :=
  View.cover_of_tiledL (kernelRun0_A c i arg3 harg3 arg4 harg4 arg5 harg5 arg6 harg6 arg7 harg7 arg8 harg8 hc0 hc1 x0 x1 x2).2.1 S1x16384x32.size (by sl_kernel_rfl) y
theorem cover0_A_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) (y : S512x2048.Idx) :
    ∃ pc ∈ (kernelRun0_A c i arg3 harg3 arg4 harg4 arg5 harg5 arg6 harg6 arg7 harg7 arg8 harg8 hc0 hc1 x0 x1 x2).2.2.1, y ∈ pc.1.set :=
  View.cover_of_tiledL (kernelRun0_A c i arg3 harg3 arg4 harg4 arg5 harg5 arg6 harg6 arg7 harg7 arg8 harg8 hc0 hc1 x0 x1 x2).2.2.1 S512x2048.size (by sl_kernel_rfl) y
theorem cover0_B_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) (y : S512x32.Idx) :
    ∃ pc ∈ (kernelRun0_B c i arg3 harg3 arg4 harg4 arg5 harg5 arg6 harg6 arg7 harg7 arg8 harg8 hc0 hc1 x0 x1 x2 f4).1, y ∈ pc.1.set :=
  View.cover_of_tiledL (kernelRun0_B c i arg3 harg3 arg4 harg4 arg5 harg5 arg6 harg6 arg7 harg7 arg8 harg8 hc0 hc1 x0 x1 x2 f4).1 S512x32.size (by sl_kernel_rfl) y
theorem cover0_B_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) (y : S512x2048.Idx) :
    ∃ pc ∈ (kernelRun0_B c i arg3 harg3 arg4 harg4 arg5 harg5 arg6 harg6 arg7 harg7 arg8 harg8 hc0 hc1 x0 x1 x2 f4).2.2.1, y ∈ pc.1.set :=
  View.cover_of_tiledL (kernelRun0_B c i arg3 harg3 arg4 harg4 arg5 harg5 arg6 harg6 arg7 harg7 arg8 harg8 hc0 hc1 x0 x1 x2 f4).2.2.1 S512x2048.size (by sl_kernel_rfl) y
theorem cover0_C_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec F S512x2048 .f32) (x1 : Vec F S512x32 .f32) (x2 : Vec F S2048x32 .f32) (f3 : arg6.view.ty.Contents (Elt F)) (f4 : arg7.view.ty.Contents (Elt F)) (y : S512x2048.Idx) :
    ∃ pc ∈ (kernelRun0_C c i arg3 harg3 arg4 harg4 arg5 harg5 arg6 harg6 arg7 harg7 arg8 harg8 hc0 hc1 x0 x1 x2 f3 f4).2.2.1, y ∈ pc.1.set :=
  View.cover_of_tiledL (kernelRun0_C c i arg3 harg3 arg4 harg4 arg5 harg5 arg6 harg6 arg7 harg7 arg8 harg8 hc0 hc1 x0 x1 x2 f3 f4).2.2.1 S512x2048.size (by sl_kernel_rfl) y

/-! ## What each case leaves in the three outputs' buffers -/

/-- Case A (both resets): nothing depends on what the buffers held. -/
def out0_A_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) : Vec F S512x32 .f32 :=
  VO0_3.read (Elt F) (VO0_3.writes (Elt F) VO0_3.junk (kernelRun0_A c i arg3 harg3 arg4 harg4 arg5 harg5 arg6 harg6 arg7 harg7 arg8 harg8 hc0 hc1 x0 x1 x2).1)
def out0_A_4 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) : Vec F S1x16384x32 .f32 :=
  VO0_4.read (Elt F) (VO0_4.writes (Elt F) VO0_4.junk (kernelRun0_A c i arg3 harg3 arg4 harg4 arg5 harg5 arg6 harg6 arg7 harg7 arg8 harg8 hc0 hc1 x0 x1 x2).2.1)
def out0_A_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) : Vec F S512x2048 .bf16 :=
  VO0_5.read (Elt F) (VO0_5.writes (Elt F) VO0_5.junk (kernelRun0_A c i arg3 harg3 arg4 harg4 arg5 harg5 arg6 harg6 arg7 harg7 arg8 harg8 hc0 hc1 x0 x1 x2).2.2.1)
/-- Case B (the row-tile accumulator reset): the i_next partial is the body's slice store over what it held. -/
def out0_B_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) : Vec F S512x32 .f32 :=
  VO0_3.read (Elt F) (VO0_3.writes (Elt F) VO0_3.junk (kernelRun0_B c i arg3 harg3 arg4 harg4 arg5 harg5 arg6 harg6 arg7 harg7 arg8 harg8 hc0 hc1 x0 x1 x2 f4).1)
def out0_B_4 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) : Vec F S1x16384x32 .f32 :=
  arg7.view.read (Elt F) (arg7.view.writes (Elt F) f4 (kernelRun0_B c i arg3 harg3 arg4 harg4 arg5 harg5 arg6 harg6 arg7 harg7 arg8 harg8 hc0 hc1 x0 x1 x2 f4).2.1)
def out0_B_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) : Vec F S512x2048 .bf16 :=
  VO0_5.read (Elt F) (VO0_5.writes (Elt F) VO0_5.junk (kernelRun0_B c i arg3 harg3 arg4 harg4 arg5 harg5 arg6 harg6 arg7 harg7 arg8 harg8 hc0 hc1 x0 x1 x2 f4).2.2.1)
/-- Case C (no reset): both accumulators are the body's stores over what they held. -/
def out0_C_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec F S512x2048 .f32) (x1 : Vec F S512x32 .f32) (x2 : Vec F S2048x32 .f32) (f3 : arg6.view.ty.Contents (Elt F)) (f4 : arg7.view.ty.Contents (Elt F)) : Vec F S512x32 .f32 :=
  arg6.view.read (Elt F) (arg6.view.writes (Elt F) f3 (kernelRun0_C c i arg3 harg3 arg4 harg4 arg5 harg5 arg6 harg6 arg7 harg7 arg8 harg8 hc0 hc1 x0 x1 x2 f3 f4).1)
def out0_C_4 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec F S512x2048 .f32) (x1 : Vec F S512x32 .f32) (x2 : Vec F S2048x32 .f32) (f3 : arg6.view.ty.Contents (Elt F)) (f4 : arg7.view.ty.Contents (Elt F)) : Vec F S1x16384x32 .f32 :=
  arg7.view.read (Elt F) (arg7.view.writes (Elt F) f4 (kernelRun0_C c i arg3 harg3 arg4 harg4 arg5 harg5 arg6 harg6 arg7 harg7 arg8 harg8 hc0 hc1 x0 x1 x2 f3 f4).2.1)
def out0_C_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec F S512x2048 .f32) (x1 : Vec F S512x32 .f32) (x2 : Vec F S2048x32 .f32) (f3 : arg6.view.ty.Contents (Elt F)) (f4 : arg7.view.ty.Contents (Elt F)) : Vec F S512x2048 .bf16 :=
  VO0_5.read (Elt F) (VO0_5.writes (Elt F) VO0_5.junk (kernelRun0_C c i arg3 harg3 arg4 harg4 arg5 harg5 arg6 harg6 arg7 harg7 arg8 harg8 hc0 hc1 x0 x1 x2 f3 f4).2.2.1)

/-- The three outputs' contents: u_next's row tile, the core's i_next partial, the bf16 adjacency tile. -/
abbrev Outs0 (F : FTy → Type) [FloatOps F] : Type := Vec F S512x32 .f32 × Vec F S1x16384x32 .f32 × Vec F S512x2048 .bf16

/-- One point: the case the point's position selects, run on the point's memrefs and input blocks over what the point
    before left (`prev`, unused where the case resets). -/
def step0 (c : Dev nD) (t : Fin cfg0.N) (prev : Outs0 F) : Outs0 F :=
  if h64 : t.val % 64 = 0 then
    (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t))
  else if h8 : t.val % 8 = 0 then
    (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread prev.2.1), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread prev.2.1),
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread prev.2.1))
  else
    (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread prev.1) ((hs0_4 t).unread prev.2.1),
      out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread prev.1) ((hs0_4 t).unread prev.2.1),
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread prev.1) ((hs0_4 t).unread prev.2.1))

/-- Contents nobody names (before the first point). -/
def junk0 : Outs0 F := (VO0_3.read (Elt F) VO0_3.junk, VO0_4.read (Elt F) VO0_4.junk, VO0_5.read (Elt F) VO0_5.junk)

/-- THE ACCUMULATION: what the outputs' buffers hold after the body at position `n`. -/
def outsAt0 (c : Dev nD) : (n : ℕ) → n < cfg0.N → Outs0 F
  | 0, hn => step0 V c ⟨0, hn⟩ junk0
  | n + 1, hn => step0 V c ⟨n + 1, hn⟩ (outsAt0 c n (Nat.lt_of_succ_lt hn))

/-- What the point before `t` left (nothing named before the first point). -/
def prevAt0 (c : Dev nD) (t : Fin cfg0.N) : Outs0 F :=
  if h : t.val = 0 then junk0 else outsAt0 V c (t.val - 1) (Nat.lt_of_le_of_lt (Nat.sub_le _ _) t.isLt)

theorem outsAt0_eq (c : Dev nD) (t : Fin cfg0.N) : outsAt0 V c t.val t.isLt = step0 V c t (prevAt0 V c t) := by
  obtain ⟨n, hn⟩ := t
  cases n with
  | zero => rfl
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2 := by dsimp only [dat0]

/-- The outputs after a point, case by case. -/
theorem outsAt0_A (c : Dev nD) (t : Fin cfg0.N) (h64 : t.val % 64 = 0) : outsAt0 V c t.val t.isLt =
    (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t)) := by
  rw [outsAt0_eq]; unfold step0; rw [dif_pos h64]
theorem outsAt0_B (c : Dev nD) (t : Fin cfg0.N) (h64 : ¬t.val % 64 = 0) (h8 : t.val % 8 = 0) : outsAt0 V c t.val t.isLt =
    (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1)) := by
  rw [outsAt0_eq]; unfold step0; rw [dif_neg h64, dif_pos h8]
theorem outsAt0_C (c : Dev nD) (t : Fin cfg0.N) (h64 : ¬t.val % 64 = 0) (h8 : ¬t.val % 8 = 0) : outsAt0 V c t.val t.isLt =
    (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1), out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1), out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1)) := by
  rw [outsAt0_eq]; unfold step0; rw [dif_neg h64, dif_neg h8]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- Off the points ≡ 0 (mod 8) the row-tile accumulator's buffer holds what the point before left: it was not written
    back in between (that happens after the points ≡ 7 (mod 8)). -/
theorem before0_3_kept (c : Dev nD) (t : Fin cfg0.N) (h8 : ¬t.val % 8 = 0) (d) :
    (dat0 V c).before 3 t d = (prevAt0 V c t).1 := by
  have hN : t.val < 128 := lt_of_lt_of_eq t.isLt (show cfg0.N = 128 from N_0)
  have h0 : t.val ≠ 0 := fun h => h8 (by rw [h])
  rw [Dat.before_out_kept _ 3 rfl t h0 (Bool.eq_false_iff.mpr fun h => by have := (flush0_3 _).mp h; dsimp only at this; omega)
    (fun _ => rfl) (fun _ _ => rfl)]
  unfold prevAt0; rw [dif_neg h0]
  dsimp only [dat0]

/-- Off the points ≡ 0 (mod 64) the i_next partial's buffer holds what the point before left. -/
theorem before0_4_kept (c : Dev nD) (t : Fin cfg0.N) (h64 : ¬t.val % 64 = 0) (d) :
    (dat0 V c).before 4 t d = (prevAt0 V c t).2.1 := by
  have hN : t.val < 128 := lt_of_lt_of_eq t.isLt (show cfg0.N = 128 from N_0)
  have h0 : t.val ≠ 0 := fun h => h64 (by rw [h])
  rw [Dat.before_out_kept _ 4 rfl t h0 (Bool.eq_false_iff.mpr fun h => by have := (flush0_4 _).mp h; dsimp only at this; omega)
    (fun _ => rfl) (fun _ _ => rfl)]
  unfold prevAt0; rw [dif_neg h0]
  dsimp only [dat0]

/-! ## The body obligation's two sides -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

end Region0

end Cert.KernelIdeal.Hand

end
-- ==== Proof.R0BodyA.lean ====
/-
  Region 0, the body obligation at a point of control case A: both accumulators are reset, so nothing is read of what the outputs' buffers held.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R0Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

set_option maxHeartbeats 1600000 in
theorem sound_body0_A (c : Dev nD) (t : Fin cfg0.N) (h64 : t.val % 64 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [outsAt0_A V c t h64]
  dsimp only
  unfold out0_A_3 out0_A_4 out0_A_5
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover (ms0_3 t).view e3 VO0_3 VO0_3.junk _ (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t))
  isplitl [H4]
  · unfold owns; iexists _; isplitr
    swap; · iexact H4
    ipureintro; exact View.read_writes_of_cover (ms0_4 t).view e4 VO0_4 VO0_4.junk _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t))
  unfold owns; iexists _; isplitr
  swap; · iexact H5
  ipureintro; exact View.read_writes_of_cover (ms0_5 t).view e5 VO0_5 VO0_5.junk _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t))

end Region0

end Cert.KernelIdeal.Hand

end
-- ==== Proof.R0BodyB.lean ====
/-
  Region 0, the body obligation at a point of control case B: the row-tile accumulator is reset; the i_next partial's buffer holds what the point before left.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R0Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

set_option maxHeartbeats 1600000 in
theorem sound_body0_B (c : Dev nD) (t : Fin cfg0.N) (h64 : ¬t.val % 64 = 0) (h8 : t.val % 8 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [outsAt0_B V c t h64 h8]
  dsimp only
  unfold out0_B_3 out0_B_4 out0_B_5
  simp only [before0_4_kept V c t h64]
  iintro ⟨HΦ, Ho, ⟨%d0, H0⟩, ⟨%d1, H1⟩, ⟨%d2, H2⟩, ⟨%d3, H3⟩, ⟨%d4, H4⟩, ⟨%d5, H5⟩⟩
  unfold owns
  icases H4 with ⟨%f4, %hf4, H4⟩
  obtain rfl := (hs0_4 t).eq_unread hf4
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1)).2.2.2 Set.univ _)
  unfold owns
  isplitl [H0]; · iexact H0
  isplitl [H1]; · iexact H1
  isplitl [H2]; · iexact H2
  isplitl [H3]; · iexists _; iexact H3
  isplitl [H4]; · iexact H4
  isplitl [H5]; · iexists _; iexact H5
  iintro ⟨H0, H1, H2, ⟨%e3, H3⟩, H4, ⟨%e5, H5⟩⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; exact View.read_writes_of_cover (ms0_3 t).view e3 VO0_3 VO0_3.junk _ (cover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1))
  isplitl [H4]
  · iexists _; isplitr
    swap; · iexact H4
    ipureintro; rfl
  iexists _; isplitr
  swap; · iexact H5
  ipureintro; exact View.read_writes_of_cover (ms0_5 t).view e5 VO0_5 VO0_5.junk _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1))

end Region0

end Cert.KernelIdeal.Hand

end
-- ==== Proof.R0BodyC.lean ====
/-
  Region 0, the body obligation at a point of control case C: no reset; both accumulators' buffers hold what the point before left.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R0Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

set_option maxHeartbeats 1600000 in
theorem sound_body0_C (c : Dev nD) (t : Fin cfg0.N) (h64 : ¬t.val % 64 = 0) (h8 : ¬t.val % 8 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [outsAt0_C V c t h64 h8]
  dsimp only
  unfold out0_C_3 out0_C_4 out0_C_5
  simp only [before0_4_kept V c t h64, before0_3_kept V c t h8]
  iintro ⟨HΦ, Ho, ⟨%d0, H0⟩, ⟨%d1, H1⟩, ⟨%d2, H2⟩, ⟨%d3, H3⟩, ⟨%d4, H4⟩, ⟨%d5, H5⟩⟩
  unfold owns
  icases H3 with ⟨%f3, %hf3, H3⟩
  icases H4 with ⟨%f4, %hf4, H4⟩
  obtain rfl := (hs0_3 t).eq_unread hf3
  obtain rfl := (hs0_4 t).eq_unread hf4
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1)).2.2.2 Set.univ _)
  unfold owns
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; rfl
  isplitl [H4]
  · iexists _; isplitr
    swap; · iexact H4
    ipureintro; rfl
  iexists _; isplitr
  swap; · iexact H5
  ipureintro; exact View.read_writes_of_cover (ms0_5 t).view e5 VO0_5 VO0_5.junk _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1))

end Region0

end Cert.KernelIdeal.Hand

end
-- ==== Proof.R0Body.lean ====
/-
  Region 0: the body obligation at every point, by the point's control case (t ≡ 0 mod 64; t ≡ 0 mod 8 only; neither).
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R0BodyA
import proofs.«153668_j35003983462547_2_alg».proof.Proof.R0BodyB
import proofs.«153668_j35003983462547_2_alg».proof.Proof.R0BodyC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

theorem body_obligation0 (c : Dev nD) : BodyObligation (dat0 (F := F) V c) (defs₀ (F := F)) Variants.none () Set.univ := fun t => by
  rw [bigSep_W0, bigSep_W0]
  by_cases h64 : t.val % 64 = 0
  · exact sound_body0_A V c t h64
  · by_cases h8 : t.val % 8 = 0
    · exact sound_body0_B V c t h64 h8
    · exact sound_body0_C V c t h64 h8

end Region0

end Cert.KernelIdeal.Hand

end
-- ==== Proof.R1RunA.lean ====
/-
  Region 1 (round 1: bf16 adjacency in), control case A: the kernel body run on whole staging memrefs. The
  three inputs' buffers hold their blocks and come back unchanged; each output's buffer ends as the body's stores
  written, last first, over what it held. The piece lists are whatever the run of the body's stores produces.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case A. -/
noncomputable def kernelRun1_A (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : condJ1 i) (hc1 : condIJ1 i)
    (x0 : Vec F S512x2048 .bf16) (x1 : Vec F S512x32 .f32) (x2 : Vec F S2048x32 .f32) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact H4

end Cert.KernelIdeal.Hand

end
-- ==== Proof.R1RunB.lean ====
/-
  Region 1 (round 1: bf16 adjacency in), control case B: the kernel body run on whole staging memrefs. The
  three inputs' buffers hold their blocks and come back unchanged; each output's buffer ends as the body's stores
  written, last first, over what it held. The piece lists are whatever the run of the body's stores produces.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case B. -/
noncomputable def kernelRun1_B (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : condJ1 i) (hc1 : ¬condIJ1 i)
    (x0 : Vec F S512x2048 .bf16) (x1 : Vec F S512x32 .f32) (x2 : Vec F S2048x32 .f32) (f4 : arg7.view.ty.Contents (Elt F)) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (arg7.view.loc (c : Thread nD τ) ↦[arg7.view.set]{fullShare} f4)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (arg7.view.loc (c : Thread nD τ) ↦[arg7.view.set]{fullShare} arg7.view.writes (Elt F) f4 L4)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, H4, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexact H4

end Cert.KernelIdeal.Hand

end
-- ==== Proof.R1RunC.lean ====
/-
  Region 1 (round 1: bf16 adjacency in), control case C: the kernel body run on whole staging memrefs. The
  three inputs' buffers hold their blocks and come back unchanged; each output's buffer ends as the body's stores
  written, last first, over what it held. The piece lists are whatever the run of the body's stores produces.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case C. -/
noncomputable def kernelRun1_C (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : ¬condJ1 i) (hc1 : ¬condIJ1 i)
    (x0 : Vec F S512x2048 .bf16) (x1 : Vec F S512x32 .f32) (x2 : Vec F S2048x32 .f32) (f3 : arg6.view.ty.Contents (Elt F)) (f4 : arg7.view.ty.Contents (Elt F)) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (arg6.view.loc (c : Thread nD τ) ↦[arg6.view.set]{fullShare} f3) ∗ (arg7.view.loc (c : Thread nD τ) ↦[arg7.view.set]{fullShare} f4)
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) f3 L3) ∗ (arg7.view.loc (c : Thread nD τ) ↦[arg7.view.set]{fullShare} arg7.view.writes (Elt F) f4 L4)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, H3, H4, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    iexact H4

end Cert.KernelIdeal.Hand

end
-- ==== Proof.R1Data.lean ====
/-
  Region 1 (round 1) as a pipeline: what every window's staging buffer holds after the body at each of the 128 grid
  points.

  The grid is (core c, row tile i, column tile j), t = 64·c + 8·i + j. The three inputs (the bf16 adjacency tile, the
  row tile of u_k, the column tile of i_k) are re-read from their arrays. Output 3 (u_next's row tile, index (8c+i, 0))
  is reset where j = 0, added to at every j, and written back after j = 7. Output 4 (core c's partial of i_next, index
  (c,0,0), the whole [16384,32] partial resident) is reset where i = j = 0, has its rows 2048·j … 2048·j+2047 added to
  at every point, and is written back after the core's last point.
  So the contents after point t are a recursion on t: at a reset the fresh value, else a function of what point t−1 left.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R1RunA
import proofs.«153668_j35003983462547_2_alg».proof.Proof.R1RunB
import proofs.«153668_j35003983462547_2_alg».proof.Proof.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, through which contents that do not depend on what the buffer held are stated. -/
abbrev VO1_3 : View sig .tc .vmem S512x32 .f32 := (Memref.whole cc1_stg3_0 : Memref sig .tc .vmem S512x32 .f32).view
abbrev VO1_4 : View sig .tc .vmem S1x16384x32 .f32 := (Memref.whole cc1_stg4_0 : Memref sig .tc .vmem S1x16384x32 .f32).view
/-- Each window's current staging memref at point `t`, as the pipeline passes it, and its wholeness. -/
abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16384x32 .f32 := win1_4.stage (cfg1.slots t 4)
abbrev hs1_4 (t : Fin cfg1.N) : (ms1_4 t).IsWhole := hstage1_4 ((cfg1.slots t 4).cast nbuf1_4)

/-! ## Where a case's stores fill an output's block whatever it held -/

theorem cover1_A_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec F S512x2048 .bf16) (x1 : Vec F S512x32 .f32) (x2 : Vec F S2048x32 .f32) (y : S512x32.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S512x32.size (by sl_kernel_rfl) y
theorem cover1_A_4 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec F S512x2048 .bf16) (x1 : Vec F S512x32 .f32) (x2 : Vec F S2048x32 .f32) (y : S1x16384x32.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1x16384x32.size (by sl_kernel_rfl) y
theorem cover1_B_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : ¬condIJ1 i) (x0 : Vec F S512x2048 .bf16) (x1 : Vec F S512x32 .f32) (x2 : Vec F S2048x32 .f32) (f4 : arg7.view.ty.Contents (Elt F)) (y : S512x32.Idx) :
    ∃ pc ∈ (kernelRun1_B c i arg3 harg3 arg4 harg4 arg5 harg5 arg6 harg6 arg7 harg7 hc0 hc1 x0 x1 x2 f4).1, y ∈ pc.1.set :=
  View.cover_of_tiledL (kernelRun1_B c i arg3 harg3 arg4 harg4 arg5 harg5 arg6 harg6 arg7 harg7 hc0 hc1 x0 x1 x2 f4).1 S512x32.size (by sl_kernel_rfl) y

/-! ## What each case leaves in the two outputs' buffers -/

/-- Case A (both resets): nothing depends on what the buffers held. -/
def out1_A_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec F S512x2048 .bf16) (x1 : Vec F S512x32 .f32) (x2 : Vec F S2048x32 .f32) : Vec F S512x32 .f32 :=
  VO1_3.read (Elt F) (VO1_3.writes (Elt F) VO1_3.junk (kernelRun1_A c i arg3 harg3 arg4 harg4 arg5 harg5 arg6 harg6 arg7 harg7 hc0 hc1 x0 x1 x2).1)
def out1_A_4 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec F S512x2048 .bf16) (x1 : Vec F S512x32 .f32) (x2 : Vec F S2048x32 .f32) : Vec F S1x16384x32 .f32 :=
  VO1_4.read (Elt F) (VO1_4.writes (Elt F) VO1_4.junk (kernelRun1_A c i arg3 harg3 arg4 harg4 arg5 harg5 arg6 harg6 arg7 harg7 hc0 hc1 x0 x1 x2).2.1)
/-- Case B (the row-tile accumulator reset): the i_next partial is the body's slice store over what it held. -/
def out1_B_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : ¬condIJ1 i) (x0 : Vec F S512x2048 .bf16) (x1 : Vec F S512x32 .f32) (x2 : Vec F S2048x32 .f32) (f4 : arg7.view.ty.Contents (Elt F)) : Vec F S512x32 .f32 :=
  VO1_3.read (Elt F) (VO1_3.writes (Elt F) VO1_3.junk (kernelRun1_B c i arg3 harg3 arg4 harg4 arg5 harg5 arg6 harg6 arg7 harg7 hc0 hc1 x0 x1 x2 f4).1)
def out1_B_4 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : ¬condIJ1 i) (x0 : Vec F S512x2048 .bf16) (x1 : Vec F S512x32 .f32) (x2 : Vec F S2048x32 .f32) (f4 : arg7.view.ty.Contents (Elt F)) : Vec F S1x16384x32 .f32 :=
  arg7.view.read (Elt F) (arg7.view.writes (Elt F) f4 (kernelRun1_B c i arg3 harg3 arg4 harg4 arg5 harg5 arg6 harg6 arg7 harg7 hc0 hc1 x0 x1 x2 f4).2.1)
/-- Case C (no reset): both accumulators are the body's stores over what they held. -/
def out1_C_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ1 i) (hc1 : ¬condIJ1 i) (x0 : Vec F S512x2048 .bf16) (x1 : Vec F S512x32 .f32) (x2 : Vec F S2048x32 .f32) (f3 : arg6.view.ty.Contents (Elt F)) (f4 : arg7.view.ty.Contents (Elt F)) : Vec F S512x32 .f32 :=
  arg6.view.read (Elt F) (arg6.view.writes (Elt F) f3 (kernelRun1_C c i arg3 harg3 arg4 harg4 arg5 harg5 arg6 harg6 arg7 harg7 hc0 hc1 x0 x1 x2 f3 f4).1)
def out1_C_4 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ1 i) (hc1 : ¬condIJ1 i) (x0 : Vec F S512x2048 .bf16) (x1 : Vec F S512x32 .f32) (x2 : Vec F S2048x32 .f32) (f3 : arg6.view.ty.Contents (Elt F)) (f4 : arg7.view.ty.Contents (Elt F)) : Vec F S1x16384x32 .f32 :=
  arg7.view.read (Elt F) (arg7.view.writes (Elt F) f4 (kernelRun1_C c i arg3 harg3 arg4 harg4 arg5 harg5 arg6 harg6 arg7 harg7 hc0 hc1 x0 x1 x2 f3 f4).2.1)

/-- The two outputs' contents: u_next's row tile, the core's i_next partial. -/
abbrev Outs1 (F : FTy → Type) [FloatOps F] : Type := Vec F S512x32 .f32 × Vec F S1x16384x32 .f32

/-- One point: the case the point's position selects, run on the point's memrefs and input blocks over what the point
    before left (`prev`, unused where the case resets). -/
def step1 (c : Dev nD) (t : Fin cfg1.N) (prev : Outs1 F) : Outs1 F :=
  if h64 : t.val % 64 = 0 then
    (out1_A_3 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t))
  else if h8 : t.val % 8 = 0 then
    (out1_B_3 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread prev.2), out1_B_4 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread prev.2))
  else
    (out1_C_3 c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread prev.1) ((hs1_4 t).unread prev.2),
      out1_C_4 c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread prev.1) ((hs1_4 t).unread prev.2))

/-- Contents nobody names (before the first point). -/
def junk1 : Outs1 F := (VO1_3.read (Elt F) VO1_3.junk, VO1_4.read (Elt F) VO1_4.junk)

/-- THE ACCUMULATION: what the outputs' buffers hold after the body at position `n`. -/
def outsAt1 (c : Dev nD) : (n : ℕ) → n < cfg1.N → Outs1 F
  | 0, hn => step1 V c ⟨0, hn⟩ junk1
  | n + 1, hn => step1 V c ⟨n + 1, hn⟩ (outsAt1 c n (Nat.lt_of_succ_lt hn))

/-- What the point before `t` left (nothing named before the first point). -/
def prevAt1 (c : Dev nD) (t : Fin cfg1.N) : Outs1 F :=
  if h : t.val = 0 then junk1 else outsAt1 V c (t.val - 1) (Nat.lt_of_le_of_lt (Nat.sub_le _ _) t.isLt)

theorem outsAt1_eq (c : Dev nD) (t : Fin cfg1.N) : outsAt1 V c t.val t.isLt = step1 V c t (prevAt1 V c t) := by
  obtain ⟨n, hn⟩ := t
  cases n with
  | zero => rfl
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

/-- The outputs after a point, case by case. -/
theorem outsAt1_A (c : Dev nD) (t : Fin cfg1.N) (h64 : t.val % 64 = 0) : outsAt1 V c t.val t.isLt =
    (out1_A_3 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t)) := by
  rw [outsAt1_eq]; unfold step1; rw [dif_pos h64]
theorem outsAt1_B (c : Dev nD) (t : Fin cfg1.N) (h64 : ¬t.val % 64 = 0) (h8 : t.val % 8 = 0) : outsAt1 V c t.val t.isLt =
    (out1_B_3 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread (prevAt1 V c t).2), out1_B_4 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread (prevAt1 V c t).2)) := by
  rw [outsAt1_eq]; unfold step1; rw [dif_neg h64, dif_pos h8]
theorem outsAt1_C (c : Dev nD) (t : Fin cfg1.N) (h64 : ¬t.val % 64 = 0) (h8 : ¬t.val % 8 = 0) : outsAt1 V c t.val t.isLt =
    (out1_C_3 c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread (prevAt1 V c t).1) ((hs1_4 t).unread (prevAt1 V c t).2), out1_C_4 c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread (prevAt1 V c t).1) ((hs1_4 t).unread (prevAt1 V c t).2)) := by
  rw [outsAt1_eq]; unfold step1; rw [dif_neg h64, dif_neg h8]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Off the points ≡ 0 (mod 8) the row-tile accumulator's buffer holds what the point before left: it was not written
    back in between (that happens after the points ≡ 7 (mod 8)). -/
theorem before1_3_kept (c : Dev nD) (t : Fin cfg1.N) (h8 : ¬t.val % 8 = 0) (d) :
    (dat1 V c).before 3 t d = (prevAt1 V c t).1 := by
  have hN : t.val < 128 := lt_of_lt_of_eq t.isLt (show cfg1.N = 128 from N_1)
  have h0 : t.val ≠ 0 := fun h => h8 (by rw [h])
  rw [Dat.before_out_kept _ 3 rfl t h0 (Bool.eq_false_iff.mpr fun h => by have := (flush1_3 _).mp h; dsimp only at this; omega)
    (fun _ => rfl) (fun _ _ => rfl)]
  unfold prevAt1; rw [dif_neg h0]
  dsimp only [dat1]

/-- Off the points ≡ 0 (mod 64) the i_next partial's buffer holds what the point before left. -/
theorem before1_4_kept (c : Dev nD) (t : Fin cfg1.N) (h64 : ¬t.val % 64 = 0) (d) :
    (dat1 V c).before 4 t d = (prevAt1 V c t).2 := by
  have hN : t.val < 128 := lt_of_lt_of_eq t.isLt (show cfg1.N = 128 from N_1)
  have h0 : t.val ≠ 0 := fun h => h64 (by rw [h])
  rw [Dat.before_out_kept _ 4 rfl t h0 (Bool.eq_false_iff.mpr fun h => by have := (flush1_4 _).mp h; dsimp only at this; omega)
    (fun _ => rfl) (fun _ _ => rfl)]
  unfold prevAt1; rw [dif_neg h0]
  dsimp only [dat1]

/-! ## The body obligation's two sides -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

end Region1

end Cert.KernelIdeal.Hand

end
-- ==== Proof.R1BodyA.lean ====
/-
  Region 1, the body obligation at a point of control case A: both accumulators are reset, so nothing is read of what the outputs' buffers held.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

set_option maxHeartbeats 1600000 in
theorem sound_body1_A (c : Dev nD) (t : Fin cfg1.N) (h64 : t.val % 64 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  rw [outsAt1_A V c t h64]
  dsimp only
  unfold out1_A_3 out1_A_4
  iintro ⟨HΦ, Ho, ⟨%d0, H0⟩, ⟨%d1, H1⟩, ⟨%d2, H2⟩, ⟨%d3, H3⟩, ⟨%d4, H4⟩⟩
  iapply ((kernelRun1_A c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover (ms1_3 t).view e3 VO1_3 VO1_3.junk _ (cover1_A_3 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t))
  unfold owns; iexists _; isplitr
  swap; · iexact H4
  ipureintro; exact View.read_writes_of_cover (ms1_4 t).view e4 VO1_4 VO1_4.junk _ (cover1_A_4 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t))

end Region1

end Cert.KernelIdeal.Hand

end
-- ==== Proof.R1BodyB.lean ====
/-
  Region 1, the body obligation at a point of control case B: the row-tile accumulator is reset; the i_next partial's buffer holds what the point before left.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

set_option maxHeartbeats 1600000 in
theorem sound_body1_B (c : Dev nD) (t : Fin cfg1.N) (h64 : ¬t.val % 64 = 0) (h8 : t.val % 8 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  rw [outsAt1_B V c t h64 h8]
  dsimp only
  unfold out1_B_3 out1_B_4
  simp only [before1_4_kept V c t h64]
  iintro ⟨HΦ, Ho, ⟨%d0, H0⟩, ⟨%d1, H1⟩, ⟨%d2, H2⟩, ⟨%d3, H3⟩, ⟨%d4, H4⟩⟩
  unfold owns
  icases H4 with ⟨%f4, %hf4, H4⟩
  obtain rfl := (hs1_4 t).eq_unread hf4
  iapply ((kernelRun1_B c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread (prevAt1 V c t).2)).2.2 Set.univ _)
  unfold owns
  isplitl [H0]; · iexact H0
  isplitl [H1]; · iexact H1
  isplitl [H2]; · iexact H2
  isplitl [H3]; · iexists _; iexact H3
  isplitl [H4]; · iexact H4
  iintro ⟨H0, H1, H2, ⟨%e3, H3⟩, H4⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; exact View.read_writes_of_cover (ms1_3 t).view e3 VO1_3 VO1_3.junk _ (cover1_B_3 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread (prevAt1 V c t).2))
  iexists _; isplitr
  swap; · iexact H4
  ipureintro; rfl

end Region1

end Cert.KernelIdeal.Hand

end
-- ==== Proof.R1BodyC.lean ====
/-
  Region 1, the body obligation at a point of control case C: no reset; both accumulators' buffers hold what the point before left.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

set_option maxHeartbeats 1600000 in
theorem sound_body1_C (c : Dev nD) (t : Fin cfg1.N) (h64 : ¬t.val % 64 = 0) (h8 : ¬t.val % 8 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  rw [outsAt1_C V c t h64 h8]
  dsimp only
  unfold out1_C_3 out1_C_4
  simp only [before1_4_kept V c t h64, before1_3_kept V c t h8]
  iintro ⟨HΦ, Ho, ⟨%d0, H0⟩, ⟨%d1, H1⟩, ⟨%d2, H2⟩, ⟨%d3, H3⟩, ⟨%d4, H4⟩⟩
  unfold owns
  icases H3 with ⟨%f3, %hf3, H3⟩
  icases H4 with ⟨%f4, %hf4, H4⟩
  obtain rfl := (hs1_3 t).eq_unread hf3
  obtain rfl := (hs1_4 t).eq_unread hf4
  iapply ((kernelRun1_C c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread (prevAt1 V c t).1) ((hs1_4 t).unread (prevAt1 V c t).2)).2.2 Set.univ _)
  unfold owns
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; rfl
  iexists _; isplitr
  swap; · iexact H4
  ipureintro; rfl

end Region1

end Cert.KernelIdeal.Hand

end
-- ==== Proof.R1Body.lean ====
/-
  Region 1: the body obligation at every point, by the point's control case (t ≡ 0 mod 64; t ≡ 0 mod 8 only; neither).
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R1BodyA
import proofs.«153668_j35003983462547_2_alg».proof.Proof.R1BodyB
import proofs.«153668_j35003983462547_2_alg».proof.Proof.R1BodyC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

theorem body_obligation1 (c : Dev nD) : BodyObligation (dat1 (F := F) V c) (defs₀ (F := F)) Variants.none () Set.univ := fun t => by
  rw [bigSep_W1, bigSep_W1]
  by_cases h64 : t.val % 64 = 0
  · exact sound_body1_A V c t h64
  · by_cases h8 : t.val % 8 = 0
    · exact sound_body1_B V c t h64 h8
    · exact sound_body1_C V c t h64 h8

end Region1

end Cert.KernelIdeal.Hand

end
-- ==== Proof.R2RunA.lean ====
/-
  Region 2 (round 2: bf16 adjacency in), control case A: the kernel body run on whole staging memrefs. The
  three inputs' buffers hold their blocks and come back unchanged; each output's buffer ends as the body's stores
  written, last first, over what it held. The piece lists are whatever the run of the body's stores produces.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case A. -/
noncomputable def kernelRun2_A (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : condJ2 i) (hc1 : condIJ2 i)
    (x0 : Vec F S512x2048 .bf16) (x1 : Vec F S512x32 .f32) (x2 : Vec F S2048x32 .f32) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact H4

end Cert.KernelIdeal.Hand

end
-- ==== Proof.R2RunB.lean ====
/-
  Region 2 (round 2: bf16 adjacency in), control case B: the kernel body run on whole staging memrefs. The
  three inputs' buffers hold their blocks and come back unchanged; each output's buffer ends as the body's stores
  written, last first, over what it held. The piece lists are whatever the run of the body's stores produces.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case B. -/
noncomputable def kernelRun2_B (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : condJ2 i) (hc1 : ¬condIJ2 i)
    (x0 : Vec F S512x2048 .bf16) (x1 : Vec F S512x32 .f32) (x2 : Vec F S2048x32 .f32) (f4 : arg7.view.ty.Contents (Elt F)) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (arg7.view.loc (c : Thread nD τ) ↦[arg7.view.set]{fullShare} f4)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (arg7.view.loc (c : Thread nD τ) ↦[arg7.view.set]{fullShare} arg7.view.writes (Elt F) f4 L4)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, H4, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexact H4

end Cert.KernelIdeal.Hand

end
-- ==== Proof.R2RunC.lean ====
/-
  Region 2 (round 2: bf16 adjacency in), control case C: the kernel body run on whole staging memrefs. The
  three inputs' buffers hold their blocks and come back unchanged; each output's buffer ends as the body's stores
  written, last first, over what it held. The piece lists are whatever the run of the body's stores produces.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case C. -/
noncomputable def kernelRun2_C (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : ¬condJ2 i) (hc1 : ¬condIJ2 i)
    (x0 : Vec F S512x2048 .bf16) (x1 : Vec F S512x32 .f32) (x2 : Vec F S2048x32 .f32) (f3 : arg6.view.ty.Contents (Elt F)) (f4 : arg7.view.ty.Contents (Elt F)) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (arg6.view.loc (c : Thread nD τ) ↦[arg6.view.set]{fullShare} f3) ∗ (arg7.view.loc (c : Thread nD τ) ↦[arg7.view.set]{fullShare} f4)
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) f3 L3) ∗ (arg7.view.loc (c : Thread nD τ) ↦[arg7.view.set]{fullShare} arg7.view.writes (Elt F) f4 L4)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, H3, H4, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    iexact H4

end Cert.KernelIdeal.Hand

end
-- ==== Proof.R2Data.lean ====
/-
  Region 2 (round 2) as a pipeline: what every window's staging buffer holds after the body at each of the 128 grid
  points.

  The grid is (core c, row tile i, column tile j), t = 64·c + 8·i + j. The three inputs (the bf16 adjacency tile, the
  row tile of u_k, the column tile of i_k) are re-read from their arrays. Output 3 (u_next's row tile, index (8c+i, 0))
  is reset where j = 0, added to at every j, and written back after j = 7. Output 4 (core c's partial of i_next, index
  (c,0,0), the whole [16384,32] partial resident) is reset where i = j = 0, has its rows 2048·j … 2048·j+2047 added to
  at every point, and is written back after the core's last point.
  So the contents after point t are a recursion on t: at a reset the fresh value, else a function of what point t−1 left.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R2RunA
import proofs.«153668_j35003983462547_2_alg».proof.Proof.R2RunB
import proofs.«153668_j35003983462547_2_alg».proof.Proof.R2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of each output window, through which contents that do not depend on what the buffer held are stated. -/
abbrev VO2_3 : View sig .tc .vmem S512x32 .f32 := (Memref.whole cc2_stg3_0 : Memref sig .tc .vmem S512x32 .f32).view
abbrev VO2_4 : View sig .tc .vmem S1x16384x32 .f32 := (Memref.whole cc2_stg4_0 : Memref sig .tc .vmem S1x16384x32 .f32).view
/-- Each window's current staging memref at point `t`, as the pipeline passes it, and its wholeness. -/
abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x16384x32 .f32 := win2_4.stage (cfg2.slots t 4)
abbrev hs2_4 (t : Fin cfg2.N) : (ms2_4 t).IsWhole := hstage2_4 ((cfg2.slots t 4).cast nbuf2_4)

/-! ## Where a case's stores fill an output's block whatever it held -/

theorem cover2_A_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec F S512x2048 .bf16) (x1 : Vec F S512x32 .f32) (x2 : Vec F S2048x32 .f32) (y : S512x32.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S512x32.size (by sl_kernel_rfl) y
theorem cover2_A_4 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec F S512x2048 .bf16) (x1 : Vec F S512x32 .f32) (x2 : Vec F S2048x32 .f32) (y : S1x16384x32.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1x16384x32.size (by sl_kernel_rfl) y
theorem cover2_B_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : ¬condIJ2 i) (x0 : Vec F S512x2048 .bf16) (x1 : Vec F S512x32 .f32) (x2 : Vec F S2048x32 .f32) (f4 : arg7.view.ty.Contents (Elt F)) (y : S512x32.Idx) :
    ∃ pc ∈ (kernelRun2_B c i arg3 harg3 arg4 harg4 arg5 harg5 arg6 harg6 arg7 harg7 hc0 hc1 x0 x1 x2 f4).1, y ∈ pc.1.set :=
  View.cover_of_tiledL (kernelRun2_B c i arg3 harg3 arg4 harg4 arg5 harg5 arg6 harg6 arg7 harg7 hc0 hc1 x0 x1 x2 f4).1 S512x32.size (by sl_kernel_rfl) y

/-! ## What each case leaves in the two outputs' buffers -/

/-- Case A (both resets): nothing depends on what the buffers held. -/
def out2_A_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec F S512x2048 .bf16) (x1 : Vec F S512x32 .f32) (x2 : Vec F S2048x32 .f32) : Vec F S512x32 .f32 :=
  VO2_3.read (Elt F) (VO2_3.writes (Elt F) VO2_3.junk (kernelRun2_A c i arg3 harg3 arg4 harg4 arg5 harg5 arg6 harg6 arg7 harg7 hc0 hc1 x0 x1 x2).1)
def out2_A_4 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec F S512x2048 .bf16) (x1 : Vec F S512x32 .f32) (x2 : Vec F S2048x32 .f32) : Vec F S1x16384x32 .f32 :=
  VO2_4.read (Elt F) (VO2_4.writes (Elt F) VO2_4.junk (kernelRun2_A c i arg3 harg3 arg4 harg4 arg5 harg5 arg6 harg6 arg7 harg7 hc0 hc1 x0 x1 x2).2.1)
/-- Case B (the row-tile accumulator reset): the i_next partial is the body's slice store over what it held. -/
def out2_B_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : ¬condIJ2 i) (x0 : Vec F S512x2048 .bf16) (x1 : Vec F S512x32 .f32) (x2 : Vec F S2048x32 .f32) (f4 : arg7.view.ty.Contents (Elt F)) : Vec F S512x32 .f32 :=
  VO2_3.read (Elt F) (VO2_3.writes (Elt F) VO2_3.junk (kernelRun2_B c i arg3 harg3 arg4 harg4 arg5 harg5 arg6 harg6 arg7 harg7 hc0 hc1 x0 x1 x2 f4).1)
def out2_B_4 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : ¬condIJ2 i) (x0 : Vec F S512x2048 .bf16) (x1 : Vec F S512x32 .f32) (x2 : Vec F S2048x32 .f32) (f4 : arg7.view.ty.Contents (Elt F)) : Vec F S1x16384x32 .f32 :=
  arg7.view.read (Elt F) (arg7.view.writes (Elt F) f4 (kernelRun2_B c i arg3 harg3 arg4 harg4 arg5 harg5 arg6 harg6 arg7 harg7 hc0 hc1 x0 x1 x2 f4).2.1)
/-- Case C (no reset): both accumulators are the body's stores over what they held. -/
def out2_C_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ2 i) (hc1 : ¬condIJ2 i) (x0 : Vec F S512x2048 .bf16) (x1 : Vec F S512x32 .f32) (x2 : Vec F S2048x32 .f32) (f3 : arg6.view.ty.Contents (Elt F)) (f4 : arg7.view.ty.Contents (Elt F)) : Vec F S512x32 .f32 :=
  arg6.view.read (Elt F) (arg6.view.writes (Elt F) f3 (kernelRun2_C c i arg3 harg3 arg4 harg4 arg5 harg5 arg6 harg6 arg7 harg7 hc0 hc1 x0 x1 x2 f3 f4).1)
def out2_C_4 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ2 i) (hc1 : ¬condIJ2 i) (x0 : Vec F S512x2048 .bf16) (x1 : Vec F S512x32 .f32) (x2 : Vec F S2048x32 .f32) (f3 : arg6.view.ty.Contents (Elt F)) (f4 : arg7.view.ty.Contents (Elt F)) : Vec F S1x16384x32 .f32 :=
  arg7.view.read (Elt F) (arg7.view.writes (Elt F) f4 (kernelRun2_C c i arg3 harg3 arg4 harg4 arg5 harg5 arg6 harg6 arg7 harg7 hc0 hc1 x0 x1 x2 f3 f4).2.1)

/-- The two outputs' contents: u_next's row tile, the core's i_next partial. -/
abbrev Outs2 (F : FTy → Type) [FloatOps F] : Type := Vec F S512x32 .f32 × Vec F S1x16384x32 .f32

/-- One point: the case the point's position selects, run on the point's memrefs and input blocks over what the point
    before left (`prev`, unused where the case resets). -/
def step2 (c : Dev nD) (t : Fin cfg2.N) (prev : Outs2 F) : Outs2 F :=
  if h64 : t.val % 64 = 0 then
    (out2_A_3 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t))
  else if h8 : t.val % 8 = 0 then
    (out2_B_3 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread prev.2), out2_B_4 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread prev.2))
  else
    (out2_C_3 c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread prev.1) ((hs2_4 t).unread prev.2),
      out2_C_4 c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread prev.1) ((hs2_4 t).unread prev.2))

/-- Contents nobody names (before the first point). -/
def junk2 : Outs2 F := (VO2_3.read (Elt F) VO2_3.junk, VO2_4.read (Elt F) VO2_4.junk)

/-- THE ACCUMULATION: what the outputs' buffers hold after the body at position `n`. -/
def outsAt2 (c : Dev nD) : (n : ℕ) → n < cfg2.N → Outs2 F
  | 0, hn => step2 V c ⟨0, hn⟩ junk2
  | n + 1, hn => step2 V c ⟨n + 1, hn⟩ (outsAt2 c n (Nat.lt_of_succ_lt hn))

/-- What the point before `t` left (nothing named before the first point). -/
def prevAt2 (c : Dev nD) (t : Fin cfg2.N) : Outs2 F :=
  if h : t.val = 0 then junk2 else outsAt2 V c (t.val - 1) (Nat.lt_of_le_of_lt (Nat.sub_le _ _) t.isLt)

theorem outsAt2_eq (c : Dev nD) (t : Fin cfg2.N) : outsAt2 V c t.val t.isLt = step2 V c t (prevAt2 V c t) := by
  obtain ⟨n, hn⟩ := t
  cases n with
  | zero => rfl
  | succ n => rfl

/-! ## The pipeline's proof data -/

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2 := by dsimp only [dat2]

/-- The outputs after a point, case by case. -/
theorem outsAt2_A (c : Dev nD) (t : Fin cfg2.N) (h64 : t.val % 64 = 0) : outsAt2 V c t.val t.isLt =
    (out2_A_3 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t)) := by
  rw [outsAt2_eq]; unfold step2; rw [dif_pos h64]
theorem outsAt2_B (c : Dev nD) (t : Fin cfg2.N) (h64 : ¬t.val % 64 = 0) (h8 : t.val % 8 = 0) : outsAt2 V c t.val t.isLt =
    (out2_B_3 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread (prevAt2 V c t).2), out2_B_4 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread (prevAt2 V c t).2)) := by
  rw [outsAt2_eq]; unfold step2; rw [dif_neg h64, dif_pos h8]
theorem outsAt2_C (c : Dev nD) (t : Fin cfg2.N) (h64 : ¬t.val % 64 = 0) (h8 : ¬t.val % 8 = 0) : outsAt2 V c t.val t.isLt =
    (out2_C_3 c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread (prevAt2 V c t).1) ((hs2_4 t).unread (prevAt2 V c t).2), out2_C_4 c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread (prevAt2 V c t).1) ((hs2_4 t).unread (prevAt2 V c t).2)) := by
  rw [outsAt2_eq]; unfold step2; rw [dif_neg h64, dif_neg h8]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- Off the points ≡ 0 (mod 8) the row-tile accumulator's buffer holds what the point before left: it was not written
    back in between (that happens after the points ≡ 7 (mod 8)). -/
theorem before2_3_kept (c : Dev nD) (t : Fin cfg2.N) (h8 : ¬t.val % 8 = 0) (d) :
    (dat2 V c).before 3 t d = (prevAt2 V c t).1 := by
  have hN : t.val < 128 := lt_of_lt_of_eq t.isLt (show cfg2.N = 128 from N_2)
  have h0 : t.val ≠ 0 := fun h => h8 (by rw [h])
  rw [Dat.before_out_kept _ 3 rfl t h0 (Bool.eq_false_iff.mpr fun h => by have := (flush2_3 _).mp h; dsimp only at this; omega)
    (fun _ => rfl) (fun _ _ => rfl)]
  unfold prevAt2; rw [dif_neg h0]
  dsimp only [dat2]

/-- Off the points ≡ 0 (mod 64) the i_next partial's buffer holds what the point before left. -/
theorem before2_4_kept (c : Dev nD) (t : Fin cfg2.N) (h64 : ¬t.val % 64 = 0) (d) :
    (dat2 V c).before 4 t d = (prevAt2 V c t).2 := by
  have hN : t.val < 128 := lt_of_lt_of_eq t.isLt (show cfg2.N = 128 from N_2)
  have h0 : t.val ≠ 0 := fun h => h64 (by rw [h])
  rw [Dat.before_out_kept _ 4 rfl t h0 (Bool.eq_false_iff.mpr fun h => by have := (flush2_4 _).mp h; dsimp only at this; omega)
    (fun _ => rfl) (fun _ _ => rfl)]
  unfold prevAt2; rw [dif_neg h0]
  dsimp only [dat2]

/-! ## The body obligation's two sides -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

end Region2

end Cert.KernelIdeal.Hand

end
-- ==== Proof.R2BodyA.lean ====
/-
  Region 2, the body obligation at a point of control case A: both accumulators are reset, so nothing is read of what the outputs' buffers held.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

set_option maxHeartbeats 1600000 in
theorem sound_body2_A (c : Dev nD) (t : Fin cfg2.N) (h64 : t.val % 64 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  rw [outsAt2_A V c t h64]
  dsimp only
  unfold out2_A_3 out2_A_4
  iintro ⟨HΦ, Ho, ⟨%d0, H0⟩, ⟨%d1, H1⟩, ⟨%d2, H2⟩, ⟨%d3, H3⟩, ⟨%d4, H4⟩⟩
  iapply ((kernelRun2_A c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover (ms2_3 t).view e3 VO2_3 VO2_3.junk _ (cover2_A_3 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t))
  unfold owns; iexists _; isplitr
  swap; · iexact H4
  ipureintro; exact View.read_writes_of_cover (ms2_4 t).view e4 VO2_4 VO2_4.junk _ (cover2_A_4 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t))

end Region2

end Cert.KernelIdeal.Hand

end
-- ==== Proof.R2BodyB.lean ====
/-
  Region 2, the body obligation at a point of control case B: the row-tile accumulator is reset; the i_next partial's buffer holds what the point before left.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

set_option maxHeartbeats 1600000 in
theorem sound_body2_B (c : Dev nD) (t : Fin cfg2.N) (h64 : ¬t.val % 64 = 0) (h8 : t.val % 8 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  rw [outsAt2_B V c t h64 h8]
  dsimp only
  unfold out2_B_3 out2_B_4
  simp only [before2_4_kept V c t h64]
  iintro ⟨HΦ, Ho, ⟨%d0, H0⟩, ⟨%d1, H1⟩, ⟨%d2, H2⟩, ⟨%d3, H3⟩, ⟨%d4, H4⟩⟩
  unfold owns
  icases H4 with ⟨%f4, %hf4, H4⟩
  obtain rfl := (hs2_4 t).eq_unread hf4
  iapply ((kernelRun2_B c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread (prevAt2 V c t).2)).2.2 Set.univ _)
  unfold owns
  isplitl [H0]; · iexact H0
  isplitl [H1]; · iexact H1
  isplitl [H2]; · iexact H2
  isplitl [H3]; · iexists _; iexact H3
  isplitl [H4]; · iexact H4
  iintro ⟨H0, H1, H2, ⟨%e3, H3⟩, H4⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; exact View.read_writes_of_cover (ms2_3 t).view e3 VO2_3 VO2_3.junk _ (cover2_B_3 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread (prevAt2 V c t).2))
  iexists _; isplitr
  swap; · iexact H4
  ipureintro; rfl

end Region2

end Cert.KernelIdeal.Hand

end
-- ==== Proof.R2BodyC.lean ====
/-
  Region 2, the body obligation at a point of control case C: no reset; both accumulators' buffers hold what the point before left.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

set_option maxHeartbeats 1600000 in
theorem sound_body2_C (c : Dev nD) (t : Fin cfg2.N) (h64 : ¬t.val % 64 = 0) (h8 : ¬t.val % 8 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  rw [outsAt2_C V c t h64 h8]
  dsimp only
  unfold out2_C_3 out2_C_4
  simp only [before2_4_kept V c t h64, before2_3_kept V c t h8]
  iintro ⟨HΦ, Ho, ⟨%d0, H0⟩, ⟨%d1, H1⟩, ⟨%d2, H2⟩, ⟨%d3, H3⟩, ⟨%d4, H4⟩⟩
  unfold owns
  icases H3 with ⟨%f3, %hf3, H3⟩
  icases H4 with ⟨%f4, %hf4, H4⟩
  obtain rfl := (hs2_3 t).eq_unread hf3
  obtain rfl := (hs2_4 t).eq_unread hf4
  iapply ((kernelRun2_C c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread (prevAt2 V c t).1) ((hs2_4 t).unread (prevAt2 V c t).2)).2.2 Set.univ _)
  unfold owns
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; rfl
  iexists _; isplitr
  swap; · iexact H4
  ipureintro; rfl

end Region2

end Cert.KernelIdeal.Hand

end
-- ==== Proof.R2Body.lean ====
/-
  Region 2: the body obligation at every point, by the point's control case (t ≡ 0 mod 64; t ≡ 0 mod 8 only; neither).
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.R2BodyA
import proofs.«153668_j35003983462547_2_alg».proof.Proof.R2BodyB
import proofs.«153668_j35003983462547_2_alg».proof.Proof.R2BodyC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

theorem body_obligation2 (c : Dev nD) : BodyObligation (dat2 (F := F) V c) (defs₀ (F := F)) Variants.none () Set.univ := fun t => by
  rw [bigSep_W2, bigSep_W2]
  by_cases h64 : t.val % 64 = 0
  · exact sound_body2_A V c t h64
  · by_cases h8 : t.val % 8 = 0
    · exact sound_body2_B V c t h64 h8
    · exact sound_body2_C V c t h64 h8

end Region2

end Cert.KernelIdeal.Hand

end
-- ==== Proof.Run.lean ====
/-
  The run of @main: three rounds, each a pipelined region followed by a stretch of host operations.

  The unscoped buffers' contents at each boundary are a fold from the launch memory: a region replaces its windows'
  arrays by what its write-backs leave; a host stretch applies its operations. The launch theorem for a program given
  as a list of segments then says: every weakly fair execution terminates, faults nowhere, and ends with every
  unscoped buffer at the last boundary's contents `B6`. The arguments walk back through the fold to the launch memory.
-/
import proofs.«153668_j35003983462547_2_alg».proof.Proof.Gen.KernelIdeal.Launch
import proofs.«153668_j35003983462547_2_alg».proof.Proof.Gen.KernelIdeal.Skeleton
import proofs.«153668_j35003983462547_2_alg».proof.Proof.Gen.KernelIdeal.Points
import proofs.«153668_j35003983462547_2_alg».proof.Proof.Gen.KernelIdeal.Regions
import proofs.«153668_j35003983462547_2_alg».proof.Proof.R0Body
import proofs.«153668_j35003983462547_2_alg».proof.Proof.R1Body
import proofs.«153668_j35003983462547_2_alg».proof.Proof.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m ((c : Dev nD), b)
abbrev BV0 : (c : Dev nD) → (b : Ref sig .tc) → Buf (Elt F) ((c : Thread nD τ).loc b) := fun c b => B0 m c b

/-- After round 0's region: its windows' arrays at what the pipeline leaves (an input as entered, an output with its
    write-backs folded in), every other buffer as entered. -/
def B1 (c : Dev nD) : Valuation τ sig (Elt F) :=
  Pipeline.withArrays spec0 c (B0 m c) fun w => (dat0 (BV0 m) c).arrAt w cfg0.N
theorem B1_arr (c : Dev nD) (w : Fin cfg0.W) :
    B1 m c (Proc.devRef .tc (Pipeline.arrRef spec0 w)) = (dat0 (BV0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev BV1 : (c : Dev nD) → (b : Ref sig .tc) → Buf (Elt F) ((c : Thread nD τ).loc b) := fun c b => B1 m c b
theorem hF0 (c : Dev nD) (w : Fin cfg0.W) : (dat0 (BV0 m) c).arrAt w cfg0.N = BV1 m c (Pipeline.arrRef spec0 w) :=
  (B1_arr m c w).symm
theorem hrest0 (c : Dev nD) : ∀ b, b ∉ Finset.univ.image (Pipeline.arrRef spec0) → BV1 m c b = BV0 m c b :=
  fun b hb => B1_of_ne m c b fun w e => hb (Finset.mem_image.mpr ⟨w, Finset.mem_univ _, e⟩)

/-- After the host operations that follow (slice the two per-core partials of i_next apart, add them, add the round's
    results to the running sums). -/
abbrev B2 (c : Dev nD) : Valuation τ sig (Elt F) := StableHlo.after hostOps1 (B1 m c)
abbrev BV2 : (c : Dev nD) → (b : Ref sig .tc) → Buf (Elt F) ((c : Thread nD τ).loc b) := fun c b => B2 m c b
theorem B2_of (c : Dev nD) (r : Ref sig .tc) (h : r ∉ hostOps1_W) : B2 m c r = B1 m c r :=
  StableHlo.after_of_writes_sub hostOps1 _ hostOps1_writes h

/-- After round 1's region: its windows' arrays at what the pipeline leaves (an input as entered, an output with its
    write-backs folded in), every other buffer as entered. -/
def B3 (c : Dev nD) : Valuation τ sig (Elt F) :=
  Pipeline.withArrays spec1 c (B2 m c) fun w => (dat1 (BV2 m) c).arrAt w cfg1.N
theorem B3_arr (c : Dev nD) (w : Fin cfg1.W) :
    B3 m c (Proc.devRef .tc (Pipeline.arrRef spec1 w)) = (dat1 (BV2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev BV3 : (c : Dev nD) → (b : Ref sig .tc) → Buf (Elt F) ((c : Thread nD τ).loc b) := fun c b => B3 m c b
theorem hF1 (c : Dev nD) (w : Fin cfg1.W) : (dat1 (BV2 m) c).arrAt w cfg1.N = BV3 m c (Pipeline.arrRef spec1 w) :=
  (B3_arr m c w).symm
theorem hrest1 (c : Dev nD) : ∀ b, b ∉ Finset.univ.image (Pipeline.arrRef spec1) → BV3 m c b = BV2 m c b :=
  fun b hb => B3_of_ne m c b fun w e => hb (Finset.mem_image.mpr ⟨w, Finset.mem_univ _, e⟩)

/-- After the host operations that follow (slice the two per-core partials of i_next apart, add them, add the round's
    results to the running sums). -/
abbrev B4 (c : Dev nD) : Valuation τ sig (Elt F) := StableHlo.after hostOps2 (B3 m c)
abbrev BV4 : (c : Dev nD) → (b : Ref sig .tc) → Buf (Elt F) ((c : Thread nD τ).loc b) := fun c b => B4 m c b
theorem B4_of (c : Dev nD) (r : Ref sig .tc) (h : r ∉ hostOps2_W) : B4 m c r = B3 m c r :=
  StableHlo.after_of_writes_sub hostOps2 _ hostOps2_writes h

/-- After round 2's region: its windows' arrays at what the pipeline leaves (an input as entered, an output with its
    write-backs folded in), every other buffer as entered. -/
def B5 (c : Dev nD) : Valuation τ sig (Elt F) :=
  Pipeline.withArrays spec2 c (B4 m c) fun w => (dat2 (BV4 m) c).arrAt w cfg2.N
theorem B5_arr (c : Dev nD) (w : Fin cfg2.W) :
    B5 m c (Proc.devRef .tc (Pipeline.arrRef spec2 w)) = (dat2 (BV4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
abbrev BV5 : (c : Dev nD) → (b : Ref sig .tc) → Buf (Elt F) ((c : Thread nD τ).loc b) := fun c b => B5 m c b
theorem hF2 (c : Dev nD) (w : Fin cfg2.W) : (dat2 (BV4 m) c).arrAt w cfg2.N = BV5 m c (Pipeline.arrRef spec2 w) :=
  (B5_arr m c w).symm
theorem hrest2 (c : Dev nD) : ∀ b, b ∉ Finset.univ.image (Pipeline.arrRef spec2) → BV5 m c b = BV4 m c b :=
  fun b hb => B5_of_ne m c b fun w e => hb (Finset.mem_image.mpr ⟨w, Finset.mem_univ _, e⟩)

/-- After the host operations that follow (slice the two per-core partials of i_next apart, add them, add the round's
    results to the running sums, and scale both sums by 1/4). -/
abbrev B6 (c : Dev nD) : Valuation τ sig (Elt F) := StableHlo.after hostOps3 (B5 m c)
abbrev BV6 : (c : Dev nD) → (b : Ref sig .tc) → Buf (Elt F) ((c : Thread nD τ).loc b) := fun c b => B6 m c b
theorem B6_of (c : Dev nD) (r : Ref sig .tc) (h : r ∉ hostOps3_W) : B6 m c r = B5 m c r :=
  StableHlo.after_of_writes_sub hostOps3 _ hostOps3_writes h

/-- `main_arg0` reaches the end as launched: no host operation writes it, and the regions only read it. -/
theorem B6_main_arg0 (c : Dev nD) : B6 m c (Proc.devRef .tc main_arg0) = m ((c : Thread nD τ).loc main_arg0) :=
  calc B6 m c (Proc.devRef .tc main_arg0)
    _ = B5 m c (Proc.devRef .tc main_arg0) := B6_of m c main_arg0 (by decide)
    _ = B4 m c (Proc.devRef .tc main_arg0) := B5_of_ne m c main_arg0 (by decide)
    _ = B3 m c (Proc.devRef .tc main_arg0) := B4_of m c main_arg0 (by decide)
    _ = B2 m c (Proc.devRef .tc main_arg0) := B3_of_ne m c main_arg0 (by decide)
    _ = B1 m c (Proc.devRef .tc main_arg0) := B2_of m c main_arg0 (by decide)
    _ = B0 m c (Proc.devRef .tc main_arg0) := (B1_arr m c 1).trans (((dat0 (BV0 m) c).arrAt_in 1 rfl _).trans (A_eq0 (BV0 m) c 1))
    _ = m ((c : Thread nD τ).loc main_arg0) := rfl

/-- `main_arg1` reaches the end as launched: no host operation writes it, and the regions only read it. -/
theorem B6_main_arg1 (c : Dev nD) : B6 m c (Proc.devRef .tc main_arg1) = m ((c : Thread nD τ).loc main_arg1) :=
  calc B6 m c (Proc.devRef .tc main_arg1)
    _ = B5 m c (Proc.devRef .tc main_arg1) := B6_of m c main_arg1 (by decide)
    _ = B4 m c (Proc.devRef .tc main_arg1) := B5_of_ne m c main_arg1 (by decide)
    _ = B3 m c (Proc.devRef .tc main_arg1) := B4_of m c main_arg1 (by decide)
    _ = B2 m c (Proc.devRef .tc main_arg1) := B3_of_ne m c main_arg1 (by decide)
    _ = B1 m c (Proc.devRef .tc main_arg1) := B2_of m c main_arg1 (by decide)
    _ = B0 m c (Proc.devRef .tc main_arg1) := (B1_arr m c 2).trans (((dat0 (BV0 m) c).arrAt_in 2 rfl _).trans (A_eq0 (BV0 m) c 2))
    _ = m ((c : Thread nD τ).loc main_arg1) := rfl

/-- `main_arg2` reaches the end as launched: no host operation writes it, and the regions only read it. -/
theorem B6_main_arg2 (c : Dev nD) : B6 m c (Proc.devRef .tc main_arg2) = m ((c : Thread nD τ).loc main_arg2) :=
  calc B6 m c (Proc.devRef .tc main_arg2)
    _ = B5 m c (Proc.devRef .tc main_arg2) := B6_of m c main_arg2 (by decide)
    _ = B4 m c (Proc.devRef .tc main_arg2) := B5_of_ne m c main_arg2 (by decide)
    _ = B3 m c (Proc.devRef .tc main_arg2) := B4_of m c main_arg2 (by decide)
    _ = B2 m c (Proc.devRef .tc main_arg2) := B3_of_ne m c main_arg2 (by decide)
    _ = B1 m c (Proc.devRef .tc main_arg2) := B2_of m c main_arg2 (by decide)
    _ = B0 m c (Proc.devRef .tc main_arg2) := (B1_arr m c 0).trans (((dat0 (BV0 m) c).arrAt_in 0 rfl _).trans (A_eq0 (BV0 m) c 0))
    _ = m ((c : Thread nD τ).loc main_arg2) := rfl

/-! ## The proof data family and the thread state -/

/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (BV0 m) c
  | ⟨1, _⟩ => fun c => dat1 (BV2 m) c
  | ⟨2, _⟩ => fun c => dat2 (BV4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := StableHlo.held (c : Thread nD τ) (Pipeline.ucRefs τ sig) (B6 m c)

/-! ## The regions as segments -/

set_option backward.isDefEq.respectTransparency.types false in
/-- Round 0's region over the thread state: entered with every unscoped buffer at `B0`, left with them at `B1`. Its
    windows' arrays are split out of the unscoped buffers and put back at what the write-backs left; the generator
    register goes into the body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (BV0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (BV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (BV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (BV0 m c) (BV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 1's region over the thread state: entered with every unscoped buffer at `B2`, left with them at `B3`. Its
    windows' arrays are split out of the unscoped buffers and put back at what the write-backs left; the generator
    register goes into the body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (BV2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (BV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (BV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (BV2 m c) (BV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 2's region over the thread state: entered with every unscoped buffer at `B4`, left with them at `B5`. Its
    windows' arrays are split out of the unscoped buffers and put back at what the write-backs left; the generator
    register goes into the body's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (BV4 m) c).loose
  hwaits := Pipeline.hwaits_of_owed_zero _ _ _ _ L lv 2 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (BV4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (BV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (BV4 m c) (BV5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)),
    .region (reg2 m),
    .host (hseg hostOps3 hostOps3_sub hostOps3_fresh (B5 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := fun c => StableHlo.held (c : Thread nD τ) (Pipeline.ucRefs τ sig) (B6 m c))
    (hch := ⟨fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      unfold StableHlo.held
      iintro ⟨Hh, HSI⟩
      imodintro
      iapply (pointsTo_read_all (Pipeline.ucRefs τ sig) (fun b => (((c : Thread nD τ)).1, b)) (B6 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (B6_main_arg0 m c),
     (h c _ (mem_uc main_arg1 (by decide))).trans (B6_main_arg1 m c),
     (h c _ (mem_uc main_arg2 (by decide))).trans (B6_main_arg2 m c)⟩) (run_all m ρ)

end Cert.KernelIdeal.Hand

end
-- ==== Proof.Bits.Conds.lean ====
/-
  The two branch conditions of each round's kernel body, as functions of the grid point, and where on the
  grid (2 × 8 × 8 = 128 points, row-major: t = 64·c + 8·i + j) each holds.
  The first (`j = 0`) resets the row-tile accumulator of u_next; the second (`i = 0 ∧ j = 0`) resets the
  per-core partial of i_next. So j = 0 exactly at t ≡ 0 (mod 8) and i = j = 0 exactly at t ≡ 0 (mod 64).
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Region 0: the condition `j = 0` of the first `scf.if`, over the coordinates. -/
abbrev condJ0 (i : grid0.Coords) : Prop := (Scalar.cmpi .ne (Scalar.extui (Scalar.cmpi .eq (BitVec.ofNat 32 (i 2).val) 0#32)) 0#32) = 1#1
/-- Region 0: the condition `i = 0 ∧ j = 0` of the second `scf.if`. -/
abbrev condIJ0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0` holds exactly at the points ≡ 0 (mod 8): decided over the grid. -/
theorem hcondJ0 : ∀ t : Fin cfg0.N, condJ0 (grid0.coords t) ↔ t.val % 8 = 0 :=
  (by decide +kernel : ∀ t : Fin grid0.N, condJ0 (grid0.coords t) ↔ t.val % 8 = 0)
/-- `i = 0 ∧ j = 0` holds exactly at the points ≡ 0 (mod 64). -/
theorem hcondIJ0 : ∀ t : Fin cfg0.N, condIJ0 (grid0.coords t) ↔ t.val % 64 = 0 :=
  (by decide +kernel : ∀ t : Fin grid0.N, condIJ0 (grid0.coords t) ↔ t.val % 64 = 0)

/-- Region 1: the condition `j = 0` of the first `scf.if`, over the coordinates. -/
abbrev condJ1 (i : grid1.Coords) : Prop := (Scalar.cmpi .ne (Scalar.extui (Scalar.cmpi .eq (BitVec.ofNat 32 (i 2).val) 0#32)) 0#32) = 1#1
/-- Region 1: the condition `i = 0 ∧ j = 0` of the second `scf.if`. -/
abbrev condIJ1 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0` holds exactly at the points ≡ 0 (mod 8): decided over the grid. -/
theorem hcondJ1 : ∀ t : Fin cfg1.N, condJ1 (grid1.coords t) ↔ t.val % 8 = 0 :=
  (by decide +kernel : ∀ t : Fin grid1.N, condJ1 (grid1.coords t) ↔ t.val % 8 = 0)
/-- `i = 0 ∧ j = 0` holds exactly at the points ≡ 0 (mod 64). -/
theorem hcondIJ1 : ∀ t : Fin cfg1.N, condIJ1 (grid1.coords t) ↔ t.val % 64 = 0 :=
  (by decide +kernel : ∀ t : Fin grid1.N, condIJ1 (grid1.coords t) ↔ t.val % 64 = 0)

/-- Region 2: the condition `j = 0` of the first `scf.if`, over the coordinates. -/
abbrev condJ2 (i : grid2.Coords) : Prop := (Scalar.cmpi .ne (Scalar.extui (Scalar.cmpi .eq (BitVec.ofNat 32 (i 2).val) 0#32)) 0#32) = 1#1
/-- Region 2: the condition `i = 0 ∧ j = 0` of the second `scf.if`. -/
abbrev condIJ2 (i : grid2.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- `j = 0` holds exactly at the points ≡ 0 (mod 8): decided over the grid. -/
theorem hcondJ2 : ∀ t : Fin cfg2.N, condJ2 (grid2.coords t) ↔ t.val % 8 = 0 :=
  (by decide +kernel : ∀ t : Fin grid2.N, condJ2 (grid2.coords t) ↔ t.val % 8 = 0)
/-- `i = 0 ∧ j = 0` holds exactly at the points ≡ 0 (mod 64). -/
theorem hcondIJ2 : ∀ t : Fin cfg2.N, condIJ2 (grid2.coords t) ↔ t.val % 64 = 0 :=
  (by decide +kernel : ∀ t : Fin grid2.N, condIJ2 (grid2.coords t) ↔ t.val % 64 = 0)

end Cert.Kernel.Hand

end
-- ==== Proof.Bits.R0RunA.lean ====
/-
  Region 0 (round 0: f32 adjacency in, bf16 copy out), control case A: the kernel body run on whole staging
  memrefs. The three inputs' buffers hold their blocks and come back unchanged; each output's buffer ends as the body's
  stores written, last first, over what it held. The piece lists are whatever the run of the body's stores produces.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case A. -/
noncomputable def kernelRun0_A (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole)
    (hc0 : condJ0 i) (hc1 : condIJ0 i)
    (x0 : Vec F S512x2048 .f32) (x1 : Vec F S512x32 .f32) (x2 : Vec F S2048x32 .f32) :
    (L3 : List (View.Piece (Elt F) S512x32 .f32)) ×' (L4 : List (View.Piece (Elt F) S1x16384x32 .f32)) ×' { L5 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f L5)) -∗ K ⟨⟩))
          ⊢ wp frame (wpE (defs₀ (F := F)) Variants.none c none) E (cc0_kernel i arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexists _; iexact H4
    iexists _; iexact H5

end Cert.Kernel.Hand

end
-- ==== Proof.Bits.R0RunB.lean ====
/-
  Region 0 (round 0: f32 adjacency in, bf16 copy out), control case B: the kernel body run on whole staging
  memrefs. The three inputs' buffers hold their blocks and come back unchanged; each output's buffer ends as the body's
  stores written, last first, over what it held. The piece lists are whatever the run of the body's stores produces.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case B. -/
noncomputable def kernelRun0_B (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole)
    (hc0 : condJ0 i) (hc1 : ¬condIJ0 i)
    (x0 : Vec F S512x2048 .f32) (x1 : Vec F S512x32 .f32) (x2 : Vec F S2048x32 .f32) (f4 : arg7.view.ty.Contents (Elt F)) :
    (L3 : List (View.Piece (Elt F) S512x32 .f32)) ×' (L4 : List (View.Piece (Elt F) S1x16384x32 .f32)) ×' { L5 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (arg7.view.loc (c : Thread nD τ) ↦[arg7.view.set]{fullShare} f4) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (arg7.view.loc (c : Thread nD τ) ↦[arg7.view.set]{fullShare} arg7.view.writes (Elt F) f4 L4)
                ∗ (∃ f, arg8.view.loc (c : Thread nD τ) ↦[arg8.view.set]{fullShare} arg8.view.writes (Elt F) f L5)) -∗ K ⟨⟩))
          ⊢ wp frame (wpE (defs₀ (F := F)) Variants.none c none) E (cc0_kernel i arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, H4, ⟨%d5, %f5, -, H5⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]; · iexact H4
    iexists _; iexact H5

end Cert.Kernel.Hand

end
-- ==== Proof.Bits.R0RunC.lean ====
/-
  Region 0 (round 0: f32 adjacency in, bf16 copy out), control case C: the kernel body run on whole staging
  memrefs. The three inputs' buffers hold their blocks and come back unchanged; each output's buffer ends as the body's
  stores written, last first, over what it held. The piece lists are whatever the run of the body's stores produces.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case C. -/
noncomputable def kernelRun0_C (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole)
    (hc0 : ¬condJ0 i) (hc1 : ¬condIJ0 i)
    (x0 : Vec F S512x2048 .f32) (x1 : Vec F S512x32 .f32) (x2 : Vec F S2048x32 .f32) (f3 : arg6.view.ty.Contents (Elt F)) (f4 : arg7.view.ty.Contents (Elt F)) :
    (L3 : List (View.Piece (Elt F) S512x32 .f32)) ×' (L4 : List (View.Piece (Elt F) S1x16384x32 .f32)) ×' { L5 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (arg6.view.loc (c : Thread nD τ) ↦[arg6.view.set]{fullShare} f3) ∗ (arg7.view.loc (c : Thread nD τ) ↦[arg7.view.set]{fullShare} f4) ∗ (∃ d, owns (c : Thread nD τ) arg8 fullShare d)
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) f3 L3) ∗ (arg7.view.loc (c : Thread nD τ) ↦[arg7.view.set]{fullShare} arg7.view.writes (Elt F) f4 L4)
                ∗ (∃ f, arg8.view.loc (c : Thread nD τ) ↦[arg8.view.set]{fullShare} arg8.view.writes (Elt F) f L5)) -∗ K ⟨⟩))
          ⊢ wp frame (wpE (defs₀ (F := F)) Variants.none c none) E (cc0_kernel i arg3 harg3 arg4 harg4 arg5 harg5 arg6 harg6 arg7 harg7 arg8 harg8) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%f0, %hf0, H0⟩, ⟨%f1, %hf1, H1⟩, ⟨%f2, %hf2, H2⟩, H3, H4, ⟨%d5, %f5, -, H5⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    isplitl [H4]; · iexact H4
    iexists _; iexact H5

end Cert.Kernel.Hand

end
-- ==== Proof.Bits.R0Data.lean ====
/-
  Region 0 (round 0) as a pipeline: what every window's staging buffer holds after the body at each of the 128 grid
  points.

  The grid is (core c, row tile i, column tile j), t = 64·c + 8·i + j. The three inputs are re-read from their arrays.
  Output 3 (u_next's row tile, index (8c+i, 0)) is reset where j = 0, added to at every j, and written back after
  j = 7. Output 4 (core c's partial of i_next, index (c,0,0), the whole [16384,32] partial resident) is reset where
  i = j = 0, has its rows 2048·j … 2048·j+2047 added to at every point, and is written back after the core's last
  point. Output 5 (the bf16 copy of the adjacency tile) is stored whole and written back at every point.
  So the contents after point t are a recursion on t: at a reset the fresh value, else a function of what point t−1 left.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R0RunA
import proofs.«153668_j35003983462547_2_alg».proof.Proof.Bits.R0RunB
import proofs.«153668_j35003983462547_2_alg».proof.Proof.Bits.R0RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, through which contents that do not depend on what the buffer held are stated. -/
abbrev VO0_3 : View sig .tc .vmem S512x32 .f32 := (Memref.whole cc0_stg3_0 : Memref sig .tc .vmem S512x32 .f32).view
abbrev VO0_4 : View sig .tc .vmem S1x16384x32 .f32 := (Memref.whole cc0_stg4_0 : Memref sig .tc .vmem S1x16384x32 .f32).view
abbrev VO0_5 : View sig .tc .vmem S512x2048 .bf16 := (Memref.whole cc0_stg5_0 : Memref sig .tc .vmem S512x2048 .bf16).view
/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16384x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .bf16 := win0_5.stage (cfg0.slots t 5)
abbrev hs0_5 (t : Fin cfg0.N) : (ms0_5 t).IsWhole := hstage0_5 ((cfg0.slots t 5).cast nbuf0_5)

/-! ## Where a case's stores fill an output's block whatever it held -/

theorem cover0_A_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) (y : S512x32.Idx) :
    ∃ pc ∈ (kernelRun0_A c i arg3 harg3 arg4 harg4 arg5 harg5 arg6 harg6 arg7 harg7 arg8 harg8 hc0 hc1 x0 x1 x2).1, y ∈ pc.1.set :=
  View.cover_of_tiledL (kernelRun0_A c i arg3 harg3 arg4 harg4 arg5 harg5 arg6 harg6 arg7 harg7 arg8 harg8 hc0 hc1 x0 x1 x2).1 S512x32.size (by sl_kernel_rfl) y
theorem cover0_A_4 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) (y : S1x16384x32.Idx) :
    ∃ pc ∈ (kernelRun0_A c i arg3 harg3 arg4 harg4 arg5 harg5 arg6 harg6 arg7 harg7 arg8 harg8 hc0 hc1 x0 x1 x2).2.1, y ∈ pc.1.set :=
  View.cover_of_tiledL (kernelRun0_A c i arg3 harg3 arg4 harg4 arg5 harg5 arg6 harg6 arg7 harg7 arg8 harg8 hc0 hc1 x0 x1 x2).2.1 S1x16384x32.size (by sl_kernel_rfl) y
theorem cover0_A_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) (y : S512x2048.Idx) :
    ∃ pc ∈ (kernelRun0_A c i arg3 harg3 arg4 harg4 arg5 harg5 arg6 harg6 arg7 harg7 arg8 harg8 hc0 hc1 x0 x1 x2).2.2.1, y ∈ pc.1.set :=
  View.cover_of_tiledL (kernelRun0_A c i arg3 harg3 arg4 harg4 arg5 harg5 arg6 harg6 arg7 harg7 arg8 harg8 hc0 hc1 x0 x1 x2).2.2.1 S512x2048.size (by sl_kernel_rfl) y
theorem cover0_B_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) (y : S512x32.Idx) :
    ∃ pc ∈ (kernelRun0_B c i arg3 harg3 arg4 harg4 arg5 harg5 arg6 harg6 arg7 harg7 arg8 harg8 hc0 hc1 x0 x1 x2 f4).1, y ∈ pc.1.set :=
  View.cover_of_tiledL (kernelRun0_B c i arg3 harg3 arg4 harg4 arg5 harg5 arg6 harg6 arg7 harg7 arg8 harg8 hc0 hc1 x0 x1 x2 f4).1 S512x32.size (by sl_kernel_rfl) y
theorem cover0_B_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) (y : S512x2048.Idx) :
    ∃ pc ∈ (kernelRun0_B c i arg3 harg3 arg4 harg4 arg5 harg5 arg6 harg6 arg7 harg7 arg8 harg8 hc0 hc1 x0 x1 x2 f4).2.2.1, y ∈ pc.1.set :=
  View.cover_of_tiledL (kernelRun0_B c i arg3 harg3 arg4 harg4 arg5 harg5 arg6 harg6 arg7 harg7 arg8 harg8 hc0 hc1 x0 x1 x2 f4).2.2.1 S512x2048.size (by sl_kernel_rfl) y
theorem cover0_C_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec F S512x2048 .f32) (x1 : Vec F S512x32 .f32) (x2 : Vec F S2048x32 .f32) (f3 : arg6.view.ty.Contents (Elt F)) (f4 : arg7.view.ty.Contents (Elt F)) (y : S512x2048.Idx) :
    ∃ pc ∈ (kernelRun0_C c i arg3 harg3 arg4 harg4 arg5 harg5 arg6 harg6 arg7 harg7 arg8 harg8 hc0 hc1 x0 x1 x2 f3 f4).2.2.1, y ∈ pc.1.set :=
  View.cover_of_tiledL (kernelRun0_C c i arg3 harg3 arg4 harg4 arg5 harg5 arg6 harg6 arg7 harg7 arg8 harg8 hc0 hc1 x0 x1 x2 f3 f4).2.2.1 S512x2048.size (by sl_kernel_rfl) y

/-! ## What each case leaves in the three outputs' buffers -/

/-- Case A (both resets): nothing depends on what the buffers held. -/
def out0_A_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) : Vec F S512x32 .f32 :=
  VO0_3.read (Elt F) (VO0_3.writes (Elt F) VO0_3.junk (kernelRun0_A c i arg3 harg3 arg4 harg4 arg5 harg5 arg6 harg6 arg7 harg7 arg8 harg8 hc0 hc1 x0 x1 x2).1)
def out0_A_4 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) : Vec F S1x16384x32 .f32 :=
  VO0_4.read (Elt F) (VO0_4.writes (Elt F) VO0_4.junk (kernelRun0_A c i arg3 harg3 arg4 harg4 arg5 harg5 arg6 harg6 arg7 harg7 arg8 harg8 hc0 hc1 x0 x1 x2).2.1)
def out0_A_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec F S512x2048 .f32) (x1 : Vec F S512x32 .f32) (x2 : Vec F S2048x32 .f32) : Vec F S512x2048 .bf16 :=
  VO0_5.read (Elt F) (VO0_5.writes (Elt F) VO0_5.junk (kernelRun0_A c i arg3 harg3 arg4 harg4 arg5 harg5 arg6 harg6 arg7 harg7 arg8 harg8 hc0 hc1 x0 x1 x2).2.2.1)
/-- Case B (the row-tile accumulator reset): the i_next partial is the body's slice store over what it held. -/
def out0_B_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) : Vec F S512x32 .f32 :=
  VO0_3.read (Elt F) (VO0_3.writes (Elt F) VO0_3.junk (kernelRun0_B c i arg3 harg3 arg4 harg4 arg5 harg5 arg6 harg6 arg7 harg7 arg8 harg8 hc0 hc1 x0 x1 x2 f4).1)
def out0_B_4 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) : Vec F S1x16384x32 .f32 :=
  arg7.view.read (Elt F) (arg7.view.writes (Elt F) f4 (kernelRun0_B c i arg3 harg3 arg4 harg4 arg5 harg5 arg6 harg6 arg7 harg7 arg8 harg8 hc0 hc1 x0 x1 x2 f4).2.1)
def out0_B_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec F S512x2048 .f32) (x1 : Vec F S512x32 .f32) (x2 : Vec F S2048x32 .f32) (f4 : arg7.view.ty.Contents (Elt F)) : Vec F S512x2048 .bf16 :=
  VO0_5.read (Elt F) (VO0_5.writes (Elt F) VO0_5.junk (kernelRun0_B c i arg3 harg3 arg4 harg4 arg5 harg5 arg6 harg6 arg7 harg7 arg8 harg8 hc0 hc1 x0 x1 x2 f4).2.2.1)
/-- Case C (no reset): both accumulators are the body's stores over what they held. -/
def out0_C_3 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec F S512x2048 .f32) (x1 : Vec F S512x32 .f32) (x2 : Vec F S2048x32 .f32) (f3 : arg6.view.ty.Contents (Elt F)) (f4 : arg7.view.ty.Contents (Elt F)) : Vec F S512x32 .f32 :=
  arg6.view.read (Elt F) (arg6.view.writes (Elt F) f3 (kernelRun0_C c i arg3 harg3 arg4 harg4 arg5 harg5 arg6 harg6 arg7 harg7 arg8 harg8 hc0 hc1 x0 x1 x2 f3 f4).1)
def out0_C_4 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec F S512x2048 .f32) (x1 : Vec F S512x32 .f32) (x2 : Vec F S2048x32 .f32) (f3 : arg6.view.ty.Contents (Elt F)) (f4 : arg7.view.ty.Contents (Elt F)) : Vec F S1x16384x32 .f32 :=
  arg7.view.read (Elt F) (arg7.view.writes (Elt F) f4 (kernelRun0_C c i arg3 harg3 arg4 harg4 arg5 harg5 arg6 harg6 arg7 harg7 arg8 harg8 hc0 hc1 x0 x1 x2 f3 f4).2.1)
def out0_C_5 (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec F S512x2048 .f32) (x1 : Vec F S512x32 .f32) (x2 : Vec F S2048x32 .f32) (f3 : arg6.view.ty.Contents (Elt F)) (f4 : arg7.view.ty.Contents (Elt F)) : Vec F S512x2048 .bf16 :=
  VO0_5.read (Elt F) (VO0_5.writes (Elt F) VO0_5.junk (kernelRun0_C c i arg3 harg3 arg4 harg4 arg5 harg5 arg6 harg6 arg7 harg7 arg8 harg8 hc0 hc1 x0 x1 x2 f3 f4).2.2.1)

/-- The three outputs' contents: u_next's row tile, the core's i_next partial, the bf16 adjacency tile. -/
abbrev Outs0 (F : FTy → Type) [FloatOps F] : Type := Vec F S512x32 .f32 × Vec F S1x16384x32 .f32 × Vec F S512x2048 .bf16

/-- One point: the case the point's position selects, run on the point's memrefs and input blocks over what the point
    before left (`prev`, unused where the case resets). -/
def step0 (c : Dev nD) (t : Fin cfg0.N) (prev : Outs0 F) : Outs0 F :=
  if h64 : t.val % 64 = 0 then
    (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t))
  else if h8 : t.val % 8 = 0 then
    (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread prev.2.1), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread prev.2.1),
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread prev.2.1))
  else
    (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread prev.1) ((hs0_4 t).unread prev.2.1),
      out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread prev.1) ((hs0_4 t).unread prev.2.1),
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread prev.1) ((hs0_4 t).unread prev.2.1))

/-- Contents nobody names (before the first point). -/
def junk0 : Outs0 F := (VO0_3.read (Elt F) VO0_3.junk, VO0_4.read (Elt F) VO0_4.junk, VO0_5.read (Elt F) VO0_5.junk)

/-- THE ACCUMULATION: what the outputs' buffers hold after the body at position `n`. -/
def outsAt0 (c : Dev nD) : (n : ℕ) → n < cfg0.N → Outs0 F
  | 0, hn => step0 V c ⟨0, hn⟩ junk0
  | n + 1, hn => step0 V c ⟨n + 1, hn⟩ (outsAt0 c n (Nat.lt_of_succ_lt hn))

/-- What the point before `t` left (nothing named before the first point). -/
def prevAt0 (c : Dev nD) (t : Fin cfg0.N) : Outs0 F :=
  if h : t.val = 0 then junk0 else outsAt0 V c (t.val - 1) (Nat.lt_of_le_of_lt (Nat.sub_le _ _) t.isLt)

theorem outsAt0_eq (c : Dev nD) (t : Fin cfg0.N) : outsAt0 V c t.val t.isLt = step0 V c t (prevAt0 V c t) := by
  obtain ⟨n, hn⟩ := t
  cases n with
  | zero => rfl
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2 := by dsimp only [dat0]

/-- The outputs after a point, case by case. -/
theorem outsAt0_A (c : Dev nD) (t : Fin cfg0.N) (h64 : t.val % 64 = 0) : outsAt0 V c t.val t.isLt =
    (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t)) := by
  rw [outsAt0_eq]; unfold step0; rw [dif_pos h64]
theorem outsAt0_B (c : Dev nD) (t : Fin cfg0.N) (h64 : ¬t.val % 64 = 0) (h8 : t.val % 8 = 0) : outsAt0 V c t.val t.isLt =
    (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1), out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1)) := by
  rw [outsAt0_eq]; unfold step0; rw [dif_neg h64, dif_pos h8]
theorem outsAt0_C (c : Dev nD) (t : Fin cfg0.N) (h64 : ¬t.val % 64 = 0) (h8 : ¬t.val % 8 = 0) : outsAt0 V c t.val t.isLt =
    (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1), out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1), out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1)) := by
  rw [outsAt0_eq]; unfold step0; rw [dif_neg h64, dif_neg h8]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- Off the points ≡ 0 (mod 8) the row-tile accumulator's buffer holds what the point before left: it was not written
    back in between (that happens after the points ≡ 7 (mod 8)). -/
theorem before0_3_kept (c : Dev nD) (t : Fin cfg0.N) (h8 : ¬t.val % 8 = 0) (d) :
    (dat0 V c).before 3 t d = (prevAt0 V c t).1 := by
  have hN : t.val < 128 := lt_of_lt_of_eq t.isLt (show cfg0.N = 128 from N_0)
  have h0 : t.val ≠ 0 := fun h => h8 (by rw [h])
  rw [Dat.before_out_kept _ 3 rfl t h0 (Bool.eq_false_iff.mpr fun h => by have := (flush0_3 _).mp h; dsimp only at this; omega)
    (fun _ => rfl) (fun _ _ => rfl)]
  unfold prevAt0; rw [dif_neg h0]
  dsimp only [dat0]

/-- Off the points ≡ 0 (mod 64) the i_next partial's buffer holds what the point before left. -/
theorem before0_4_kept (c : Dev nD) (t : Fin cfg0.N) (h64 : ¬t.val % 64 = 0) (d) :
    (dat0 V c).before 4 t d = (prevAt0 V c t).2.1 := by
  have hN : t.val < 128 := lt_of_lt_of_eq t.isLt (show cfg0.N = 128 from N_0)
  have h0 : t.val ≠ 0 := fun h => h64 (by rw [h])
  rw [Dat.before_out_kept _ 4 rfl t h0 (Bool.eq_false_iff.mpr fun h => by have := (flush0_4 _).mp h; dsimp only at this; omega)
    (fun _ => rfl) (fun _ _ => rfl)]
  unfold prevAt0; rw [dif_neg h0]
  dsimp only [dat0]

/-! ## The body obligation's two sides -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

end Region0

end Cert.Kernel.Hand

end
-- ==== Proof.Bits.R0BodyA.lean ====
/-
  Region 0, the body obligation at a point of control case A: both accumulators are reset, so nothing is read of what the outputs' buffers held.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R0Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

set_option maxHeartbeats 1600000 in
theorem sound_body0_A (c : Dev nD) (t : Fin cfg0.N) (h64 : t.val % 64 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [outsAt0_A V c t h64]
  dsimp only
  unfold out0_A_3 out0_A_4 out0_A_5
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t)).2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover (ms0_3 t).view e3 VO0_3 VO0_3.junk _ (cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t))
  isplitl [H4]
  · unfold owns; iexists _; isplitr
    swap; · iexact H4
    ipureintro; exact View.read_writes_of_cover (ms0_4 t).view e4 VO0_4 VO0_4.junk _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t))
  unfold owns; iexists _; isplitr
  swap; · iexact H5
  ipureintro; exact View.read_writes_of_cover (ms0_5 t).view e5 VO0_5 VO0_5.junk _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr (by omega)) ((hcondIJ0 t).mpr h64) (iblk0 V c 0 t) (iblk0 V c 1 t) (iblk0 V c 2 t))

end Region0

end Cert.Kernel.Hand

end
-- ==== Proof.Bits.R0BodyB.lean ====
/-
  Region 0, the body obligation at a point of control case B: the row-tile accumulator is reset; the i_next partial's buffer holds what the point before left.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R0Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

set_option maxHeartbeats 1600000 in
theorem sound_body0_B (c : Dev nD) (t : Fin cfg0.N) (h64 : ¬t.val % 64 = 0) (h8 : t.val % 8 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [outsAt0_B V c t h64 h8]
  dsimp only
  unfold out0_B_3 out0_B_4 out0_B_5
  simp only [before0_4_kept V c t h64]
  iintro ⟨HΦ, Ho, ⟨%d0, H0⟩, ⟨%d1, H1⟩, ⟨%d2, H2⟩, ⟨%d3, H3⟩, ⟨%d4, H4⟩, ⟨%d5, H5⟩⟩
  unfold owns
  icases H4 with ⟨%f4, %hf4, H4⟩
  obtain rfl := (hs0_4 t).eq_unread hf4
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1)).2.2.2 Set.univ _)
  unfold owns
  isplitl [H0]; · iexact H0
  isplitl [H1]; · iexact H1
  isplitl [H2]; · iexact H2
  isplitl [H3]; · iexists _; iexact H3
  isplitl [H4]; · iexact H4
  isplitl [H5]; · iexists _; iexact H5
  iintro ⟨H0, H1, H2, ⟨%e3, H3⟩, H4, ⟨%e5, H5⟩⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; exact View.read_writes_of_cover (ms0_3 t).view e3 VO0_3 VO0_3.junk _ (cover0_B_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1))
  isplitl [H4]
  · iexists _; isplitr
    swap; · iexact H4
    ipureintro; rfl
  iexists _; isplitr
  swap; · iexact H5
  ipureintro; exact View.read_writes_of_cover (ms0_5 t).view e5 VO0_5 VO0_5.junk _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcondJ0 t).mpr h8) (fun h => h64 ((hcondIJ0 t).mp h)) (iblk0 V c 0 t) (iblk0 V c 1 t) (iblk0 V c 2 t) ((hs0_4 t).unread (prevAt0 V c t).2.1))

end Region0

end Cert.Kernel.Hand

end
-- ==== Proof.Bits.R0BodyC.lean ====
/-
  Region 0, the body obligation at a point of control case C: no reset; both accumulators' buffers hold what the point before left.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R0Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

set_option maxHeartbeats 1600000 in
theorem sound_body0_C (c : Dev nD) (t : Fin cfg0.N) (h64 : ¬t.val % 64 = 0) (h8 : ¬t.val % 8 = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [outsAt0_C V c t h64 h8]
  dsimp only
  unfold out0_C_3 out0_C_4 out0_C_5
  simp only [before0_4_kept V c t h64, before0_3_kept V c t h8]
  iintro ⟨HΦ, Ho, ⟨%d0, H0⟩, ⟨%d1, H1⟩, ⟨%d2, H2⟩, ⟨%d3, H3⟩, ⟨%d4, H4⟩, ⟨%d5, H5⟩⟩
  unfold owns
  icases H3 with ⟨%f3, %hf3, H3⟩
  icases H4 with ⟨%f4, %hf4, H4⟩
  obtain rfl := (hs0_3 t).eq_unread hf3
  obtain rfl := (hs0_4 t).eq_unread hf4
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1)).2.2.2 Set.univ _)
  unfold owns
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; rfl
  isplitl [H4]
  · iexists _; isplitr
    swap; · iexact H4
    ipureintro; rfl
  iexists _; isplitr
  swap; · iexact H5
  ipureintro; exact View.read_writes_of_cover (ms0_5 t).view e5 VO0_5 VO0_5.junk _ (cover0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h8 ((hcondJ0 t).mp h)) (fun h => h64 ((hcondIJ0 t).mp h)) (iblk0 V c 0 t) (iblk0 V c 1 t) (iblk0 V c 2 t) ((hs0_3 t).unread (prevAt0 V c t).1) ((hs0_4 t).unread (prevAt0 V c t).2.1))

end Region0

end Cert.Kernel.Hand

end
-- ==== Proof.Bits.R0Body.lean ====
/-
  Region 0: the body obligation at every point, by the point's control case (t ≡ 0 mod 64; t ≡ 0 mod 8 only; neither).
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R0BodyA
import proofs.«153668_j35003983462547_2_alg».proof.Proof.Bits.R0BodyB
import proofs.«153668_j35003983462547_2_alg».proof.Proof.Bits.R0BodyC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

theorem body_obligation0 (c : Dev nD) : BodyObligation (dat0 (F := F) V c) (defs₀ (F := F)) Variants.none () Set.univ := fun t => by
  rw [bigSep_W0, bigSep_W0]
  by_cases h64 : t.val % 64 = 0
  · exact sound_body0_A V c t h64
  · by_cases h8 : t.val % 8 = 0
    · exact sound_body0_B V c t h64 h8
    · exact sound_body0_C V c t h64 h8

end Region0

end Cert.Kernel.Hand

end
-- ==== Proof.Bits.R1RunA.lean ====
/-
  Region 1 (round 1: bf16 adjacency in), control case A: the kernel body run on whole staging memrefs. The
  three inputs' buffers hold their blocks and come back unchanged; each output's buffer ends as the body's stores
  written, last first, over what it held. The piece lists are whatever the run of the body's stores produces.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case A. -/
noncomputable def kernelRun1_A (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : condJ1 i) (hc1 : condIJ1 i)
    (x0 : Vec F S512x2048 .bf16) (x1 : Vec F S512x32 .f32) (x2 : Vec F S2048x32 .f32) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact H4

end Cert.Kernel.Hand

end
-- ==== Proof.Bits.R1RunB.lean ====
/-
  Region 1 (round 1: bf16 adjacency in), control case B: the kernel body run on whole staging memrefs. The
  three inputs' buffers hold their blocks and come back unchanged; each output's buffer ends as the body's stores
  written, last first, over what it held. The piece lists are whatever the run of the body's stores produces.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case B. -/
noncomputable def kernelRun1_B (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : condJ1 i) (hc1 : ¬condIJ1 i)
    (x0 : Vec F S512x2048 .bf16) (x1 : Vec F S512x32 .f32) (x2 : Vec F S2048x32 .f32) (f4 : arg7.view.ty.Contents (Elt F)) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (arg7.view.loc (c : Thread nD τ) ↦[arg7.view.set]{fullShare} f4)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (arg7.view.loc (c : Thread nD τ) ↦[arg7.view.set]{fullShare} arg7.view.writes (Elt F) f4 L4)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, H4, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexact H4

end Cert.Kernel.Hand

end
-- ==== Proof.Bits.R1RunC.lean ====
/-
  Region 1 (round 1: bf16 adjacency in), control case C: the kernel body run on whole staging memrefs. The
  three inputs' buffers hold their blocks and come back unchanged; each output's buffer ends as the body's stores
  written, last first, over what it held. The piece lists are whatever the run of the body's stores produces.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case C. -/
noncomputable def kernelRun1_C (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : ¬condJ1 i) (hc1 : ¬condIJ1 i)
    (x0 : Vec F S512x2048 .bf16) (x1 : Vec F S512x32 .f32) (x2 : Vec F S2048x32 .f32) (f3 : arg6.view.ty.Contents (Elt F)) (f4 : arg7.view.ty.Contents (Elt F)) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (arg6.view.loc (c : Thread nD τ) ↦[arg6.view.set]{fullShare} f3) ∗ (arg7.view.loc (c : Thread nD τ) ↦[arg7.view.set]{fullShare} f4)
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) f3 L3) ∗ (arg7.view.loc (c : Thread nD τ) ↦[arg7.view.set]{fullShare} arg7.view.writes (Elt F) f4 L4)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    simp only [k1_part1_eq_skeleton]; unfold k1_part1_skel
    unfold owns
    iintro ⟨⟨%f0, %hf0, H0⟩, ⟨%f1, %hf1, H1⟩, ⟨%f2, %hf2, H2⟩, H3, H4, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    iexact H4

end Cert.Kernel.Hand

end
-- ==== Proof.Bits.R1Data.lean ====
/-
  Region 1 (round 1) as a pipeline: what every window's staging buffer holds after the body at each of the 128 grid
  points.

  The grid is (core c, row tile i, column tile j), t = 64·c + 8·i + j. The three inputs (the bf16 adjacency tile, the
  row tile of u_k, the column tile of i_k) are re-read from their arrays. Output 3 (u_next's row tile, index (8c+i, 0))
  is reset where j = 0, added to at every j, and written back after j = 7. Output 4 (core c's partial of i_next, index
  (c,0,0), the whole [16384,32] partial resident) is reset where i = j = 0, has its rows 2048·j … 2048·j+2047 added to
  at every point, and is written back after the core's last point.
  So the contents after point t are a recursion on t: at a reset the fresh value, else a function of what point t−1 left.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R1RunA
import proofs.«153668_j35003983462547_2_alg».proof.Proof.Bits.R1RunB
import proofs.«153668_j35003983462547_2_alg».proof.Proof.Bits.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, through which contents that do not depend on what the buffer held are stated. -/
abbrev VO1_3 : View sig .tc .vmem S512x32 .f32 := (Memref.whole cc1_stg3_0 : Memref sig .tc .vmem S512x32 .f32).view
abbrev VO1_4 : View sig .tc .vmem S1x16384x32 .f32 := (Memref.whole cc1_stg4_0 : Memref sig .tc .vmem S1x16384x32 .f32).view
/-- Each window's current staging memref at point `t`, as the pipeline passes it, and its wholeness. -/
abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16384x32 .f32 := win1_4.stage (cfg1.slots t 4)
abbrev hs1_4 (t : Fin cfg1.N) : (ms1_4 t).IsWhole := hstage1_4 ((cfg1.slots t 4).cast nbuf1_4)

/-! ## Where a case's stores fill an output's block whatever it held -/

theorem cover1_A_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec F S512x2048 .bf16) (x1 : Vec F S512x32 .f32) (x2 : Vec F S2048x32 .f32) (y : S512x32.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S512x32.size (by sl_kernel_rfl) y
theorem cover1_A_4 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec F S512x2048 .bf16) (x1 : Vec F S512x32 .f32) (x2 : Vec F S2048x32 .f32) (y : S1x16384x32.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1x16384x32.size (by sl_kernel_rfl) y
theorem cover1_B_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : ¬condIJ1 i) (x0 : Vec F S512x2048 .bf16) (x1 : Vec F S512x32 .f32) (x2 : Vec F S2048x32 .f32) (f4 : arg7.view.ty.Contents (Elt F)) (y : S512x32.Idx) :
    ∃ pc ∈ (kernelRun1_B c i arg3 harg3 arg4 harg4 arg5 harg5 arg6 harg6 arg7 harg7 hc0 hc1 x0 x1 x2 f4).1, y ∈ pc.1.set :=
  View.cover_of_tiledL (kernelRun1_B c i arg3 harg3 arg4 harg4 arg5 harg5 arg6 harg6 arg7 harg7 hc0 hc1 x0 x1 x2 f4).1 S512x32.size (by sl_kernel_rfl) y

/-! ## What each case leaves in the two outputs' buffers -/

/-- Case A (both resets): nothing depends on what the buffers held. -/
def out1_A_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec F S512x2048 .bf16) (x1 : Vec F S512x32 .f32) (x2 : Vec F S2048x32 .f32) : Vec F S512x32 .f32 :=
  VO1_3.read (Elt F) (VO1_3.writes (Elt F) VO1_3.junk (kernelRun1_A c i arg3 harg3 arg4 harg4 arg5 harg5 arg6 harg6 arg7 harg7 hc0 hc1 x0 x1 x2).1)
def out1_A_4 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec F S512x2048 .bf16) (x1 : Vec F S512x32 .f32) (x2 : Vec F S2048x32 .f32) : Vec F S1x16384x32 .f32 :=
  VO1_4.read (Elt F) (VO1_4.writes (Elt F) VO1_4.junk (kernelRun1_A c i arg3 harg3 arg4 harg4 arg5 harg5 arg6 harg6 arg7 harg7 hc0 hc1 x0 x1 x2).2.1)
/-- Case B (the row-tile accumulator reset): the i_next partial is the body's slice store over what it held. -/
def out1_B_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : ¬condIJ1 i) (x0 : Vec F S512x2048 .bf16) (x1 : Vec F S512x32 .f32) (x2 : Vec F S2048x32 .f32) (f4 : arg7.view.ty.Contents (Elt F)) : Vec F S512x32 .f32 :=
  VO1_3.read (Elt F) (VO1_3.writes (Elt F) VO1_3.junk (kernelRun1_B c i arg3 harg3 arg4 harg4 arg5 harg5 arg6 harg6 arg7 harg7 hc0 hc1 x0 x1 x2 f4).1)
def out1_B_4 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : ¬condIJ1 i) (x0 : Vec F S512x2048 .bf16) (x1 : Vec F S512x32 .f32) (x2 : Vec F S2048x32 .f32) (f4 : arg7.view.ty.Contents (Elt F)) : Vec F S1x16384x32 .f32 :=
  arg7.view.read (Elt F) (arg7.view.writes (Elt F) f4 (kernelRun1_B c i arg3 harg3 arg4 harg4 arg5 harg5 arg6 harg6 arg7 harg7 hc0 hc1 x0 x1 x2 f4).2.1)
/-- Case C (no reset): both accumulators are the body's stores over what they held. -/
def out1_C_3 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ1 i) (hc1 : ¬condIJ1 i) (x0 : Vec F S512x2048 .bf16) (x1 : Vec F S512x32 .f32) (x2 : Vec F S2048x32 .f32) (f3 : arg6.view.ty.Contents (Elt F)) (f4 : arg7.view.ty.Contents (Elt F)) : Vec F S512x32 .f32 :=
  arg6.view.read (Elt F) (arg6.view.writes (Elt F) f3 (kernelRun1_C c i arg3 harg3 arg4 harg4 arg5 harg5 arg6 harg6 arg7 harg7 hc0 hc1 x0 x1 x2 f3 f4).1)
def out1_C_4 (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ1 i) (hc1 : ¬condIJ1 i) (x0 : Vec F S512x2048 .bf16) (x1 : Vec F S512x32 .f32) (x2 : Vec F S2048x32 .f32) (f3 : arg6.view.ty.Contents (Elt F)) (f4 : arg7.view.ty.Contents (Elt F)) : Vec F S1x16384x32 .f32 :=
  arg7.view.read (Elt F) (arg7.view.writes (Elt F) f4 (kernelRun1_C c i arg3 harg3 arg4 harg4 arg5 harg5 arg6 harg6 arg7 harg7 hc0 hc1 x0 x1 x2 f3 f4).2.1)

/-- The two outputs' contents: u_next's row tile, the core's i_next partial. -/
abbrev Outs1 (F : FTy → Type) [FloatOps F] : Type := Vec F S512x32 .f32 × Vec F S1x16384x32 .f32

/-- One point: the case the point's position selects, run on the point's memrefs and input blocks over what the point
    before left (`prev`, unused where the case resets). -/
def step1 (c : Dev nD) (t : Fin cfg1.N) (prev : Outs1 F) : Outs1 F :=
  if h64 : t.val % 64 = 0 then
    (out1_A_3 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t))
  else if h8 : t.val % 8 = 0 then
    (out1_B_3 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread prev.2), out1_B_4 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread prev.2))
  else
    (out1_C_3 c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread prev.1) ((hs1_4 t).unread prev.2),
      out1_C_4 c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread prev.1) ((hs1_4 t).unread prev.2))

/-- Contents nobody names (before the first point). -/
def junk1 : Outs1 F := (VO1_3.read (Elt F) VO1_3.junk, VO1_4.read (Elt F) VO1_4.junk)

/-- THE ACCUMULATION: what the outputs' buffers hold after the body at position `n`. -/
def outsAt1 (c : Dev nD) : (n : ℕ) → n < cfg1.N → Outs1 F
  | 0, hn => step1 V c ⟨0, hn⟩ junk1
  | n + 1, hn => step1 V c ⟨n + 1, hn⟩ (outsAt1 c n (Nat.lt_of_succ_lt hn))

/-- What the point before `t` left (nothing named before the first point). -/
def prevAt1 (c : Dev nD) (t : Fin cfg1.N) : Outs1 F :=
  if h : t.val = 0 then junk1 else outsAt1 V c (t.val - 1) (Nat.lt_of_le_of_lt (Nat.sub_le _ _) t.isLt)

theorem outsAt1_eq (c : Dev nD) (t : Fin cfg1.N) : outsAt1 V c t.val t.isLt = step1 V c t (prevAt1 V c t) := by
  obtain ⟨n, hn⟩ := t
  cases n with
  | zero => rfl
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

/-- The outputs after a point, case by case. -/
theorem outsAt1_A (c : Dev nD) (t : Fin cfg1.N) (h64 : t.val % 64 = 0) : outsAt1 V c t.val t.isLt =
    (out1_A_3 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t)) := by
  rw [outsAt1_eq]; unfold step1; rw [dif_pos h64]
theorem outsAt1_B (c : Dev nD) (t : Fin cfg1.N) (h64 : ¬t.val % 64 = 0) (h8 : t.val % 8 = 0) : outsAt1 V c t.val t.isLt =
    (out1_B_3 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread (prevAt1 V c t).2), out1_B_4 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread (prevAt1 V c t).2)) := by
  rw [outsAt1_eq]; unfold step1; rw [dif_neg h64, dif_pos h8]
theorem outsAt1_C (c : Dev nD) (t : Fin cfg1.N) (h64 : ¬t.val % 64 = 0) (h8 : ¬t.val % 8 = 0) : outsAt1 V c t.val t.isLt =
    (out1_C_3 c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread (prevAt1 V c t).1) ((hs1_4 t).unread (prevAt1 V c t).2), out1_C_4 c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread (prevAt1 V c t).1) ((hs1_4 t).unread (prevAt1 V c t).2)) := by
  rw [outsAt1_eq]; unfold step1; rw [dif_neg h64, dif_neg h8]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- Off the points ≡ 0 (mod 8) the row-tile accumulator's buffer holds what the point before left: it was not written
    back in between (that happens after the points ≡ 7 (mod 8)). -/
theorem before1_3_kept (c : Dev nD) (t : Fin cfg1.N) (h8 : ¬t.val % 8 = 0) (d) :
    (dat1 V c).before 3 t d = (prevAt1 V c t).1 := by
  have hN : t.val < 128 := lt_of_lt_of_eq t.isLt (show cfg1.N = 128 from N_1)
  have h0 : t.val ≠ 0 := fun h => h8 (by rw [h])
  rw [Dat.before_out_kept _ 3 rfl t h0 (Bool.eq_false_iff.mpr fun h => by have := (flush1_3 _).mp h; dsimp only at this; omega)
    (fun _ => rfl) (fun _ _ => rfl)]
  unfold prevAt1; rw [dif_neg h0]
  dsimp only [dat1]

/-- Off the points ≡ 0 (mod 64) the i_next partial's buffer holds what the point before left. -/
theorem before1_4_kept (c : Dev nD) (t : Fin cfg1.N) (h64 : ¬t.val % 64 = 0) (d) :
    (dat1 V c).before 4 t d = (prevAt1 V c t).2 := by
  have hN : t.val < 128 := lt_of_lt_of_eq t.isLt (show cfg1.N = 128 from N_1)
  have h0 : t.val ≠ 0 := fun h => h64 (by rw [h])
  rw [Dat.before_out_kept _ 4 rfl t h0 (Bool.eq_false_iff.mpr fun h => by have := (flush1_4 _).mp h; dsimp only at this; omega)
    (fun _ => rfl) (fun _ _ => rfl)]
  unfold prevAt1; rw [dif_neg h0]
  dsimp only [dat1]

/-! ## The body obligation's two sides -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

end Region1

end Cert.Kernel.Hand

end
-- ==== Proof.Bits.R1BodyA.lean ====
/-
  Region 1, the body obligation at a point of control case A: both accumulators are reset, so nothing is read of what the outputs' buffers held.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

set_option maxHeartbeats 1600000 in
theorem sound_body1_A (c : Dev nD) (t : Fin cfg1.N) (h64 : t.val % 64 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  rw [outsAt1_A V c t h64]
  dsimp only
  unfold out1_A_3 out1_A_4
  iintro ⟨HΦ, Ho, ⟨%d0, H0⟩, ⟨%d1, H1⟩, ⟨%d2, H2⟩, ⟨%d3, H3⟩, ⟨%d4, H4⟩⟩
  iapply ((kernelRun1_A c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover (ms1_3 t).view e3 VO1_3 VO1_3.junk _ (cover1_A_3 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t))
  unfold owns; iexists _; isplitr
  swap; · iexact H4
  ipureintro; exact View.read_writes_of_cover (ms1_4 t).view e4 VO1_4 VO1_4.junk _ (cover1_A_4 c (grid1.coords t) (ms1_0 t) (hs1_0 t) (ms1_1 t) (hs1_1 t) (ms1_2 t) (hs1_2 t) (ms1_3 t) (hs1_3 t) (ms1_4 t) (hs1_4 t) ((hcondJ1 t).mpr (by omega)) ((hcondIJ1 t).mpr h64) (iblk1 V c 0 t) (iblk1 V c 1 t) (iblk1 V c 2 t))

end Region1

end Cert.Kernel.Hand

end
-- ==== Proof.Bits.R1BodyB.lean ====
/-
  Region 1, the body obligation at a point of control case B: the row-tile accumulator is reset; the i_next partial's buffer holds what the point before left.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

set_option maxHeartbeats 1600000 in
theorem sound_body1_B (c : Dev nD) (t : Fin cfg1.N) (h64 : ¬t.val % 64 = 0) (h8 : t.val % 8 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  rw [outsAt1_B V c t h64 h8]
  dsimp only
  unfold out1_B_3 out1_B_4
  simp only [before1_4_kept V c t h64]
  iintro ⟨HΦ, Ho, ⟨%d0, H0⟩, ⟨%d1, H1⟩, ⟨%d2, H2⟩, ⟨%d3, H3⟩, ⟨%d4, H4⟩⟩
  unfold owns
  icases H4 with ⟨%f4, %hf4, H4⟩
  obtain rfl := (hs1_4 t).eq_unread hf4
  iapply ((kernelRun1_B c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread (prevAt1 V c t).2)).2.2 Set.univ _)
  unfold owns
  isplitl [H0]; · iexact H0
  isplitl [H1]; · iexact H1
  isplitl [H2]; · iexact H2
  isplitl [H3]; · iexists _; iexact H3
  isplitl [H4]; · iexact H4
  iintro ⟨H0, H1, H2, ⟨%e3, H3⟩, H4⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; exact View.read_writes_of_cover (ms1_3 t).view e3 VO1_3 VO1_3.junk _ (cover1_B_3 c (grid1.coords t) (ms1_0 t) (hs1_0 t) (ms1_1 t) (hs1_1 t) (ms1_2 t) (hs1_2 t) (ms1_3 t) (hs1_3 t) (ms1_4 t) (hs1_4 t) ((hcondJ1 t).mpr h8) (fun h => h64 ((hcondIJ1 t).mp h)) (iblk1 V c 0 t) (iblk1 V c 1 t) (iblk1 V c 2 t) ((hs1_4 t).unread (prevAt1 V c t).2))
  iexists _; isplitr
  swap; · iexact H4
  ipureintro; rfl

end Region1

end Cert.Kernel.Hand

end
-- ==== Proof.Bits.R1BodyC.lean ====
/-
  Region 1, the body obligation at a point of control case C: no reset; both accumulators' buffers hold what the point before left.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R1Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

set_option maxHeartbeats 1600000 in
theorem sound_body1_C (c : Dev nD) (t : Fin cfg1.N) (h64 : ¬t.val % 64 = 0) (h8 : ¬t.val % 8 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  rw [outsAt1_C V c t h64 h8]
  dsimp only
  unfold out1_C_3 out1_C_4
  simp only [before1_4_kept V c t h64, before1_3_kept V c t h8]
  iintro ⟨HΦ, Ho, ⟨%d0, H0⟩, ⟨%d1, H1⟩, ⟨%d2, H2⟩, ⟨%d3, H3⟩, ⟨%d4, H4⟩⟩
  unfold owns
  icases H3 with ⟨%f3, %hf3, H3⟩
  icases H4 with ⟨%f4, %hf4, H4⟩
  obtain rfl := (hs1_3 t).eq_unread hf3
  obtain rfl := (hs1_4 t).eq_unread hf4
  iapply ((kernelRun1_C c (grid1.coords t) (ms1_0 t) (hs1_0 t) (ms1_1 t) (hs1_1 t) (ms1_2 t) (hs1_2 t) (ms1_3 t) (hs1_3 t) (ms1_4 t) (hs1_4 t) (fun h => h8 ((hcondJ1 t).mp h)) (fun h => h64 ((hcondIJ1 t).mp h)) (iblk1 V c 0 t) (iblk1 V c 1 t) (iblk1 V c 2 t) ((hs1_3 t).unread (prevAt1 V c t).1) ((hs1_4 t).unread (prevAt1 V c t).2)).2.2 Set.univ _)
  unfold owns
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; rfl
  iexists _; isplitr
  swap; · iexact H4
  ipureintro; rfl

end Region1

end Cert.Kernel.Hand

end
-- ==== Proof.Bits.R1Body.lean ====
/-
  Region 1: the body obligation at every point, by the point's control case (t ≡ 0 mod 64; t ≡ 0 mod 8 only; neither).
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R1BodyA
import proofs.«153668_j35003983462547_2_alg».proof.Proof.Bits.R1BodyB
import proofs.«153668_j35003983462547_2_alg».proof.Proof.Bits.R1BodyC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

theorem body_obligation1 (c : Dev nD) : BodyObligation (dat1 (F := F) V c) (defs₀ (F := F)) Variants.none () Set.univ := fun t => by
  rw [bigSep_W1, bigSep_W1]
  by_cases h64 : t.val % 64 = 0
  · exact sound_body1_A V c t h64
  · by_cases h8 : t.val % 8 = 0
    · exact sound_body1_B V c t h64 h8
    · exact sound_body1_C V c t h64 h8

end Region1

end Cert.Kernel.Hand

end
-- ==== Proof.Bits.R2RunA.lean ====
/-
  Region 2 (round 2: bf16 adjacency in), control case A: the kernel body run on whole staging memrefs. The
  three inputs' buffers hold their blocks and come back unchanged; each output's buffer ends as the body's stores
  written, last first, over what it held. The piece lists are whatever the run of the body's stores produces.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case A. -/
noncomputable def kernelRun2_A (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : condJ2 i) (hc1 : condIJ2 i)
    (x0 : Vec F S512x2048 .bf16) (x1 : Vec F S512x32 .f32) (x2 : Vec F S2048x32 .f32) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f L4)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact H4

end Cert.Kernel.Hand

end
-- ==== Proof.Bits.R2RunB.lean ====
/-
  Region 2 (round 2: bf16 adjacency in), control case B: the kernel body run on whole staging memrefs. The
  three inputs' buffers hold their blocks and come back unchanged; each output's buffer ends as the body's stores
  written, last first, over what it held. The piece lists are whatever the run of the body's stores produces.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case B. -/
noncomputable def kernelRun2_B (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : condJ2 i) (hc1 : ¬condIJ2 i)
    (x0 : Vec F S512x2048 .bf16) (x1 : Vec F S512x32 .f32) (x2 : Vec F S2048x32 .f32) (f4 : arg7.view.ty.Contents (Elt F)) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (arg7.view.loc (c : Thread nD τ) ↦[arg7.view.set]{fullShare} f4)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3) ∗ (arg7.view.loc (c : Thread nD τ) ↦[arg7.view.set]{fullShare} arg7.view.writes (Elt F) f4 L4)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, H4, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexact H4

end Cert.Kernel.Hand

end
-- ==== Proof.Bits.R2RunC.lean ====
/-
  Region 2 (round 2: bf16 adjacency in), control case C: the kernel body run on whole staging memrefs. The
  three inputs' buffers hold their blocks and come back unchanged; each output's buffer ends as the body's stores
  written, last first, over what it held. The piece lists are whatever the run of the body's stores produces.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.Conds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body at a point of case C. -/
noncomputable def kernelRun2_C (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole)
    (hc0 : ¬condJ2 i) (hc1 : ¬condIJ2 i)
    (x0 : Vec F S512x2048 .bf16) (x1 : Vec F S512x32 .f32) (x2 : Vec F S2048x32 .f32) (f3 : arg6.view.ty.Contents (Elt F)) (f4 : arg7.view.ty.Contents (Elt F)) :
    (L3 : List (View.Piece (Elt F) S512x32 .f32)) ×' { L4 : List (View.Piece (Elt F) S1x16384x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (arg6.view.loc (c : Thread nD τ) ↦[arg6.view.set]{fullShare} f3) ∗ (arg7.view.loc (c : Thread nD τ) ↦[arg7.view.set]{fullShare} f4)
            ∗ (iprop(owns (c : Thread nD τ) arg3 fullShare x0 ∗ owns (c : Thread nD τ) arg4 fullShare x1 ∗ owns (c : Thread nD τ) arg5 fullShare x2
                ∗ (arg6.view.loc (c : Thread nD τ) ↦[arg6.view.set]{fullShare} arg6.view.writes (Elt F) f3 L3) ∗ (arg7.view.loc (c : Thread nD τ) ↦[arg7.view.set]{fullShare} arg7.view.writes (Elt F) f4 L4)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, H3, H4, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    iexact H4

end Cert.Kernel.Hand

end
-- ==== Proof.Bits.R2Data.lean ====
/-
  Region 2 (round 2) as a pipeline: what every window's staging buffer holds after the body at each of the 128 grid
  points.

  The grid is (core c, row tile i, column tile j), t = 64·c + 8·i + j. The three inputs (the bf16 adjacency tile, the
  row tile of u_k, the column tile of i_k) are re-read from their arrays. Output 3 (u_next's row tile, index (8c+i, 0))
  is reset where j = 0, added to at every j, and written back after j = 7. Output 4 (core c's partial of i_next, index
  (c,0,0), the whole [16384,32] partial resident) is reset where i = j = 0, has its rows 2048·j … 2048·j+2047 added to
  at every point, and is written back after the core's last point.
  So the contents after point t are a recursion on t: at a reset the fresh value, else a function of what point t−1 left.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R2RunA
import proofs.«153668_j35003983462547_2_alg».proof.Proof.Bits.R2RunB
import proofs.«153668_j35003983462547_2_alg».proof.Proof.Bits.R2RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of each output window, through which contents that do not depend on what the buffer held are stated. -/
abbrev VO2_3 : View sig .tc .vmem S512x32 .f32 := (Memref.whole cc2_stg3_0 : Memref sig .tc .vmem S512x32 .f32).view
abbrev VO2_4 : View sig .tc .vmem S1x16384x32 .f32 := (Memref.whole cc2_stg4_0 : Memref sig .tc .vmem S1x16384x32 .f32).view
/-- Each window's current staging memref at point `t`, as the pipeline passes it, and its wholeness. -/
abbrev ms2_0 (t : Fin cfg2.N) : Memref sig .tc .vmem S512x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x16384x32 .f32 := win2_4.stage (cfg2.slots t 4)
abbrev hs2_4 (t : Fin cfg2.N) : (ms2_4 t).IsWhole := hstage2_4 ((cfg2.slots t 4).cast nbuf2_4)

/-! ## Where a case's stores fill an output's block whatever it held -/

theorem cover2_A_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec F S512x2048 .bf16) (x1 : Vec F S512x32 .f32) (x2 : Vec F S2048x32 .f32) (y : S512x32.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S512x32.size (by sl_kernel_rfl) y
theorem cover2_A_4 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec F S512x2048 .bf16) (x1 : Vec F S512x32 .f32) (x2 : Vec F S2048x32 .f32) (y : S1x16384x32.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1x16384x32.size (by sl_kernel_rfl) y
theorem cover2_B_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : ¬condIJ2 i) (x0 : Vec F S512x2048 .bf16) (x1 : Vec F S512x32 .f32) (x2 : Vec F S2048x32 .f32) (f4 : arg7.view.ty.Contents (Elt F)) (y : S512x32.Idx) :
    ∃ pc ∈ (kernelRun2_B c i arg3 harg3 arg4 harg4 arg5 harg5 arg6 harg6 arg7 harg7 hc0 hc1 x0 x1 x2 f4).1, y ∈ pc.1.set :=
  View.cover_of_tiledL (kernelRun2_B c i arg3 harg3 arg4 harg4 arg5 harg5 arg6 harg6 arg7 harg7 hc0 hc1 x0 x1 x2 f4).1 S512x32.size (by sl_kernel_rfl) y

/-! ## What each case leaves in the two outputs' buffers -/

/-- Case A (both resets): nothing depends on what the buffers held. -/
def out2_A_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec F S512x2048 .bf16) (x1 : Vec F S512x32 .f32) (x2 : Vec F S2048x32 .f32) : Vec F S512x32 .f32 :=
  VO2_3.read (Elt F) (VO2_3.writes (Elt F) VO2_3.junk (kernelRun2_A c i arg3 harg3 arg4 harg4 arg5 harg5 arg6 harg6 arg7 harg7 hc0 hc1 x0 x1 x2).1)
def out2_A_4 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec F S512x2048 .bf16) (x1 : Vec F S512x32 .f32) (x2 : Vec F S2048x32 .f32) : Vec F S1x16384x32 .f32 :=
  VO2_4.read (Elt F) (VO2_4.writes (Elt F) VO2_4.junk (kernelRun2_A c i arg3 harg3 arg4 harg4 arg5 harg5 arg6 harg6 arg7 harg7 hc0 hc1 x0 x1 x2).2.1)
/-- Case B (the row-tile accumulator reset): the i_next partial is the body's slice store over what it held. -/
def out2_B_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : ¬condIJ2 i) (x0 : Vec F S512x2048 .bf16) (x1 : Vec F S512x32 .f32) (x2 : Vec F S2048x32 .f32) (f4 : arg7.view.ty.Contents (Elt F)) : Vec F S512x32 .f32 :=
  VO2_3.read (Elt F) (VO2_3.writes (Elt F) VO2_3.junk (kernelRun2_B c i arg3 harg3 arg4 harg4 arg5 harg5 arg6 harg6 arg7 harg7 hc0 hc1 x0 x1 x2 f4).1)
def out2_B_4 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : ¬condIJ2 i) (x0 : Vec F S512x2048 .bf16) (x1 : Vec F S512x32 .f32) (x2 : Vec F S2048x32 .f32) (f4 : arg7.view.ty.Contents (Elt F)) : Vec F S1x16384x32 .f32 :=
  arg7.view.read (Elt F) (arg7.view.writes (Elt F) f4 (kernelRun2_B c i arg3 harg3 arg4 harg4 arg5 harg5 arg6 harg6 arg7 harg7 hc0 hc1 x0 x1 x2 f4).2.1)
/-- Case C (no reset): both accumulators are the body's stores over what they held. -/
def out2_C_3 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ2 i) (hc1 : ¬condIJ2 i) (x0 : Vec F S512x2048 .bf16) (x1 : Vec F S512x32 .f32) (x2 : Vec F S2048x32 .f32) (f3 : arg6.view.ty.Contents (Elt F)) (f4 : arg7.view.ty.Contents (Elt F)) : Vec F S512x32 .f32 :=
  arg6.view.read (Elt F) (arg6.view.writes (Elt F) f3 (kernelRun2_C c i arg3 harg3 arg4 harg4 arg5 harg5 arg6 harg6 arg7 harg7 hc0 hc1 x0 x1 x2 f3 f4).1)
def out2_C_4 (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ2 i) (hc1 : ¬condIJ2 i) (x0 : Vec F S512x2048 .bf16) (x1 : Vec F S512x32 .f32) (x2 : Vec F S2048x32 .f32) (f3 : arg6.view.ty.Contents (Elt F)) (f4 : arg7.view.ty.Contents (Elt F)) : Vec F S1x16384x32 .f32 :=
  arg7.view.read (Elt F) (arg7.view.writes (Elt F) f4 (kernelRun2_C c i arg3 harg3 arg4 harg4 arg5 harg5 arg6 harg6 arg7 harg7 hc0 hc1 x0 x1 x2 f3 f4).2.1)

/-- The two outputs' contents: u_next's row tile, the core's i_next partial. -/
abbrev Outs2 (F : FTy → Type) [FloatOps F] : Type := Vec F S512x32 .f32 × Vec F S1x16384x32 .f32

/-- One point: the case the point's position selects, run on the point's memrefs and input blocks over what the point
    before left (`prev`, unused where the case resets). -/
def step2 (c : Dev nD) (t : Fin cfg2.N) (prev : Outs2 F) : Outs2 F :=
  if h64 : t.val % 64 = 0 then
    (out2_A_3 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t))
  else if h8 : t.val % 8 = 0 then
    (out2_B_3 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread prev.2), out2_B_4 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread prev.2))
  else
    (out2_C_3 c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread prev.1) ((hs2_4 t).unread prev.2),
      out2_C_4 c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread prev.1) ((hs2_4 t).unread prev.2))

/-- Contents nobody names (before the first point). -/
def junk2 : Outs2 F := (VO2_3.read (Elt F) VO2_3.junk, VO2_4.read (Elt F) VO2_4.junk)

/-- THE ACCUMULATION: what the outputs' buffers hold after the body at position `n`. -/
def outsAt2 (c : Dev nD) : (n : ℕ) → n < cfg2.N → Outs2 F
  | 0, hn => step2 V c ⟨0, hn⟩ junk2
  | n + 1, hn => step2 V c ⟨n + 1, hn⟩ (outsAt2 c n (Nat.lt_of_succ_lt hn))

/-- What the point before `t` left (nothing named before the first point). -/
def prevAt2 (c : Dev nD) (t : Fin cfg2.N) : Outs2 F :=
  if h : t.val = 0 then junk2 else outsAt2 V c (t.val - 1) (Nat.lt_of_le_of_lt (Nat.sub_le _ _) t.isLt)

theorem outsAt2_eq (c : Dev nD) (t : Fin cfg2.N) : outsAt2 V c t.val t.isLt = step2 V c t (prevAt2 V c t) := by
  obtain ⟨n, hn⟩ := t
  cases n with
  | zero => rfl
  | succ n => rfl

/-! ## The pipeline's proof data -/

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2 := by dsimp only [dat2]

/-- The outputs after a point, case by case. -/
theorem outsAt2_A (c : Dev nD) (t : Fin cfg2.N) (h64 : t.val % 64 = 0) : outsAt2 V c t.val t.isLt =
    (out2_A_3 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t)) := by
  rw [outsAt2_eq]; unfold step2; rw [dif_pos h64]
theorem outsAt2_B (c : Dev nD) (t : Fin cfg2.N) (h64 : ¬t.val % 64 = 0) (h8 : t.val % 8 = 0) : outsAt2 V c t.val t.isLt =
    (out2_B_3 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread (prevAt2 V c t).2), out2_B_4 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread (prevAt2 V c t).2)) := by
  rw [outsAt2_eq]; unfold step2; rw [dif_neg h64, dif_pos h8]
theorem outsAt2_C (c : Dev nD) (t : Fin cfg2.N) (h64 : ¬t.val % 64 = 0) (h8 : ¬t.val % 8 = 0) : outsAt2 V c t.val t.isLt =
    (out2_C_3 c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread (prevAt2 V c t).1) ((hs2_4 t).unread (prevAt2 V c t).2), out2_C_4 c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread (prevAt2 V c t).1) ((hs2_4 t).unread (prevAt2 V c t).2)) := by
  rw [outsAt2_eq]; unfold step2; rw [dif_neg h64, dif_neg h8]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- Off the points ≡ 0 (mod 8) the row-tile accumulator's buffer holds what the point before left: it was not written
    back in between (that happens after the points ≡ 7 (mod 8)). -/
theorem before2_3_kept (c : Dev nD) (t : Fin cfg2.N) (h8 : ¬t.val % 8 = 0) (d) :
    (dat2 V c).before 3 t d = (prevAt2 V c t).1 := by
  have hN : t.val < 128 := lt_of_lt_of_eq t.isLt (show cfg2.N = 128 from N_2)
  have h0 : t.val ≠ 0 := fun h => h8 (by rw [h])
  rw [Dat.before_out_kept _ 3 rfl t h0 (Bool.eq_false_iff.mpr fun h => by have := (flush2_3 _).mp h; dsimp only at this; omega)
    (fun _ => rfl) (fun _ _ => rfl)]
  unfold prevAt2; rw [dif_neg h0]
  dsimp only [dat2]

/-- Off the points ≡ 0 (mod 64) the i_next partial's buffer holds what the point before left. -/
theorem before2_4_kept (c : Dev nD) (t : Fin cfg2.N) (h64 : ¬t.val % 64 = 0) (d) :
    (dat2 V c).before 4 t d = (prevAt2 V c t).2 := by
  have hN : t.val < 128 := lt_of_lt_of_eq t.isLt (show cfg2.N = 128 from N_2)
  have h0 : t.val ≠ 0 := fun h => h64 (by rw [h])
  rw [Dat.before_out_kept _ 4 rfl t h0 (Bool.eq_false_iff.mpr fun h => by have := (flush2_4 _).mp h; dsimp only at this; omega)
    (fun _ => rfl) (fun _ _ => rfl)]
  unfold prevAt2; rw [dif_neg h0]
  dsimp only [dat2]

/-! ## The body obligation's two sides -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

end Region2

end Cert.Kernel.Hand

end
-- ==== Proof.Bits.R2BodyA.lean ====
/-
  Region 2, the body obligation at a point of control case A: both accumulators are reset, so nothing is read of what the outputs' buffers held.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

set_option maxHeartbeats 1600000 in
theorem sound_body2_A (c : Dev nD) (t : Fin cfg2.N) (h64 : t.val % 64 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  rw [outsAt2_A V c t h64]
  dsimp only
  unfold out2_A_3 out2_A_4
  iintro ⟨HΦ, Ho, ⟨%d0, H0⟩, ⟨%d1, H1⟩, ⟨%d2, H2⟩, ⟨%d3, H3⟩, ⟨%d4, H4⟩⟩
  iapply ((kernelRun2_A c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover (ms2_3 t).view e3 VO2_3 VO2_3.junk _ (cover2_A_3 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t))
  unfold owns; iexists _; isplitr
  swap; · iexact H4
  ipureintro; exact View.read_writes_of_cover (ms2_4 t).view e4 VO2_4 VO2_4.junk _ (cover2_A_4 c (grid2.coords t) (ms2_0 t) (hs2_0 t) (ms2_1 t) (hs2_1 t) (ms2_2 t) (hs2_2 t) (ms2_3 t) (hs2_3 t) (ms2_4 t) (hs2_4 t) ((hcondJ2 t).mpr (by omega)) ((hcondIJ2 t).mpr h64) (iblk2 V c 0 t) (iblk2 V c 1 t) (iblk2 V c 2 t))

end Region2

end Cert.Kernel.Hand

end
-- ==== Proof.Bits.R2BodyB.lean ====
/-
  Region 2, the body obligation at a point of control case B: the row-tile accumulator is reset; the i_next partial's buffer holds what the point before left.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

set_option maxHeartbeats 1600000 in
theorem sound_body2_B (c : Dev nD) (t : Fin cfg2.N) (h64 : ¬t.val % 64 = 0) (h8 : t.val % 8 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  rw [outsAt2_B V c t h64 h8]
  dsimp only
  unfold out2_B_3 out2_B_4
  simp only [before2_4_kept V c t h64]
  iintro ⟨HΦ, Ho, ⟨%d0, H0⟩, ⟨%d1, H1⟩, ⟨%d2, H2⟩, ⟨%d3, H3⟩, ⟨%d4, H4⟩⟩
  unfold owns
  icases H4 with ⟨%f4, %hf4, H4⟩
  obtain rfl := (hs2_4 t).eq_unread hf4
  iapply ((kernelRun2_B c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread (prevAt2 V c t).2)).2.2 Set.univ _)
  unfold owns
  isplitl [H0]; · iexact H0
  isplitl [H1]; · iexact H1
  isplitl [H2]; · iexact H2
  isplitl [H3]; · iexists _; iexact H3
  isplitl [H4]; · iexact H4
  iintro ⟨H0, H1, H2, ⟨%e3, H3⟩, H4⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; exact View.read_writes_of_cover (ms2_3 t).view e3 VO2_3 VO2_3.junk _ (cover2_B_3 c (grid2.coords t) (ms2_0 t) (hs2_0 t) (ms2_1 t) (hs2_1 t) (ms2_2 t) (hs2_2 t) (ms2_3 t) (hs2_3 t) (ms2_4 t) (hs2_4 t) ((hcondJ2 t).mpr h8) (fun h => h64 ((hcondIJ2 t).mp h)) (iblk2 V c 0 t) (iblk2 V c 1 t) (iblk2 V c 2 t) ((hs2_4 t).unread (prevAt2 V c t).2))
  iexists _; isplitr
  swap; · iexact H4
  ipureintro; rfl

end Region2

end Cert.Kernel.Hand

end
-- ==== Proof.Bits.R2BodyC.lean ====
/-
  Region 2, the body obligation at a point of control case C: no reset; both accumulators' buffers hold what the point before left.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R2Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

set_option maxHeartbeats 1600000 in
theorem sound_body2_C (c : Dev nD) (t : Fin cfg2.N) (h64 : ¬t.val % 64 = 0) (h8 : ¬t.val % 8 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  rw [outsAt2_C V c t h64 h8]
  dsimp only
  unfold out2_C_3 out2_C_4
  simp only [before2_4_kept V c t h64, before2_3_kept V c t h8]
  iintro ⟨HΦ, Ho, ⟨%d0, H0⟩, ⟨%d1, H1⟩, ⟨%d2, H2⟩, ⟨%d3, H3⟩, ⟨%d4, H4⟩⟩
  unfold owns
  icases H3 with ⟨%f3, %hf3, H3⟩
  icases H4 with ⟨%f4, %hf4, H4⟩
  obtain rfl := (hs2_3 t).eq_unread hf3
  obtain rfl := (hs2_4 t).eq_unread hf4
  iapply ((kernelRun2_C c (grid2.coords t) (ms2_0 t) (hs2_0 t) (ms2_1 t) (hs2_1 t) (ms2_2 t) (hs2_2 t) (ms2_3 t) (hs2_3 t) (ms2_4 t) (hs2_4 t) (fun h => h8 ((hcondJ2 t).mp h)) (fun h => h64 ((hcondIJ2 t).mp h)) (iblk2 V c 0 t) (iblk2 V c 1 t) (iblk2 V c 2 t) ((hs2_3 t).unread (prevAt2 V c t).1) ((hs2_4 t).unread (prevAt2 V c t).2)).2.2 Set.univ _)
  unfold owns
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists _; isplitr
    swap; · iexact H3
    ipureintro; rfl
  iexists _; isplitr
  swap; · iexact H4
  ipureintro; rfl

end Region2

end Cert.Kernel.Hand

end
-- ==== Proof.Bits.R2Body.lean ====
/-
  Region 2: the body obligation at every point, by the point's control case (t ≡ 0 mod 64; t ≡ 0 mod 8 only; neither).
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Bits.R2BodyA
import proofs.«153668_j35003983462547_2_alg».proof.Proof.Bits.R2BodyB
import proofs.«153668_j35003983462547_2_alg».proof.Proof.Bits.R2BodyC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

theorem body_obligation2 (c : Dev nD) : BodyObligation (dat2 (F := F) V c) (defs₀ (F := F)) Variants.none () Set.univ := fun t => by
  rw [bigSep_W2, bigSep_W2]
  by_cases h64 : t.val % 64 = 0
  · exact sound_body2_A V c t h64
  · by_cases h8 : t.val % 8 = 0
    · exact sound_body2_B V c t h64 h8
    · exact sound_body2_C V c t h64 h8

end Region2

end Cert.Kernel.Hand

end
-- ==== Proof.Bits.Run.lean ====
/-
  The run of @main: three rounds, each a pipelined region followed by a stretch of host operations.

  The unscoped buffers' contents at each boundary are a fold from the launch memory: a region replaces its windows'
  arrays by what its write-backs leave; a host stretch applies its operations. The launch theorem for a program given
  as a list of segments then says: every weakly fair execution terminates, faults nowhere, and ends with every
  unscoped buffer at the last boundary's contents `B6`. The arguments walk back through the fold to the launch memory.
-/
import proofs.«153668_j35003983462547_2_alg».proof.Proof.Gen.Kernel.Launch
import proofs.«153668_j35003983462547_2_alg».proof.Proof.Gen.Kernel.Skeleton
import proofs.«153668_j35003983462547_2_alg».proof.Proof.Gen.Kernel.Points
import proofs.«153668_j35003983462547_2_alg».proof.Proof.Gen.Kernel.Regions
import proofs.«153668_j35003983462547_2_alg».proof.Proof.Bits.R0Body
import proofs.«153668_j35003983462547_2_alg».proof.Proof.Bits.R1Body
import proofs.«153668_j35003983462547_2_alg».proof.Proof.Bits.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => m ((c : Dev nD), b)
abbrev BV0 : (c : Dev nD) → (b : Ref sig .tc) → Buf (Elt F) ((c : Thread nD τ).loc b) := fun c b => B0 m c b

/-- After round 0's region: its windows' arrays at what the pipeline leaves (an input as entered, an output with its
    write-backs folded in), every other buffer as entered. -/
def B1 (c : Dev nD) : Valuation τ sig (Elt F) :=
  Pipeline.withArrays spec0 c (B0 m c) fun w => (dat0 (BV0 m) c).arrAt w cfg0.N
theorem B1_arr (c : Dev nD) (w : Fin cfg0.W) :
    B1 m c (Proc.devRef .tc (Pipeline.arrRef spec0 w)) = (dat0 (BV0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev BV1 : (c : Dev nD) → (b : Ref sig .tc) → Buf (Elt F) ((c : Thread nD τ).loc b) := fun c b => B1 m c b
theorem hF0 (c : Dev nD) (w : Fin cfg0.W) : (dat0 (BV0 m) c).arrAt w cfg0.N = BV1 m c (Pipeline.arrRef spec0 w) :=
  (B1_arr m c w).symm
theorem hrest0 (c : Dev nD) : ∀ b, b ∉ Finset.univ.image (Pipeline.arrRef spec0) → BV1 m c b = BV0 m c b :=
  fun b hb => B1_of_ne m c b fun w e => hb (Finset.mem_image.mpr ⟨w, Finset.mem_univ _, e⟩)

/-- After the host operations that follow (slice the two per-core partials of i_next apart, add them, add the round's
    results to the running sums). -/
abbrev B2 (c : Dev nD) : Valuation τ sig (Elt F) := StableHlo.after hostOps1 (B1 m c)
abbrev BV2 : (c : Dev nD) → (b : Ref sig .tc) → Buf (Elt F) ((c : Thread nD τ).loc b) := fun c b => B2 m c b
theorem B2_of (c : Dev nD) (r : Ref sig .tc) (h : r ∉ hostOps1_W) : B2 m c r = B1 m c r :=
  StableHlo.after_of_writes_sub hostOps1 _ hostOps1_writes h

/-- After round 1's region: its windows' arrays at what the pipeline leaves (an input as entered, an output with its
    write-backs folded in), every other buffer as entered. -/
def B3 (c : Dev nD) : Valuation τ sig (Elt F) :=
  Pipeline.withArrays spec1 c (B2 m c) fun w => (dat1 (BV2 m) c).arrAt w cfg1.N
theorem B3_arr (c : Dev nD) (w : Fin cfg1.W) :
    B3 m c (Proc.devRef .tc (Pipeline.arrRef spec1 w)) = (dat1 (BV2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev BV3 : (c : Dev nD) → (b : Ref sig .tc) → Buf (Elt F) ((c : Thread nD τ).loc b) := fun c b => B3 m c b
theorem hF1 (c : Dev nD) (w : Fin cfg1.W) : (dat1 (BV2 m) c).arrAt w cfg1.N = BV3 m c (Pipeline.arrRef spec1 w) :=
  (B3_arr m c w).symm
theorem hrest1 (c : Dev nD) : ∀ b, b ∉ Finset.univ.image (Pipeline.arrRef spec1) → BV3 m c b = BV2 m c b :=
  fun b hb => B3_of_ne m c b fun w e => hb (Finset.mem_image.mpr ⟨w, Finset.mem_univ _, e⟩)

/-- After the host operations that follow (slice the two per-core partials of i_next apart, add them, add the round's
    results to the running sums). -/
abbrev B4 (c : Dev nD) : Valuation τ sig (Elt F) := StableHlo.after hostOps2 (B3 m c)
abbrev BV4 : (c : Dev nD) → (b : Ref sig .tc) → Buf (Elt F) ((c : Thread nD τ).loc b) := fun c b => B4 m c b
theorem B4_of (c : Dev nD) (r : Ref sig .tc) (h : r ∉ hostOps2_W) : B4 m c r = B3 m c r :=
  StableHlo.after_of_writes_sub hostOps2 _ hostOps2_writes h

/-- After round 2's region: its windows' arrays at what the pipeline leaves (an input as entered, an output with its
    write-backs folded in), every other buffer as entered. -/
def B5 (c : Dev nD) : Valuation τ sig (Elt F) :=
  Pipeline.withArrays spec2 c (B4 m c) fun w => (dat2 (BV4 m) c).arrAt w cfg2.N
theorem B5_arr (c : Dev nD) (w : Fin cfg2.W) :
    B5 m c (Proc.devRef .tc (Pipeline.arrRef spec2 w)) = (dat2 (BV4 m) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
abbrev BV5 : (c : Dev nD) → (b : Ref sig .tc) → Buf (Elt F) ((c : Thread nD τ).loc b) := fun c b => B5 m c b
theorem hF2 (c : Dev nD) (w : Fin cfg2.W) : (dat2 (BV4 m) c).arrAt w cfg2.N = BV5 m c (Pipeline.arrRef spec2 w) :=
  (B5_arr m c w).symm
theorem hrest2 (c : Dev nD) : ∀ b, b ∉ Finset.univ.image (Pipeline.arrRef spec2) → BV5 m c b = BV4 m c b :=
  fun b hb => B5_of_ne m c b fun w e => hb (Finset.mem_image.mpr ⟨w, Finset.mem_univ _, e⟩)

/-- After the host operations that follow (slice the two per-core partials of i_next apart, add them, add the round's
    results to the running sums, and scale both sums by 1/4). -/
abbrev B6 (c : Dev nD) : Valuation τ sig (Elt F) := StableHlo.after hostOps3 (B5 m c)
abbrev BV6 : (c : Dev nD) → (b : Ref sig .tc) → Buf (Elt F) ((c : Thread nD τ).loc b) := fun c b => B6 m c b
theorem B6_of (c : Dev nD) (r : Ref sig .tc) (h : r ∉ hostOps3_W) : B6 m c r = B5 m c r :=
  StableHlo.after_of_writes_sub hostOps3 _ hostOps3_writes h

/-- `main_arg0` reaches the end as launched: no host operation writes it, and the regions only read it. -/
theorem B6_main_arg0 (c : Dev nD) : B6 m c (Proc.devRef .tc main_arg0) = m ((c : Thread nD τ).loc main_arg0) :=
  calc B6 m c (Proc.devRef .tc main_arg0)
    _ = B5 m c (Proc.devRef .tc main_arg0) := B6_of m c main_arg0 (by decide)
    _ = B4 m c (Proc.devRef .tc main_arg0) := B5_of_ne m c main_arg0 (by decide)
    _ = B3 m c (Proc.devRef .tc main_arg0) := B4_of m c main_arg0 (by decide)
    _ = B2 m c (Proc.devRef .tc main_arg0) := B3_of_ne m c main_arg0 (by decide)
    _ = B1 m c (Proc.devRef .tc main_arg0) := B2_of m c main_arg0 (by decide)
    _ = B0 m c (Proc.devRef .tc main_arg0) := (B1_arr m c 1).trans (((dat0 (BV0 m) c).arrAt_in 1 rfl _).trans (A_eq0 (BV0 m) c 1))
    _ = m ((c : Thread nD τ).loc main_arg0) := rfl

/-- `main_arg1` reaches the end as launched: no host operation writes it, and the regions only read it. -/
theorem B6_main_arg1 (c : Dev nD) : B6 m c (Proc.devRef .tc main_arg1) = m ((c : Thread nD τ).loc main_arg1) :=
  calc B6 m c (Proc.devRef .tc main_arg1)
    _ = B5 m c (Proc.devRef .tc main_arg1) := B6_of m c main_arg1 (by decide)
    _ = B4 m c (Proc.devRef .tc main_arg1) := B5_of_ne m c main_arg1 (by decide)
    _ = B3 m c (Proc.devRef .tc main_arg1) := B4_of m c main_arg1 (by decide)
    _ = B2 m c (Proc.devRef .tc main_arg1) := B3_of_ne m c main_arg1 (by decide)
    _ = B1 m c (Proc.devRef .tc main_arg1) := B2_of m c main_arg1 (by decide)
    _ = B0 m c (Proc.devRef .tc main_arg1) := (B1_arr m c 2).trans (((dat0 (BV0 m) c).arrAt_in 2 rfl _).trans (A_eq0 (BV0 m) c 2))
    _ = m ((c : Thread nD τ).loc main_arg1) := rfl

/-- `main_arg2` reaches the end as launched: no host operation writes it, and the regions only read it. -/
theorem B6_main_arg2 (c : Dev nD) : B6 m c (Proc.devRef .tc main_arg2) = m ((c : Thread nD τ).loc main_arg2) :=
  calc B6 m c (Proc.devRef .tc main_arg2)
    _ = B5 m c (Proc.devRef .tc main_arg2) := B6_of m c main_arg2 (by decide)
    _ = B4 m c (Proc.devRef .tc main_arg2) := B5_of_ne m c main_arg2 (by decide)
    _ = B3 m c (Proc.devRef .tc main_arg2) := B4_of m c main_arg2 (by decide)
    _ = B2 m c (Proc.devRef .tc main_arg2) := B3_of_ne m c main_arg2 (by decide)
    _ = B1 m c (Proc.devRef .tc main_arg2) := B2_of m c main_arg2 (by decide)
    _ = B0 m c (Proc.devRef .tc main_arg2) := (B1_arr m c 0).trans (((dat0 (BV0 m) c).arrAt_in 0 rfl _).trans (A_eq0 (BV0 m) c 0))
    _ = m ((c : Thread nD τ).loc main_arg2) := rfl

/-! ## The proof data family and the thread state -/

/-- Every pipeline's proof data, each at its region's entry contents. -/
def pdats : (p : Fin 3) → (c : Dev nD) → Dat τ (Elt F) Unit ℕ (Pipeline.UD sig nD τ) ℕ (Pipeline.pin (pcfgs (F := F)) adm p) c
  | ⟨0, _⟩ => fun c => dat0 (BV0 m) c
  | ⟨1, _⟩ => fun c => dat1 (BV2 m) c
  | ⟨2, _⟩ => fun c => dat2 (BV4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := StableHlo.held (c : Thread nD τ) (Pipeline.ucRefs τ sig) (B6 m c)

/-! ## The regions as segments -/

set_option backward.isDefEq.respectTransparency.types false in
/-- Round 0's region over the thread state: entered with every unscoped buffer at `B0`, left with them at `B1`. Its
    windows' arrays are split out of the unscoped buffers and put back at what the write-backs left; the generator
    register goes into the body's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (BV0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (BV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (BV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (BV0 m c) (BV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 1's region over the thread state: entered with every unscoped buffer at `B2`, left with them at `B3`. Its
    windows' arrays are split out of the unscoped buffers and put back at what the write-backs left; the generator
    register goes into the body's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (BV2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (BV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (BV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (BV2 m c) (BV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Round 2's region over the thread state: entered with every unscoped buffer at `B4`, left with them at `B5`. Its
    windows' arrays are split out of the unscoped buffers and put back at what the write-backs left; the generator
    register goes into the body's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (BV4 m) c).loose
  hwaits := Pipeline.hwaits_of_owed_zero _ _ _ _ L lv 2 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (BV4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (BV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (BV4 m c) (BV5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)),
    .region (reg2 m),
    .host (hseg hostOps3 hostOps3_sub hostOps3_fresh (B5 m)) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := fun c => StableHlo.held (c : Thread nD τ) (Pipeline.ucRefs τ sig) (B6 m c))
    (hch := ⟨fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      unfold StableHlo.held
      iintro ⟨Hh, HSI⟩
      imodintro
      iapply (pointsTo_read_all (Pipeline.ucRefs τ sig) (fun b => (((c : Thread nD τ)).1, b)) (B6 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (B6_main_arg0 m c),
     (h c _ (mem_uc main_arg1 (by decide))).trans (B6_main_arg1 m c),
     (h c _ (mem_uc main_arg2 (by decide))).trans (B6_main_arg2 m c)⟩) (run_all m ρ)

end Cert.Kernel.Hand

end
-- ==== Proof.LibBlockedSum.lean ====
/-
  Sums cut into consecutive blocks, over any additive commutative monoid (so also over the extended reals, where
  addition is associative and commutative although it is not cancellative).

  * `sum_blocks`: a sum over `Fin n` with `n = a * b` is the sum over the `a` blocks of the sums over the `b`
    positions inside a block; position `j` of block `s` is the index `b * s + j`.
  * `add_sum_pair`: a start value to which each block adds two terms, one after the other, is the start value
    plus the whole first sum plus the whole second sum.
-/
import Mathlib.Algebra.BigOperators.Fin
import Mathlib.Algebra.BigOperators.Group.Finset.Basic
import Mathlib.Logic.Equiv.Fin.Basic

open scoped BigOperators

namespace BlockedSum

variable {M : Type*} [AddCommMonoid M]

/-- A sum over `a * b` consecutive naturals, taken block by block: `a` blocks of `b` positions each, position `j` of
    block `s` being `b * s + j`. The summand is a function of the natural number, so no bound proof travels. -/
theorem sum_blocks (a b n : ℕ) (h : a * b = n) (g : ℕ → M) :
    ∑ s ∈ Finset.range a, ∑ j : Fin b, g (b * s + j.val) = ∑ k : Fin n, g k.val := by
  subst h
  rw [Finset.sum_range (fun s => ∑ j : Fin b, g (b * s + j.val))]
  rw [← Equiv.sum_comp finProdFinEquiv (fun k : Fin (a * b) => g k.val), Fintype.sum_prod_type]
  refine Finset.sum_congr rfl fun s _ => Finset.sum_congr rfl fun j _ => ?_
  show g (b * s.val + j.val) = g (j.val + b * s.val)
  rw [Nat.add_comm]

/-- Adding, block after block, first the block's `A` term and then its `B` term to a start value `z` gives `z` plus
    all the `A` terms plus all the `B` terms: only associativity and commutativity of the addition are used. -/
theorem add_sum_pair (z : M) (A B : ℕ → M) (a : ℕ) :
    z + ∑ s ∈ Finset.range a, (A s + B s) = (z + ∑ s ∈ Finset.range a, A s) + ∑ s ∈ Finset.range a, B s := by
  rw [Finset.sum_add_distrib, add_assoc]

end BlockedSum
-- ==== Proof.Math.lean ====
/-
  The arithmetic of one propagation round, on the extended reals, with natural-number coordinates.

  A round streams the adjacency matrix A ([8192, 16384]) in tiles of 512 rows by 2048 columns: the grid point
  (core c, row tile i, column tile j) sees rows 512·(8c+i) … and columns 2048·j … .
  * `T3 q j` is what the point at row tile q, column tile j adds to u_next's row tile: A's tile times i_k's tile.
  * `T4 q` is what the point at row tile q adds to its core's partial of i_next: the transposed product.
  After the point at position j of a row tile, the row-tile accumulator holds the `T3` terms of tiles 0 … j; after
  in-core position m, rows of column tile s of the core's partial hold the `T4` terms of the `cnt m s` row tiles
  i' with 8·i' + s ≤ m. Taken over all tiles these are the whole contractions (only associativity and commutativity of
  the addition are used, so they hold on the extended reals).
-/
import proofs.«153668_j35003983462547_2_alg».proof.Proof.LibBlockedSum
import Idealize.ShloMosaic.Lib.ValueIdx
import Idealize.ShloMosaic.PureOps.Ideal.Laws

noncomputable section

namespace Cert.LinkProp

open Idealize.ShloMosaic Idealize.ShloMosaic.ValueIdx

/-- A two-axis array read at natural-number coordinates (zero outside its extents). -/
def at2 {n0 n1 : ℕ} (X : (⟨2, ![n0, n1]⟩ : Shape).Idx → EReal) (r k : ℕ) : EReal :=
  if h : r < n0 ∧ k < n1 then X (ix2 ⟨r, h.1⟩ ⟨k, h.2⟩) else 0

theorem at2_eq {n0 n1 : ℕ} (X : (⟨2, ![n0, n1]⟩ : Shape).Idx → EReal) (r k : ℕ) (hr : r < n0) (hk : k < n1) :
    at2 X r k = X (ix2 ⟨r, hr⟩ ⟨k, hk⟩) := by
  unfold at2; rw [dif_pos ⟨hr, hk⟩]

theorem at2_idx {n0 n1 : ℕ} (X : (⟨2, ![n0, n1]⟩ : Shape).Idx → EReal) (y : (⟨2, ![n0, n1]⟩ : Shape).Idx) :
    at2 X (y 0).val (y 1).val = X y := by
  rw [at2_eq X _ _ (y 0).isLt (y 1).isLt]; exact congrArg X (eq_ix2 y).symm

variable (A : (⟨2, ![8192, 16384]⟩ : Shape).Idx → EReal) (IK : (⟨2, ![16384, 32]⟩ : Shape).Idx → EReal)
  (UK : (⟨2, ![8192, 32]⟩ : Shape).Idx → EReal)

/-- The product of A's tile (row tile q, column tile j) with i_k's column tile j, at (p, e). -/
def T3 (q j p e : ℕ) : EReal := ∑ k : Fin 2048, at2 A (512 * q + p) (2048 * j + k.val) * at2 IK (2048 * j + k.val) e

/-- The transposed product of A's row tile q with u_k's row tile q, at (column r, e). -/
def T4 (q r e : ℕ) : EReal := ∑ p : Fin 512, at2 A (512 * q + p.val) r * at2 UK (512 * q + p.val) e

/-- All eight column tiles of a row: the whole contraction over A's 16384 columns. -/
theorem T3_all (q p e : ℕ) :
    ∑ j ∈ Finset.range 8, T3 A IK q j p e = ∑ k : Fin 16384, at2 A (512 * q + p) k.val * at2 IK k.val e := by
  unfold T3
  exact BlockedSum.sum_blocks 8 2048 16384 rfl fun k => at2 A (512 * q + p) k * at2 IK k e

/-- Both cores' eight row tiles: the whole contraction over A's 8192 rows. -/
theorem T4_all (r e : ℕ) :
    ∑ i ∈ Finset.range 8, T4 A UK (8 * 0 + i) r e + ∑ i ∈ Finset.range 8, T4 A UK (8 * 1 + i) r e
      = ∑ k : Fin 8192, at2 A k.val r * at2 UK k.val e := by
  have h := BlockedSum.sum_blocks 16 512 8192 rfl fun k => at2 A k r * at2 UK k e
  rw [← h, show (16 : ℕ) = 8 + 8 from rfl, Finset.sum_range_add]
  unfold T4
  simp only [Nat.mul_zero, Nat.zero_add, Nat.mul_one]

/-- How many row tiles of a core have been added into column tile `s` once in-core position `m` is done. -/
def cnt (m s : ℕ) : ℕ := (m + 8 - s) / 8

theorem cnt_zero (s : ℕ) (hs : s < 8) : cnt 0 s = if s = 0 then 1 else 0 := by
  unfold cnt; split <;> omega
theorem cnt_succ (m s : ℕ) (hs : s < 8) (hm : m ≠ 0) : cnt m s = cnt (m - 1) s + (if s = m % 8 then 1 else 0) := by
  unfold cnt; split <;> omega
theorem cnt_pred_eq (m s : ℕ) (hs : s < 8) (hm : m ≠ 0) (h : s = m % 8) : cnt (m - 1) s = m / 8 := by
  unfold cnt; omega
theorem cnt_last (s : ℕ) (hs : s < 8) : cnt 63 s = 8 := by
  unfold cnt; omega

end Cert.LinkProp

end
-- ==== Proof.ValPay.lean ====
/-
  The kernels' arithmetic at an index, on the extended reals: a `tpu.matmul` into a zero accumulator is the plain sum
  of products over the contracted axis, a change of float format is the identity, so each payload is "what was
  there plus a tile product".
-/
import proofs.«153668_j35003983462547_2_alg».proof.Proof.Gen.KernelIdeal.Skeleton
import proofs.«153668_j35003983462547_2_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

theorem dA_lhs0 (i : S512x32.Idx) (q : dot_S512x2048_S2048x32_S512x32_1_0_0_1_n_n.contr.Idx) :
    (dot_S512x2048_S2048x32_S512x32_1_0_0_1_n_n.lhsIdx i q 0).val = (i 0).val := by
  unfold DotDims.lhsIdx
  rw [dif_neg (show ¬(0 : Fin S512x2048.rank) ∈ dot_S512x2048_S2048x32_S512x32_1_0_0_1_n_n.lhsBatch by decide), dif_pos (show (0 : Fin S512x2048.rank) ∈ dot_S512x2048_S2048x32_S512x32_1_0_0_1_n_n.lhsNonContracting by decide)]
  rfl
theorem dA_rhs1 (i : S512x32.Idx) (q : dot_S512x2048_S2048x32_S512x32_1_0_0_1_n_n.contr.Idx) :
    (dot_S512x2048_S2048x32_S512x32_1_0_0_1_n_n.rhsIdx i q 1).val = (i 1).val := by
  unfold DotDims.rhsIdx
  rw [dif_neg (show ¬(1 : Fin S2048x32.rank) ∈ dot_S512x2048_S2048x32_S512x32_1_0_0_1_n_n.rhsBatch by decide), dif_pos (show (1 : Fin S2048x32.rank) ∈ dot_S512x2048_S2048x32_S512x32_1_0_0_1_n_n.rhsNonContracting by decide)]
  rfl
theorem dB_lhs1 (i : S2048x32.Idx) (q : dot_S512x2048_S512x32_S2048x32_0_0_1_1_n_n.contr.Idx) :
    (dot_S512x2048_S512x32_S2048x32_0_0_1_1_n_n.lhsIdx i q 1).val = (i 0).val := by
  unfold DotDims.lhsIdx
  rw [dif_neg (show ¬(1 : Fin S512x2048.rank) ∈ dot_S512x2048_S512x32_S2048x32_0_0_1_1_n_n.lhsBatch by decide), dif_pos (show (1 : Fin S512x2048.rank) ∈ dot_S512x2048_S512x32_S2048x32_0_0_1_1_n_n.lhsNonContracting by decide)]
  rfl
theorem dB_rhs1 (i : S2048x32.Idx) (q : dot_S512x2048_S512x32_S2048x32_0_0_1_1_n_n.contr.Idx) :
    (dot_S512x2048_S512x32_S2048x32_0_0_1_1_n_n.rhsIdx i q 1).val = (i 1).val := by
  unfold DotDims.rhsIdx
  rw [dif_neg (show ¬(1 : Fin S512x32.rank) ∈ dot_S512x2048_S512x32_S2048x32_0_0_1_1_n_n.rhsBatch by decide), dif_pos (show (1 : Fin S512x32.rank) ∈ dot_S512x2048_S512x32_S2048x32_0_0_1_1_n_n.rhsNonContracting by decide)]
  rfl

/-- A [512,2048] tile times a [2048,32] tile (contracting the 2048 axis), into zero, at (p, e). -/
theorem mmA_apply {φ₁ φ₂ : FTy} (l : FVec Ideal S512x2048 φ₁) (r : FVec Ideal S2048x32 φ₂) (p : Fin 512) (e : Fin 32) :
    matmul dot_S512x2048_S2048x32_S512x32_1_0_0_1_n_n none l r (constant S512x32 .f32 0x00000000#32) (ix2 p e)
      = ∑ k : Fin 2048, l (ix2 p k) * r (ix2 k e) := by
  simp only [matmul]
  rw [Ideal.matmul_constant_zero_apply, ← Equiv.sum_comp (contrEquiv1 dot_S512x2048_S2048x32_S512x32_1_0_0_1_n_n 2048 rfl rfl).symm]
  refine Finset.sum_congr rfl fun k _ => ?_
  have hk := contrEquiv1_symm_val dot_S512x2048_S2048x32_S512x32_1_0_0_1_n_n 2048 rfl rfl k
  have el : dot_S512x2048_S2048x32_S512x32_1_0_0_1_n_n.lhsIdx (ix2 p e) ((contrEquiv1 dot_S512x2048_S2048x32_S512x32_1_0_0_1_n_n 2048 rfl rfl).symm k) = ix2 p k := funext fun a => Fin.ext (by
    match a with
    | ⟨0, _⟩ => exact dA_lhs0 _ _
    | ⟨1, _⟩ => exact (dot_S512x2048_S2048x32_S512x32_1_0_0_1_n_n.lhsIdx_val_of_single rfl _ _).trans hk)
  have er : dot_S512x2048_S2048x32_S512x32_1_0_0_1_n_n.rhsIdx (ix2 p e) ((contrEquiv1 dot_S512x2048_S2048x32_S512x32_1_0_0_1_n_n 2048 rfl rfl).symm k) = ix2 k e := funext fun a => Fin.ext (by
    match a with
    | ⟨0, _⟩ => exact (dot_S512x2048_S2048x32_S512x32_1_0_0_1_n_n.rhsIdx_val_of_single rfl _ _).trans hk
    | ⟨1, _⟩ => exact dA_rhs1 _ _)
  rw [el, er]

/-- The transposed product: a [512,2048] tile against a [512,32] tile (contracting the 512 axis), into zero, at (k, e). -/
theorem mmB_apply {φ₁ φ₂ : FTy} (l : FVec Ideal S512x2048 φ₁) (r : FVec Ideal S512x32 φ₂) (k : Fin 2048) (e : Fin 32) :
    matmul dot_S512x2048_S512x32_S2048x32_0_0_1_1_n_n none l r (constant S2048x32 .f32 0x00000000#32) (ix2 k e)
      = ∑ p : Fin 512, l (ix2 p k) * r (ix2 p e) := by
  simp only [matmul]
  rw [Ideal.matmul_constant_zero_apply, ← Equiv.sum_comp (contrEquiv1 dot_S512x2048_S512x32_S2048x32_0_0_1_1_n_n 512 rfl rfl).symm]
  refine Finset.sum_congr rfl fun p _ => ?_
  have hp := contrEquiv1_symm_val dot_S512x2048_S512x32_S2048x32_0_0_1_1_n_n 512 rfl rfl p
  have el : dot_S512x2048_S512x32_S2048x32_0_0_1_1_n_n.lhsIdx (ix2 k e) ((contrEquiv1 dot_S512x2048_S512x32_S2048x32_0_0_1_1_n_n 512 rfl rfl).symm p) = ix2 p k := funext fun a => Fin.ext (by
    match a with
    | ⟨0, _⟩ => exact (dot_S512x2048_S512x32_S2048x32_0_0_1_1_n_n.lhsIdx_val_of_single rfl _ _).trans hp
    | ⟨1, _⟩ => exact dB_lhs1 _ _)
  have er : dot_S512x2048_S512x32_S2048x32_0_0_1_1_n_n.rhsIdx (ix2 k e) ((contrEquiv1 dot_S512x2048_S512x32_S2048x32_0_0_1_1_n_n 512 rfl rfl).symm p) = ix2 p e := funext fun a => Fin.ext (by
    match a with
    | ⟨0, _⟩ => exact (dot_S512x2048_S512x32_S2048x32_0_0_1_1_n_n.rhsIdx_val_of_single rfl _ _).trans hp
    | ⟨1, _⟩ => exact dB_rhs1 _ _)
  rw [el, er]

/-- Round 0: the row-tile accumulator's new value at (p, e) is the old one plus the tile product. -/
theorem k0_pay4_apply (a : Vec Ideal S512x2048 .f32) (ik : Vec Ideal S2048x32 .f32) (acc : Vec Ideal S512x32 .f32) (p : Fin 512) (e : Fin 32) :
    k0_pay4 (F := Ideal) a ik acc (ix2 p e) = acc (ix2 p e) + ∑ k : Fin 2048, a (ix2 p k) * ik (ix2 k e) := by
  unfold k0_pay4 k0_pay3
  simp only [shapeCast_self]
  rw [addf_apply, mmA_apply]
  rfl

/-- Round 0: the i_next partial's slice at (0, r, e) is the old one plus the transposed tile product. -/
theorem k0_pay5_apply (a : Vec Ideal S512x2048 .f32) (uk : Vec Ideal S512x32 .f32) (acc : Vec Ideal S1x2048x32 .f32) (z : Fin 1) (r : Fin 2048) (e : Fin 32) :
    k0_pay5 (F := Ideal) a uk acc (ix3 z r e) = acc (ix3 z r e) + ∑ p : Fin 512, a (ix2 p r) * uk (ix2 p e) := by
  unfold k0_pay5 k0_pay3
  simp only [shapeCast_self]
  refine (shapeCast_addUnit_apply ![2048, 32] _ shapeCasts_S2048x32_S1x2048x32 (ix3 z r e)).trans ?_
  rw [show (fun a : Fin 2 => (ix3 z r e : S1x2048x32.Idx) a.succ) = (ix2 r e : S2048x32.Idx) from
    funext fun a => by match a with | ⟨0, _⟩ => rfl | ⟨1, _⟩ => rfl]
  rw [addf_apply, mmB_apply]
  refine congrArg (· + _) ?_
  refine (shapeCast_dropUnit_apply ![2048, 32] acc shapeCasts_S1x2048x32_S2048x32 (ix2 r e)).trans (congrArg acc ?_)
  funext a
  match a with
  | ⟨0, _⟩ => exact Fin.ext (by have := z.isLt; show (0 : ℕ) = z.val; omega)
  | ⟨1, _⟩ => rfl
  | ⟨2, _⟩ => rfl

/-- Round 1: the row-tile accumulator's new value at (p, e) is the old one plus the tile product. -/
theorem k1_pay4_apply (a : Vec Ideal S512x2048 .bf16) (ik : Vec Ideal S2048x32 .f32) (acc : Vec Ideal S512x32 .f32) (p : Fin 512) (e : Fin 32) :
    k1_pay4 (F := Ideal) a ik acc (ix2 p e) = acc (ix2 p e) + ∑ k : Fin 2048, a (ix2 p k) * ik (ix2 k e) := by
  unfold k1_pay4 k1_pay3
  simp only [shapeCast_self]
  rw [addf_apply, mmA_apply]
  rfl

/-- Round 1: the i_next partial's slice at (0, r, e) is the old one plus the transposed tile product. -/
theorem k1_pay5_apply (a : Vec Ideal S512x2048 .bf16) (uk : Vec Ideal S512x32 .f32) (acc : Vec Ideal S1x2048x32 .f32) (z : Fin 1) (r : Fin 2048) (e : Fin 32) :
    k1_pay5 (F := Ideal) a uk acc (ix3 z r e) = acc (ix3 z r e) + ∑ p : Fin 512, a (ix2 p r) * uk (ix2 p e) := by
  unfold k1_pay5 k1_pay3
  simp only [shapeCast_self]
  refine (shapeCast_addUnit_apply ![2048, 32] _ shapeCasts_S2048x32_S1x2048x32 (ix3 z r e)).trans ?_
  rw [show (fun a : Fin 2 => (ix3 z r e : S1x2048x32.Idx) a.succ) = (ix2 r e : S2048x32.Idx) from
    funext fun a => by match a with | ⟨0, _⟩ => rfl | ⟨1, _⟩ => rfl]
  rw [addf_apply, mmB_apply]
  refine congrArg (· + _) ?_
  refine (shapeCast_dropUnit_apply ![2048, 32] acc shapeCasts_S1x2048x32_S2048x32 (ix2 r e)).trans (congrArg acc ?_)
  funext a
  match a with
  | ⟨0, _⟩ => exact Fin.ext (by have := z.isLt; show (0 : ℕ) = z.val; omega)
  | ⟨1, _⟩ => rfl
  | ⟨2, _⟩ => rfl

/-- Round 2: the row-tile accumulator's new value at (p, e) is the old one plus the tile product. -/
theorem k2_pay4_apply (a : Vec Ideal S512x2048 .bf16) (ik : Vec Ideal S2048x32 .f32) (acc : Vec Ideal S512x32 .f32) (p : Fin 512) (e : Fin 32) :
    k2_pay4 (F := Ideal) a ik acc (ix2 p e) = acc (ix2 p e) + ∑ k : Fin 2048, a (ix2 p k) * ik (ix2 k e) := by
  unfold k2_pay4 k2_pay3
  simp only [shapeCast_self]
  rw [addf_apply, mmA_apply]
  rfl

/-- Round 2: the i_next partial's slice at (0, r, e) is the old one plus the transposed tile product. -/
theorem k2_pay5_apply (a : Vec Ideal S512x2048 .bf16) (uk : Vec Ideal S512x32 .f32) (acc : Vec Ideal S1x2048x32 .f32) (z : Fin 1) (r : Fin 2048) (e : Fin 32) :
    k2_pay5 (F := Ideal) a uk acc (ix3 z r e) = acc (ix3 z r e) + ∑ p : Fin 512, a (ix2 p r) * uk (ix2 p e) := by
  unfold k2_pay5 k2_pay3
  simp only [shapeCast_self]
  refine (shapeCast_addUnit_apply ![2048, 32] _ shapeCasts_S2048x32_S1x2048x32 (ix3 z r e)).trans ?_
  rw [show (fun a : Fin 2 => (ix3 z r e : S1x2048x32.Idx) a.succ) = (ix2 r e : S2048x32.Idx) from
    funext fun a => by match a with | ⟨0, _⟩ => rfl | ⟨1, _⟩ => rfl]
  rw [addf_apply, mmB_apply]
  refine congrArg (· + _) ?_
  refine (shapeCast_dropUnit_apply ![2048, 32] acc shapeCasts_S1x2048x32_S2048x32 (ix2 r e)).trans (congrArg acc ?_)
  funext a
  match a with
  | ⟨0, _⟩ => exact Fin.ext (by have := z.isLt; show (0 : ℕ) = z.val; omega)
  | ⟨1, _⟩ => rfl
  | ⟨2, _⟩ => rfl

end Cert.KernelIdeal.Hand

end
-- ==== Proof.ValOuts0.lean ====
/-
  Round 0: what each control case leaves in the outputs' buffers, at an index, on the extended reals. The row-tile
  accumulator ends at "what it held (zero after a reset) plus the tile product"; the core's partial of i_next ends, on
  the 2048 rows of the point's column tile, at "what it held (zero after a reset) plus the transposed tile product" and
  elsewhere at what it held; the bf16 copy of the adjacency tile is the tile (a change of float format is the identity).
-/
import proofs.«153668_j35003983462547_2_alg».proof.Proof.R0Data
import proofs.«153668_j35003983462547_2_alg».proof.Proof.ValPay
import Idealize.ShloMosaic.Lib.WritesUnit
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

open Idealize.ShloMosaic.Tactic
theorem hz2 : (![0, 0] : Fin 2 → ℕ) = fun _ => 0 := by funext a; fin_cases a <;> rfl
theorem hz3 : (![0, 0, 0] : Fin 3 → ℕ) = fun _ => 0 := by funext a; fin_cases a <;> rfl

/-- The zero fill of the i_next partial is zero everywhere. -/
theorem k0_pay2_apply (y : S1x16384x32.Idx) : k0_pay2 (F := Ideal) y = 0 := by
  unfold k0_pay2
  show Ideal.ofBits .f32 0x00000000#32 = 0
  exact Ideal.ofBits_zero_f32

/-- Case A, the row-tile accumulator: reset, then the tile product. -/
theorem out0_A_3_apply (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec Ideal S512x2048 .f32) (x1 : Vec Ideal S512x32 .f32) (x2 : Vec Ideal S2048x32 .f32) (p : Fin 512) (e : Fin 32) :
    out0_A_3 c i arg3 harg3 arg4 harg4 arg5 harg5 arg6 harg6 arg7 harg7 arg8 harg8 hc0 hc1 x0 x1 x2 (ix2 p e) = ∑ k : Fin 2048, x0 (ix2 p k) * x2 (ix2 k e) := by
  unfold out0_A_3 kernelRun0_A
  dsimp only
  sl_unfold_words
  refine (View.read_writes_cons_unit_of_mem VO0_3 VO0_3.junk inb_S512x32_S512x32_0_0 _ _ (ix2 p e) (ix2 p e : S512x32.Idx) rfl (fun a => by
    match a with
    | ⟨0, _⟩ => show p.val = 0 + p.val; omega
    | ⟨1, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k0_pay4_apply, View.readCov_unit_zero _ hz2]
  rw [show k0_pay1 (F := Ideal) (ix2 p e) = 0 from Ideal.ofBits_zero_f32, zero_add]

/-- Case B, the row-tile accumulator: reset, then the tile product. -/
theorem out0_B_3_apply (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec Ideal S512x2048 .f32) (x1 : Vec Ideal S512x32 .f32) (x2 : Vec Ideal S2048x32 .f32) (f4 : arg7.view.ty.Contents (Elt Ideal)) (p : Fin 512) (e : Fin 32) :
    out0_B_3 c i arg3 harg3 arg4 harg4 arg5 harg5 arg6 harg6 arg7 harg7 arg8 harg8 hc0 hc1 x0 x1 x2 f4 (ix2 p e) = ∑ k : Fin 2048, x0 (ix2 p k) * x2 (ix2 k e) := by
  unfold out0_B_3 kernelRun0_B
  dsimp only
  sl_unfold_words
  refine (View.read_writes_cons_unit_of_mem VO0_3 VO0_3.junk inb_S512x32_S512x32_0_0 _ _ (ix2 p e) (ix2 p e : S512x32.Idx) rfl (fun a => by
    match a with
    | ⟨0, _⟩ => show p.val = 0 + p.val; omega
    | ⟨1, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k0_pay4_apply, View.readCov_unit_zero _ hz2]
  rw [show k0_pay1 (F := Ideal) (ix2 p e) = 0 from Ideal.ofBits_zero_f32, zero_add]

/-- Case C, the row-tile accumulator: what it held plus the tile product. -/
theorem out0_C_3_apply (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec Ideal S512x2048 .f32) (x1 : Vec Ideal S512x32 .f32) (x2 : Vec Ideal S2048x32 .f32) (f3 : arg6.view.ty.Contents (Elt Ideal)) (f4 : arg7.view.ty.Contents (Elt Ideal)) (p : Fin 512) (e : Fin 32) :
    out0_C_3 c i arg3 harg3 arg4 harg4 arg5 harg5 arg6 harg6 arg7 harg7 arg8 harg8 hc0 hc1 x0 x1 x2 f3 f4 (ix2 p e)
      = arg6.view.read (Elt Ideal) f3 (ix2 p e) + ∑ k : Fin 2048, x0 (ix2 p k) * x2 (ix2 k e) := by
  unfold out0_C_3 kernelRun0_C
  dsimp only
  refine (View.read_writes_cons_unit_of_mem arg6.view f3 inb_S512x32_S512x32_0_0 _ [] (ix2 p e) (ix2 p e : S512x32.Idx) rfl (fun a => by
    match a with
    | ⟨0, _⟩ => show p.val = 0 + p.val; omega
    | ⟨1, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  exact k0_pay4_apply x0 x2 _ p e

/-- Case A, the i_next partial on the rows of the point's column tile: reset, then the transposed tile product. -/
theorem out0_A_4_in (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec Ideal S512x2048 .f32) (x1 : Vec Ideal S512x32 .f32) (x2 : Vec Ideal S2048x32 .f32)
    (o : ℕ) (hoff : k0_off1 i = ![0, o, 0]) (z : Fin 1) (r : Fin 16384) (e : Fin 32) (r' : Fin 2048) (hr : r.val = o + r'.val) :
    out0_A_4 c i arg3 harg3 arg4 harg4 arg5 harg5 arg6 harg6 arg7 harg7 arg8 harg8 hc0 hc1 x0 x1 x2 (ix3 z r e) = ∑ p : Fin 512, x0 (ix2 p r') * x1 (ix2 p e) := by
  unfold out0_A_4 kernelRun0_A
  dsimp only
  sl_unfold_words
  refine (View.read_writes_cons_unit_of_mem VO0_4 VO0_4.junk (k0_off1_inb i) _ _ (ix3 z r e) (ix3 z r' e : S1x2048x32.Idx) hoff (fun a => by
    match a with
    | ⟨0, _⟩ => show z.val = 0 + z.val; omega
    | ⟨1, _⟩ => show r.val = o + r'.val; exact hr
    | ⟨2, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k0_pay5_apply]
  refine (congrArg (· + _) ?_).trans (zero_add _)
  exact (View.read_writes_cons_unit_of_mem _ _ inb_S1x16384x32_S1x16384x32_0_0_0 _ [] _ _ rfl (fun a => by
      match a with
      | ⟨0, _⟩ => exact (Nat.zero_add _).symm
      | ⟨1, _⟩ => exact (Nat.zero_add _).symm
      | ⟨2, _⟩ => exact (Nat.zero_add _).symm)).trans (k0_pay2_apply _)

/-- Case A, the i_next partial off those rows: zero. -/
theorem out0_A_4_out (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec Ideal S512x2048 .f32) (x1 : Vec Ideal S512x32 .f32) (x2 : Vec Ideal S2048x32 .f32)
    (o : ℕ) (hoff : k0_off1 i = ![0, o, 0]) (z : Fin 1) (r : Fin 16384) (e : Fin 32) (hr : r.val < o ∨ o + 2048 ≤ r.val) :
    out0_A_4 c i arg3 harg3 arg4 harg4 arg5 harg5 arg6 harg6 arg7 harg7 arg8 harg8 hc0 hc1 x0 x1 x2 (ix3 z r e) = 0 := by
  unfold out0_A_4 kernelRun0_A
  dsimp only
  sl_unfold_words
  refine (View.read_writes_cons_unit_of_not_mem VO0_4 VO0_4.junk (k0_off1_inb i) _ _ (ix3 z r e) hoff 1 hr).trans ?_
  exact (View.read_writes_cons_unit_of_mem _ _ inb_S1x16384x32_S1x16384x32_0_0_0 _ [] _ _ rfl (fun a => by
      match a with
      | ⟨0, _⟩ => exact (Nat.zero_add _).symm
      | ⟨1, _⟩ => exact (Nat.zero_add _).symm
      | ⟨2, _⟩ => exact (Nat.zero_add _).symm)).trans (k0_pay2_apply _)

/-- Case B, the i_next partial on the rows of the point's column tile: what it held plus the transposed tile product. -/
theorem out0_B_4_in (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec Ideal S512x2048 .f32) (x1 : Vec Ideal S512x32 .f32) (x2 : Vec Ideal S2048x32 .f32) (f4 : arg7.view.ty.Contents (Elt Ideal))
    (o : ℕ) (hoff : k0_off1 i = ![0, o, 0]) (z : Fin 1) (r : Fin 16384) (e : Fin 32) (r' : Fin 2048) (hr : r.val = o + r'.val) :
    out0_B_4 c i arg3 harg3 arg4 harg4 arg5 harg5 arg6 harg6 arg7 harg7 arg8 harg8 hc0 hc1 x0 x1 x2 f4 (ix3 z r e)
      = arg7.view.read (Elt Ideal) f4 (ix3 z r e) + ∑ p : Fin 512, x0 (ix2 p r') * x1 (ix2 p e) := by
  unfold out0_B_4 kernelRun0_B
  dsimp only
  sl_unfold_words
  refine (View.read_writes_cons_unit_of_mem arg7.view f4 (k0_off1_inb i) _ [] (ix3 z r e) (ix3 z r' e : S1x2048x32.Idx) hoff (fun a => by
    match a with
    | ⟨0, _⟩ => show z.val = 0 + z.val; omega
    | ⟨1, _⟩ => show r.val = o + r'.val; exact hr
    | ⟨2, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k0_pay5_apply]
  refine congrArg (· + _) ?_
  show arg7.view.read (Elt Ideal) f4 ((Rect.unit (s := S1x16384x32) (k0_off1 i) S1x2048x32.size (k0_off1_inb i)).idx (ix3 z r' e)) = _
  refine congrArg (arg7.view.read (Elt Ideal) f4) ?_
  funext a
  apply Fin.ext
  show k0_off1 i a + 1 * ((ix3 z r' e : S1x2048x32.Idx) a).val = ((ix3 z r e : S1x16384x32.Idx) a).val
  rw [hoff]
  match a with
  | ⟨0, _⟩ => show 0 + 1 * z.val = z.val; omega
  | ⟨1, _⟩ => show o + 1 * r'.val = r.val; omega
  | ⟨2, _⟩ => show 0 + 1 * e.val = e.val; omega

/-- Case B, the i_next partial off those rows: what it held. -/
theorem out0_B_4_out (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec Ideal S512x2048 .f32) (x1 : Vec Ideal S512x32 .f32) (x2 : Vec Ideal S2048x32 .f32) (f4 : arg7.view.ty.Contents (Elt Ideal))
    (o : ℕ) (hoff : k0_off1 i = ![0, o, 0]) (z : Fin 1) (r : Fin 16384) (e : Fin 32) (hr : r.val < o ∨ o + 2048 ≤ r.val) :
    out0_B_4 c i arg3 harg3 arg4 harg4 arg5 harg5 arg6 harg6 arg7 harg7 arg8 harg8 hc0 hc1 x0 x1 x2 f4 (ix3 z r e) = arg7.view.read (Elt Ideal) f4 (ix3 z r e) := by
  unfold out0_B_4 kernelRun0_B
  dsimp only
  sl_unfold_words
  exact View.read_writes_cons_unit_of_not_mem arg7.view f4 (k0_off1_inb i) _ [] (ix3 z r e) hoff 1 hr

/-- Case C, the i_next partial on the rows of the point's column tile: what it held plus the transposed tile product. -/
theorem out0_C_4_in (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec Ideal S512x2048 .f32) (x1 : Vec Ideal S512x32 .f32) (x2 : Vec Ideal S2048x32 .f32) (f3 : arg6.view.ty.Contents (Elt Ideal)) (f4 : arg7.view.ty.Contents (Elt Ideal))
    (o : ℕ) (hoff : k0_off1 i = ![0, o, 0]) (z : Fin 1) (r : Fin 16384) (e : Fin 32) (r' : Fin 2048) (hr : r.val = o + r'.val) :
    out0_C_4 c i arg3 harg3 arg4 harg4 arg5 harg5 arg6 harg6 arg7 harg7 arg8 harg8 hc0 hc1 x0 x1 x2 f3 f4 (ix3 z r e)
      = arg7.view.read (Elt Ideal) f4 (ix3 z r e) + ∑ p : Fin 512, x0 (ix2 p r') * x1 (ix2 p e) := by
  unfold out0_C_4 kernelRun0_C
  dsimp only
  sl_unfold_words
  refine (View.read_writes_cons_unit_of_mem arg7.view f4 (k0_off1_inb i) _ [] (ix3 z r e) (ix3 z r' e : S1x2048x32.Idx) hoff (fun a => by
    match a with
    | ⟨0, _⟩ => show z.val = 0 + z.val; omega
    | ⟨1, _⟩ => show r.val = o + r'.val; exact hr
    | ⟨2, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k0_pay5_apply]
  refine congrArg (· + _) ?_
  show arg7.view.read (Elt Ideal) f4 ((Rect.unit (s := S1x16384x32) (k0_off1 i) S1x2048x32.size (k0_off1_inb i)).idx (ix3 z r' e)) = _
  refine congrArg (arg7.view.read (Elt Ideal) f4) ?_
  funext a
  apply Fin.ext
  show k0_off1 i a + 1 * ((ix3 z r' e : S1x2048x32.Idx) a).val = ((ix3 z r e : S1x16384x32.Idx) a).val
  rw [hoff]
  match a with
  | ⟨0, _⟩ => show 0 + 1 * z.val = z.val; omega
  | ⟨1, _⟩ => show o + 1 * r'.val = r.val; omega
  | ⟨2, _⟩ => show 0 + 1 * e.val = e.val; omega

/-- Case C, the i_next partial off those rows: what it held. -/
theorem out0_C_4_out (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec Ideal S512x2048 .f32) (x1 : Vec Ideal S512x32 .f32) (x2 : Vec Ideal S2048x32 .f32) (f3 : arg6.view.ty.Contents (Elt Ideal)) (f4 : arg7.view.ty.Contents (Elt Ideal))
    (o : ℕ) (hoff : k0_off1 i = ![0, o, 0]) (z : Fin 1) (r : Fin 16384) (e : Fin 32) (hr : r.val < o ∨ o + 2048 ≤ r.val) :
    out0_C_4 c i arg3 harg3 arg4 harg4 arg5 harg5 arg6 harg6 arg7 harg7 arg8 harg8 hc0 hc1 x0 x1 x2 f3 f4 (ix3 z r e) = arg7.view.read (Elt Ideal) f4 (ix3 z r e) := by
  unfold out0_C_4 kernelRun0_C
  dsimp only
  sl_unfold_words
  exact View.read_writes_cons_unit_of_not_mem arg7.view f4 (k0_off1_inb i) _ [] (ix3 z r e) hoff 1 hr

/-- Case A, the bf16 copy: the adjacency tile itself. -/
theorem out0_A_5_apply (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : condIJ0 i) (x0 : Vec Ideal S512x2048 .f32) (x1 : Vec Ideal S512x32 .f32) (x2 : Vec Ideal S2048x32 .f32) (p : Fin 512) (k : Fin 2048) :
    out0_A_5 c i arg3 harg3 arg4 harg4 arg5 harg5 arg6 harg6 arg7 harg7 arg8 harg8 hc0 hc1 x0 x1 x2 (ix2 p k) = x0 (ix2 p k) := by
  unfold out0_A_5 kernelRun0_A
  dsimp only
  sl_unfold_words
  refine (View.read_writes_cons_unit_of_mem VO0_5 VO0_5.junk inb_S512x2048_S512x2048_0_0 _ _ (ix2 p k) (ix2 p k : S512x2048.Idx) rfl (fun a => by
    match a with
    | ⟨0, _⟩ => show p.val = 0 + p.val; omega
    | ⟨1, _⟩ => show k.val = 0 + k.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rfl

/-- Case B, the bf16 copy: the adjacency tile itself. -/
theorem out0_B_5_apply (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : condJ0 i) (hc1 : ¬condIJ0 i) (x0 : Vec Ideal S512x2048 .f32) (x1 : Vec Ideal S512x32 .f32) (x2 : Vec Ideal S2048x32 .f32) (f4 : arg7.view.ty.Contents (Elt Ideal)) (p : Fin 512) (k : Fin 2048) :
    out0_B_5 c i arg3 harg3 arg4 harg4 arg5 harg5 arg6 harg6 arg7 harg7 arg8 harg8 hc0 hc1 x0 x1 x2 f4 (ix2 p k) = x0 (ix2 p k) := by
  unfold out0_B_5 kernelRun0_B
  dsimp only
  sl_unfold_words
  refine (View.read_writes_cons_unit_of_mem VO0_5 VO0_5.junk inb_S512x2048_S512x2048_0_0 _ _ (ix2 p k) (ix2 p k : S512x2048.Idx) rfl (fun a => by
    match a with
    | ⟨0, _⟩ => show p.val = 0 + p.val; omega
    | ⟨1, _⟩ => show k.val = 0 + k.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rfl

/-- Case C, the bf16 copy: the adjacency tile itself. -/
theorem out0_C_5_apply (c : Dev nD) (i : grid0.Coords)
    (arg3 : Memref sig .tc .vmem S512x2048 .f32) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (arg8 : Memref sig .tc .vmem S512x2048 .bf16) (harg8 : arg8.IsWhole) (hc0 : ¬condJ0 i) (hc1 : ¬condIJ0 i) (x0 : Vec Ideal S512x2048 .f32) (x1 : Vec Ideal S512x32 .f32) (x2 : Vec Ideal S2048x32 .f32) (f3 : arg6.view.ty.Contents (Elt Ideal)) (f4 : arg7.view.ty.Contents (Elt Ideal)) (p : Fin 512) (k : Fin 2048) :
    out0_C_5 c i arg3 harg3 arg4 harg4 arg5 harg5 arg6 harg6 arg7 harg7 arg8 harg8 hc0 hc1 x0 x1 x2 f3 f4 (ix2 p k) = x0 (ix2 p k) := by
  unfold out0_C_5 kernelRun0_C
  dsimp only
  sl_unfold_words
  refine (View.read_writes_cons_unit_of_mem VO0_5 VO0_5.junk inb_S512x2048_S512x2048_0_0 _ _ (ix2 p k) (ix2 p k : S512x2048.Idx) rfl (fun a => by
    match a with
    | ⟨0, _⟩ => show p.val = 0 + p.val; omega
    | ⟨1, _⟩ => show k.val = 0 + k.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rfl

end Cert.KernelIdeal.Hand

end
-- ==== Proof.ValBlocks0.lean ====
/-
  Round 0: the tiles the grid points see, at natural-number coordinates. Point t = 64·c + 8·i + j reads the adjacency's
  rows 512·(t/8) … and columns 2048·(t%8) …, u_k's rows 512·(t/8) …, i_k's rows 2048·(t%8) …; the body's slice of the
  i_next partial starts at row 2048·(t%8).
-/
import proofs.«153668_j35003983462547_2_alg».proof.Proof.R0Data
import proofs.«153668_j35003983462547_2_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

/-! The windows' block indices over the grid, decided. -/
theorem idx0_0_0 : ∀ t : Fin cfg0.N, win0_0.index t (0 : Fin 2) = t.val / 8 := (by decide +kernel : ∀ t : Fin grid0.N, win0_0.index t (0 : Fin 2) = t.val / 8)
theorem idx0_0_1 : ∀ t : Fin cfg0.N, win0_0.index t (1 : Fin 2) = t.val % 8 := (by decide +kernel : ∀ t : Fin grid0.N, win0_0.index t (1 : Fin 2) = t.val % 8)
theorem idx0_1_0 : ∀ t : Fin cfg0.N, win0_1.index t (0 : Fin 2) = t.val / 8 := (by decide +kernel : ∀ t : Fin grid0.N, win0_1.index t (0 : Fin 2) = t.val / 8)
theorem idx0_1_1 : ∀ t : Fin cfg0.N, win0_1.index t (1 : Fin 2) = 0 := (by decide +kernel : ∀ t : Fin grid0.N, win0_1.index t (1 : Fin 2) = 0)
theorem idx0_2_0 : ∀ t : Fin cfg0.N, win0_2.index t (0 : Fin 2) = t.val % 8 := (by decide +kernel : ∀ t : Fin grid0.N, win0_2.index t (0 : Fin 2) = t.val % 8)
theorem idx0_2_1 : ∀ t : Fin cfg0.N, win0_2.index t (1 : Fin 2) = 0 := (by decide +kernel : ∀ t : Fin grid0.N, win0_2.index t (1 : Fin 2) = 0)
theorem idx0_3_0 : ∀ t : Fin cfg0.N, win0_3.index t (0 : Fin 2) = t.val / 8 := (by decide +kernel : ∀ t : Fin grid0.N, win0_3.index t (0 : Fin 2) = t.val / 8)
theorem idx0_3_1 : ∀ t : Fin cfg0.N, win0_3.index t (1 : Fin 2) = 0 := (by decide +kernel : ∀ t : Fin grid0.N, win0_3.index t (1 : Fin 2) = 0)
theorem idx0_4_0 : ∀ t : Fin cfg0.N, win0_4.index t (0 : Fin 3) = t.val / 64 := (by decide +kernel : ∀ t : Fin grid0.N, win0_4.index t (0 : Fin 3) = t.val / 64)
theorem idx0_4_1 : ∀ t : Fin cfg0.N, win0_4.index t (1 : Fin 3) = 0 := (by decide +kernel : ∀ t : Fin grid0.N, win0_4.index t (1 : Fin 3) = 0)
theorem idx0_4_2 : ∀ t : Fin cfg0.N, win0_4.index t (2 : Fin 3) = 0 := (by decide +kernel : ∀ t : Fin grid0.N, win0_4.index t (2 : Fin 3) = 0)
theorem idx0_5_0 : ∀ t : Fin cfg0.N, win0_5.index t (0 : Fin 2) = t.val / 8 := (by decide +kernel : ∀ t : Fin grid0.N, win0_5.index t (0 : Fin 2) = t.val / 8)
theorem idx0_5_1 : ∀ t : Fin cfg0.N, win0_5.index t (1 : Fin 2) = t.val % 8 := (by decide +kernel : ∀ t : Fin grid0.N, win0_5.index t (1 : Fin 2) = t.val % 8)
/-- The body's slice of the i_next partial starts at row 2048·(t%8). -/
theorem koff0_0 : ∀ t : Fin cfg0.N, k0_off1 (grid0.coords t) (0 : Fin 3) = 0 := (by decide +kernel : ∀ t : Fin grid0.N, k0_off1 (grid0.coords t) (0 : Fin 3) = 0)
theorem koff0_1 : ∀ t : Fin cfg0.N, k0_off1 (grid0.coords t) (1 : Fin 3) = 2048 * (t.val % 8) := (by decide +kernel : ∀ t : Fin grid0.N, k0_off1 (grid0.coords t) (1 : Fin 3) = 2048 * (t.val % 8))
theorem koff0_2 : ∀ t : Fin cfg0.N, k0_off1 (grid0.coords t) (2 : Fin 3) = 0 := (by decide +kernel : ∀ t : Fin grid0.N, k0_off1 (grid0.coords t) (2 : Fin 3) = 0)

theorem koff0 (t : Fin cfg0.N) : k0_off1 (grid0.coords t) = ![0, 2048 * (t.val % 8), 0] := by
  funext a
  match a with
  | ⟨0, _⟩ => exact koff0_0 t
  | ⟨1, _⟩ => exact koff0_1 t
  | ⟨2, _⟩ => exact koff0_2 t

variable (V : (c : Dev nD) → (b : Ref sig .tc) → Buf (Elt Ideal) ((c : Thread nD τ).loc b))

/-- The adjacency tile at point t. -/
theorem iblk0_0_apply (c : Dev nD) (t : Fin cfg0.N) (p : Fin 512) (k : Fin 2048) :
    iblk0 V c 0 t (ix2 p k) = at2 (V c main_arg2) (512 * (t.val / 8) + p.val) (2048 * (t.val % 8) + k.val) := by
  have hN : t.val < 128 := lt_of_lt_of_eq t.isLt (show cfg0.N = 128 from N_0)
  rw [at2_eq _ _ _ (by omega) (by omega)]
  unfold iblk0
  show V c main_arg2 (((cfg0.win 0).blk t).view.emb (ix2 p k)) = _
  refine congrArg (V c main_arg2) ?_
  funext a
  apply Fin.ext
  match a with
  | ⟨0, _⟩ =>
    show win0_0.index t 0 * 512 + 1 * p.val = 512 * (t.val / 8) + p.val
    rw [idx0_0_0]; omega
  | ⟨1, _⟩ =>
    show win0_0.index t 1 * 2048 + 1 * k.val = 2048 * (t.val % 8) + k.val
    rw [idx0_0_1]; omega

/-- u_k's row tile at point t. -/
theorem iblk0_1_apply (c : Dev nD) (t : Fin cfg0.N) (p : Fin 512) (e : Fin 32) :
    iblk0 V c 1 t (ix2 p e) = at2 (V c main_arg0) (512 * (t.val / 8) + p.val) e.val := by
  have hN : t.val < 128 := lt_of_lt_of_eq t.isLt (show cfg0.N = 128 from N_0)
  rw [at2_eq _ _ _ (by omega) e.isLt]
  unfold iblk0
  show V c main_arg0 (((cfg0.win 1).blk t).view.emb (ix2 p e)) = _
  refine congrArg (V c main_arg0) ?_
  funext a
  apply Fin.ext
  match a with
  | ⟨0, _⟩ =>
    show win0_1.index t 0 * 512 + 1 * p.val = 512 * (t.val / 8) + p.val
    rw [idx0_1_0]; omega
  | ⟨1, _⟩ =>
    show win0_1.index t 1 * 32 + 1 * e.val = e.val
    rw [idx0_1_1]; omega

/-- i_k's column tile at point t. -/
theorem iblk0_2_apply (c : Dev nD) (t : Fin cfg0.N) (k : Fin 2048) (e : Fin 32) :
    iblk0 V c 2 t (ix2 k e) = at2 (V c main_arg1) (2048 * (t.val % 8) + k.val) e.val := by
  have hN : t.val < 128 := lt_of_lt_of_eq t.isLt (show cfg0.N = 128 from N_0)
  rw [at2_eq _ _ _ (by omega) e.isLt]
  unfold iblk0
  show V c main_arg1 (((cfg0.win 2).blk t).view.emb (ix2 k e)) = _
  refine congrArg (V c main_arg1) ?_
  funext a
  apply Fin.ext
  match a with
  | ⟨0, _⟩ =>
    show win0_2.index t 0 * 2048 + 1 * k.val = 2048 * (t.val % 8) + k.val
    rw [idx0_2_0]; omega
  | ⟨1, _⟩ =>
    show win0_2.index t 1 * 32 + 1 * e.val = e.val
    rw [idx0_2_1]; omega

end Cert.KernelIdeal.Hand

end
-- ==== Proof.ValSums.lean ====
/-
  A tile product as the round's term: if a [512,2048] vector is the adjacency's tile (row tile q, column tile j) and
  the other operand is the matching tile of i_k (or u_k), the sum of products the body computes is `T3` (or `T4`).
-/
import proofs.«153668_j35003983462547_2_alg».proof.Proof.Math
import Idealize.ShloMosaic.Lib.Pipeline.Value

noncomputable section

namespace Cert.LinkProp

open Idealize.ShloMosaic Idealize.ShloMosaic.ValueIdx

theorem sum3_eq {φ : FTy} (X0 : FVec Ideal ⟨2, ![512, 2048]⟩ φ) (X2 : FVec Ideal ⟨2, ![2048, 32]⟩ .f32)
    (A : (⟨2, ![8192, 16384]⟩ : Shape).Idx → EReal) (IK : (⟨2, ![16384, 32]⟩ : Shape).Idx → EReal) (q j : ℕ)
    (h0 : ∀ (p : Fin 512) (k : Fin 2048), X0 (ix2 p k) = at2 A (512 * q + p.val) (2048 * j + k.val))
    (h2 : ∀ (k : Fin 2048) (e : Fin 32), X2 (ix2 k e) = at2 IK (2048 * j + k.val) e.val) (p : Fin 512) (e : Fin 32) :
    ∑ k : Fin 2048, X0 (ix2 p k) * X2 (ix2 k e) = T3 A IK q j p.val e.val := by
  unfold T3
  exact Finset.sum_congr rfl fun k _ => by rw [h0, h2]

theorem sum4_eq {φ : FTy} (X0 : FVec Ideal ⟨2, ![512, 2048]⟩ φ) (X1 : FVec Ideal ⟨2, ![512, 32]⟩ .f32)
    (A : (⟨2, ![8192, 16384]⟩ : Shape).Idx → EReal) (UK : (⟨2, ![8192, 32]⟩ : Shape).Idx → EReal) (q r : ℕ)
    (r' : Fin 2048) (e : Fin 32)
    (h0 : ∀ p : Fin 512, X0 (ix2 p r') = at2 A (512 * q + p.val) r)
    (h1 : ∀ p : Fin 512, X1 (ix2 p e) = at2 UK (512 * q + p.val) e.val) :
    ∑ p : Fin 512, X0 (ix2 p r') * X1 (ix2 p e) = T4 A UK q r e.val := by
  unfold T4
  exact Finset.sum_congr rfl fun p _ => by rw [h0, h1]

end Cert.LinkProp

end
-- ==== Proof.ValAcc0.lean ====
/-
  Round 0: what the two accumulators hold after each grid point, in closed form, by induction on the point.
  After point t the row-tile accumulator holds the tile products of column tiles 0 … t%8 of row tile t/8; the core's
  partial of i_next holds, on the rows of column tile s, the transposed tile products of the first `cnt (t%64) s` row
  tiles of core t/64.
-/
import proofs.«153668_j35003983462547_2_alg».proof.Proof.ValOuts0
import proofs.«153668_j35003983462547_2_alg».proof.Proof.ValBlocks0
import proofs.«153668_j35003983462547_2_alg».proof.Proof.ValSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

variable (V : (c : Dev nD) → (b : Ref sig .tc) → Buf (Elt Ideal) ((c : Thread nD τ).loc b))

theorem prevAt0_pos (c : Dev nD) (t : ℕ) (h : t < cfg0.N) (h0 : t ≠ 0) :
    prevAt0 V c ⟨t, h⟩ = outsAt0 V c (t - 1) (Nat.lt_of_le_of_lt (Nat.sub_le _ _) h) := by
  unfold prevAt0; rw [dif_neg (show ¬(⟨t, h⟩ : Fin cfg0.N).val = 0 from h0)]

/-- The row-tile accumulator after point t. -/
theorem acc0_3 (c : Dev nD) : ∀ (t : ℕ) (h : t < cfg0.N) (p : Fin 512) (e : Fin 32),
    (outsAt0 V c t h).1 (ix2 p e) = ∑ j ∈ Finset.range (t % 8 + 1), T3 (V c main_arg2) (V c main_arg1) (t / 8) j p.val e.val := by
  intro t
  induction t using Nat.strong_induction_on with
  | _ t ih =>
    intro h p e
    by_cases h8 : t % 8 = 0
    · have hfin : T3 (V c main_arg2) (V c main_arg1) (t / 8) (t % 8) p.val e.val
          = ∑ j ∈ Finset.range (t % 8 + 1), T3 (V c main_arg2) (V c main_arg1) (t / 8) j p.val e.val := by
        rw [h8, Finset.sum_range_one]
      by_cases h64 : t % 64 = 0
      · have e1 := outsAt0_A V c ⟨t, h⟩ h64
        change outsAt0 V c t h = _ at e1
        rw [e1]; dsimp only
        rw [out0_A_3_apply c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) ((hcondJ0 ⟨t, h⟩).mpr (by show t % 8 = 0; omega)) ((hcondIJ0 ⟨t, h⟩).mpr h64) (iblk0 V c 0 ⟨t, h⟩) (iblk0 V c 1 ⟨t, h⟩) (iblk0 V c 2 ⟨t, h⟩) p e, sum3_eq (φ := .f32) (iblk0 V c 0 ⟨t, h⟩) (iblk0 V c 2 ⟨t, h⟩) (V c main_arg2) (V c main_arg1) (t / 8) (t % 8) (fun p k => iblk0_0_apply V c ⟨t, h⟩ p k) (fun k e => iblk0_2_apply V c ⟨t, h⟩ k e) p e]
        exact hfin
      · have e1 := outsAt0_B V c ⟨t, h⟩ h64 h8
        change outsAt0 V c t h = _ at e1
        rw [e1]; dsimp only
        rw [out0_B_3_apply c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) ((hcondJ0 ⟨t, h⟩).mpr h8) (fun hh => h64 ((hcondIJ0 ⟨t, h⟩).mp hh)) (iblk0 V c 0 ⟨t, h⟩) (iblk0 V c 1 ⟨t, h⟩) (iblk0 V c 2 ⟨t, h⟩) ((hs0_4 ⟨t, h⟩).unread (prevAt0 V c ⟨t, h⟩).2.1) p e, sum3_eq (φ := .f32) (iblk0 V c 0 ⟨t, h⟩) (iblk0 V c 2 ⟨t, h⟩) (V c main_arg2) (V c main_arg1) (t / 8) (t % 8) (fun p k => iblk0_0_apply V c ⟨t, h⟩ p k) (fun k e => iblk0_2_apply V c ⟨t, h⟩ k e) p e]
        exact hfin
    · have h64 : ¬t % 64 = 0 := fun hh => h8 (by omega)
      have h0 : t ≠ 0 := fun hh => h8 (by rw [hh])
      have e1 := outsAt0_C V c ⟨t, h⟩ h64 h8
      change outsAt0 V c t h = _ at e1
      rw [e1]; dsimp only
      rw [out0_C_3_apply c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) (fun hh => h8 ((hcondJ0 ⟨t, h⟩).mp hh)) (fun hh => h64 ((hcondIJ0 ⟨t, h⟩).mp hh)) (iblk0 V c 0 ⟨t, h⟩) (iblk0 V c 1 ⟨t, h⟩) (iblk0 V c 2 ⟨t, h⟩) ((hs0_3 ⟨t, h⟩).unread (prevAt0 V c ⟨t, h⟩).1) ((hs0_4 ⟨t, h⟩).unread (prevAt0 V c ⟨t, h⟩).2.1) p e, sum3_eq (φ := .f32) (iblk0 V c 0 ⟨t, h⟩) (iblk0 V c 2 ⟨t, h⟩) (V c main_arg2) (V c main_arg1) (t / 8) (t % 8) (fun p k => iblk0_0_apply V c ⟨t, h⟩ p k) (fun k e => iblk0_2_apply V c ⟨t, h⟩ k e) p e]
      rw [(hs0_3 ⟨t, h⟩).read_unread, prevAt0_pos V c t h h0, ih (t - 1) (by omega) _ p e]
      rw [show (t - 1) % 8 + 1 = t % 8 from by omega, show (t - 1) / 8 = t / 8 from by omega, Finset.sum_range_succ]

/-- The core's partial of i_next after point t. -/
theorem acc0_4 (c : Dev nD) : ∀ (t : ℕ) (h : t < cfg0.N) (z : Fin 1) (r : Fin 16384) (e : Fin 32),
    (outsAt0 V c t h).2.1 (ix3 z r e)
      = ∑ i' ∈ Finset.range (cnt (t % 64) (r.val / 2048)), T4 (V c main_arg2) (V c main_arg0) (8 * (t / 64) + i') r.val e.val := by
  intro t
  induction t using Nat.strong_induction_on with
  | _ t ih =>
    intro h z r e
    have hN : t < 128 := lt_of_lt_of_eq h (show cfg0.N = 128 from N_0)
    have hs : r.val / 2048 < 8 := by have := r.isLt; omega
    by_cases h64 : t % 64 = 0
    · have e1 := outsAt0_A V c ⟨t, h⟩ h64
      change outsAt0 V c t h = _ at e1
      rw [e1]; dsimp only
      have hc0 : cnt (t % 64) (r.val / 2048) = if r.val / 2048 = 0 then 1 else 0 := by rw [h64]; exact cnt_zero _ hs
      rw [hc0]
      by_cases hin : r.val / 2048 = t % 8
      · have hr : r.val = 2048 * (t % 8) + (r.val - 2048 * (t % 8)) := by omega
        rw [out0_A_4_in c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) ((hcondJ0 ⟨t, h⟩).mpr (by show t % 8 = 0; omega)) ((hcondIJ0 ⟨t, h⟩).mpr h64) (iblk0 V c 0 ⟨t, h⟩) (iblk0 V c 1 ⟨t, h⟩) (iblk0 V c 2 ⟨t, h⟩) (2048 * (t % 8)) (koff0 ⟨t, h⟩) z r e ⟨r.val - 2048 * (t % 8), by omega⟩ hr]
        rw [sum4_eq (φ := .f32) (iblk0 V c 0 ⟨t, h⟩) (iblk0 V c 1 ⟨t, h⟩) (V c main_arg2) (V c main_arg0) (t / 8) r.val ⟨r.val - 2048 * (t % 8), by omega⟩ e (fun p => by rw [iblk0_0_apply V c ⟨t, h⟩ p ⟨r.val - 2048 * (t % 8), by omega⟩]; show at2 _ _ (2048 * (t % 8) + (r.val - 2048 * (t % 8))) = _; rw [← hr]) (fun p => iblk0_1_apply V c ⟨t, h⟩ p e)]
        rw [if_pos (by omega), Finset.sum_range_one]
        rw [show t / 8 = 8 * (t / 64) + 0 from by omega]
      · rw [out0_A_4_out c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) ((hcondJ0 ⟨t, h⟩).mpr (by show t % 8 = 0; omega)) ((hcondIJ0 ⟨t, h⟩).mpr h64) (iblk0 V c 0 ⟨t, h⟩) (iblk0 V c 1 ⟨t, h⟩) (iblk0 V c 2 ⟨t, h⟩) (2048 * (t % 8)) (koff0 ⟨t, h⟩) z r e (by omega)]
        rw [if_neg (by omega), Finset.sum_range_zero]
    · have h0 : t ≠ 0 := fun hh => h64 (by rw [hh])
      have hm : t % 64 ≠ 0 := h64
      have hprev : (prevAt0 V c ⟨t, h⟩).2.1 (ix3 z r e)
          = ∑ i' ∈ Finset.range (cnt (t % 64 - 1) (r.val / 2048)), T4 (V c main_arg2) (V c main_arg0) (8 * (t / 64) + i') r.val e.val := by
        rw [prevAt0_pos V c t h h0, ih (t - 1) (by omega) _ z r e]
        rw [show (t - 1) % 64 = t % 64 - 1 from by omega, show (t - 1) / 64 = t / 64 from by omega]
      rw [cnt_succ _ _ hs hm]
      by_cases h8 : t % 8 = 0
      · have e1 := outsAt0_B V c ⟨t, h⟩ h64 h8
        change outsAt0 V c t h = _ at e1
        rw [e1]; dsimp only
        by_cases hin : r.val / 2048 = t % 8
        · have hr : r.val = 2048 * (t % 8) + (r.val - 2048 * (t % 8)) := by omega
          rw [out0_B_4_in c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) ((hcondJ0 ⟨t, h⟩).mpr h8) (fun hh => h64 ((hcondIJ0 ⟨t, h⟩).mp hh)) (iblk0 V c 0 ⟨t, h⟩) (iblk0 V c 1 ⟨t, h⟩) (iblk0 V c 2 ⟨t, h⟩) ((hs0_4 ⟨t, h⟩).unread (prevAt0 V c ⟨t, h⟩).2.1) (2048 * (t % 8)) (koff0 ⟨t, h⟩) z r e ⟨r.val - 2048 * (t % 8), by omega⟩ hr]
          rw [sum4_eq (φ := .f32) (iblk0 V c 0 ⟨t, h⟩) (iblk0 V c 1 ⟨t, h⟩) (V c main_arg2) (V c main_arg0) (t / 8) r.val ⟨r.val - 2048 * (t % 8), by omega⟩ e (fun p => by rw [iblk0_0_apply V c ⟨t, h⟩ p ⟨r.val - 2048 * (t % 8), by omega⟩]; show at2 _ _ (2048 * (t % 8) + (r.val - 2048 * (t % 8))) = _; rw [← hr]) (fun p => iblk0_1_apply V c ⟨t, h⟩ p e)]
          rw [(hs0_4 ⟨t, h⟩).read_unread, hprev, if_pos (by omega), Finset.sum_range_succ]
          rw [cnt_pred_eq _ _ hs hm (by omega), show t / 8 = 8 * (t / 64) + t % 64 / 8 from by omega]
        · rw [out0_B_4_out c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) ((hcondJ0 ⟨t, h⟩).mpr h8) (fun hh => h64 ((hcondIJ0 ⟨t, h⟩).mp hh)) (iblk0 V c 0 ⟨t, h⟩) (iblk0 V c 1 ⟨t, h⟩) (iblk0 V c 2 ⟨t, h⟩) ((hs0_4 ⟨t, h⟩).unread (prevAt0 V c ⟨t, h⟩).2.1) (2048 * (t % 8)) (koff0 ⟨t, h⟩) z r e (by omega)]
          rw [(hs0_4 ⟨t, h⟩).read_unread, hprev, if_neg (by omega), Nat.add_zero]
      · have e1 := outsAt0_C V c ⟨t, h⟩ h64 h8
        change outsAt0 V c t h = _ at e1
        rw [e1]; dsimp only
        by_cases hin : r.val / 2048 = t % 8
        · have hr : r.val = 2048 * (t % 8) + (r.val - 2048 * (t % 8)) := by omega
          rw [out0_C_4_in c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) (fun hh => h8 ((hcondJ0 ⟨t, h⟩).mp hh)) (fun hh => h64 ((hcondIJ0 ⟨t, h⟩).mp hh)) (iblk0 V c 0 ⟨t, h⟩) (iblk0 V c 1 ⟨t, h⟩) (iblk0 V c 2 ⟨t, h⟩) ((hs0_3 ⟨t, h⟩).unread (prevAt0 V c ⟨t, h⟩).1) ((hs0_4 ⟨t, h⟩).unread (prevAt0 V c ⟨t, h⟩).2.1) (2048 * (t % 8)) (koff0 ⟨t, h⟩) z r e ⟨r.val - 2048 * (t % 8), by omega⟩ hr]
          rw [sum4_eq (φ := .f32) (iblk0 V c 0 ⟨t, h⟩) (iblk0 V c 1 ⟨t, h⟩) (V c main_arg2) (V c main_arg0) (t / 8) r.val ⟨r.val - 2048 * (t % 8), by omega⟩ e (fun p => by rw [iblk0_0_apply V c ⟨t, h⟩ p ⟨r.val - 2048 * (t % 8), by omega⟩]; show at2 _ _ (2048 * (t % 8) + (r.val - 2048 * (t % 8))) = _; rw [← hr]) (fun p => iblk0_1_apply V c ⟨t, h⟩ p e)]
          rw [(hs0_4 ⟨t, h⟩).read_unread, hprev, if_pos (by omega), Finset.sum_range_succ]
          rw [cnt_pred_eq _ _ hs hm (by omega), show t / 8 = 8 * (t / 64) + t % 64 / 8 from by omega]
        · rw [out0_C_4_out c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) (fun hh => h8 ((hcondJ0 ⟨t, h⟩).mp hh)) (fun hh => h64 ((hcondIJ0 ⟨t, h⟩).mp hh)) (iblk0 V c 0 ⟨t, h⟩) (iblk0 V c 1 ⟨t, h⟩) (iblk0 V c 2 ⟨t, h⟩) ((hs0_3 ⟨t, h⟩).unread (prevAt0 V c ⟨t, h⟩).1) ((hs0_4 ⟨t, h⟩).unread (prevAt0 V c ⟨t, h⟩).2.1) (2048 * (t % 8)) (koff0 ⟨t, h⟩) z r e (by omega)]
          rw [(hs0_4 ⟨t, h⟩).read_unread, hprev, if_neg (by omega), Nat.add_zero]

/-- The bf16 copy after point t: the adjacency tile. -/
theorem acc0_5 (c : Dev nD) (t : ℕ) (h : t < cfg0.N) (p : Fin 512) (k : Fin 2048) :
    (outsAt0 V c t h).2.2 (ix2 p k) = at2 (V c main_arg2) (512 * (t / 8) + p.val) (2048 * (t % 8) + k.val) := by
  rw [← iblk0_0_apply V c ⟨t, h⟩ p k]
  by_cases h64 : t % 64 = 0
  · have e1 := outsAt0_A V c ⟨t, h⟩ h64
    change outsAt0 V c t h = _ at e1
    rw [e1]; dsimp only
    exact out0_A_5_apply c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) ((hcondJ0 ⟨t, h⟩).mpr (by show t % 8 = 0; omega)) ((hcondIJ0 ⟨t, h⟩).mpr h64) (iblk0 V c 0 ⟨t, h⟩) (iblk0 V c 1 ⟨t, h⟩) (iblk0 V c 2 ⟨t, h⟩) p k
  · by_cases h8 : t % 8 = 0
    · have e1 := outsAt0_B V c ⟨t, h⟩ h64 h8
      change outsAt0 V c t h = _ at e1
      rw [e1]; dsimp only
      exact out0_B_5_apply c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) ((hcondJ0 ⟨t, h⟩).mpr h8) (fun hh => h64 ((hcondIJ0 ⟨t, h⟩).mp hh)) (iblk0 V c 0 ⟨t, h⟩) (iblk0 V c 1 ⟨t, h⟩) (iblk0 V c 2 ⟨t, h⟩) ((hs0_4 ⟨t, h⟩).unread (prevAt0 V c ⟨t, h⟩).2.1) p k
    · have e1 := outsAt0_C V c ⟨t, h⟩ h64 h8
      change outsAt0 V c t h = _ at e1
      rw [e1]; dsimp only
      exact out0_C_5_apply c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩) (ms0_3 ⟨t, h⟩) (hs0_3 ⟨t, h⟩) (ms0_4 ⟨t, h⟩) (hs0_4 ⟨t, h⟩) (ms0_5 ⟨t, h⟩) (hs0_5 ⟨t, h⟩) (fun hh => h8 ((hcondJ0 ⟨t, h⟩).mp hh)) (fun hh => h64 ((hcondIJ0 ⟨t, h⟩).mp hh)) (iblk0 V c 0 ⟨t, h⟩) (iblk0 V c 1 ⟨t, h⟩) (iblk0 V c 2 ⟨t, h⟩) ((hs0_3 ⟨t, h⟩).unread (prevAt0 V c ⟨t, h⟩).1) ((hs0_4 ⟨t, h⟩).unread (prevAt0 V c ⟨t, h⟩).2.1) p k

end Cert.KernelIdeal.Hand

end
-- ==== Proof.Spec.lean ====
/-
  The two contractions of a propagation round, on the extended reals, over whole arrays:
  `Amul A IK` is A·i_k ([8192,16384]·[16384,32]) and `ATmul A UK` is Aᵀ·u_k ([16384,8192]·[8192,32]).
-/
import proofs.«153668_j35003983462547_2_alg».proof.Proof.Math

noncomputable section

namespace Cert.LinkProp

open Idealize.ShloMosaic Idealize.ShloMosaic.ValueIdx

/-- A·i_k at (r, e): the sum over A's 16384 columns. -/
def Amul (A : (⟨2, ![8192, 16384]⟩ : Shape).Idx → EReal) (IK : (⟨2, ![16384, 32]⟩ : Shape).Idx → EReal) :
    (⟨2, ![8192, 32]⟩ : Shape).Idx → EReal :=
  fun i => ∑ k : Fin 16384, at2 A (i 0).val k.val * at2 IK k.val (i 1).val

/-- Aᵀ·u_k at (k, e): the sum over A's 8192 rows. -/
def ATmul (A : (⟨2, ![8192, 16384]⟩ : Shape).Idx → EReal) (UK : (⟨2, ![8192, 32]⟩ : Shape).Idx → EReal) :
    (⟨2, ![16384, 32]⟩ : Shape).Idx → EReal :=
  fun i => ∑ k : Fin 8192, at2 A k.val (i 0).val * at2 UK k.val (i 1).val

/-- Reading at natural coordinates sees only the function's values. -/
theorem at2_congr {n0 n1 : ℕ} {X Y : (⟨2, ![n0, n1]⟩ : Shape).Idx → EReal} (h : ∀ i, X i = Y i) (r k : ℕ) : at2 X r k = at2 Y r k := by
  unfold at2; split
  · exact h _
  · rfl

theorem Amul_congr {A A' : (⟨2, ![8192, 16384]⟩ : Shape).Idx → EReal} {IK IK' : (⟨2, ![16384, 32]⟩ : Shape).Idx → EReal}
    (hA : ∀ i, A i = A' i) (hI : ∀ i, IK i = IK' i) : Amul A IK = Amul A' IK' := by
  funext i; unfold Amul
  exact Finset.sum_congr rfl fun k _ => by rw [at2_congr hA, at2_congr hI]

theorem ATmul_congr {A A' : (⟨2, ![8192, 16384]⟩ : Shape).Idx → EReal} {UK UK' : (⟨2, ![8192, 32]⟩ : Shape).Idx → EReal}
    (hA : ∀ i, A i = A' i) (hU : ∀ i, UK i = UK' i) : ATmul A UK = ATmul A' UK' := by
  funext i; unfold ATmul
  exact Finset.sum_congr rfl fun k _ => by rw [at2_congr hA, at2_congr hU]

end Cert.LinkProp

end
-- ==== Proof.ValArr0.lean ====
/-
  Round 0: the output arrays after the region. Each write-back of the row-tile accumulator (after the last column tile)
  carries the whole row of products, so u_next ends as `Amul A i_k`; each core's write-back of its partial (after its last
  point) carries its eight row tiles' transposed products, so the two partials are the two halves of `ATmul A u_k`; the bf16 copy of the adjacency is the adjacency.
  Every index of an output array lies in the block of some point that writes back.
-/
import proofs.«153668_j35003983462547_2_alg».proof.Proof.ValAcc0
import proofs.«153668_j35003983462547_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

variable (V : (c : Dev nD) → (b : Ref sig .tc) → Buf (Elt Ideal) ((c : Thread nD τ).loc b))

/-- One core's partial of i_next: the transposed products of the core's eight row tiles. -/
def Part (A : (⟨2, ![8192, 16384]⟩ : Shape).Idx → EReal) (UK : (⟨2, ![8192, 32]⟩ : Shape).Idx → EReal) :
    (⟨3, ![2, 16384, 32]⟩ : Shape).Idx → EReal :=
  fun i => ∑ i' ∈ Finset.range 8, T4 A UK (8 * (i 0).val + i') (i 1).val (i 2).val

/-! ## u_next -/

theorem flushed0_3_eq (c : Dev nD) (t : Fin cfg0.N) (hf : (cfg0.win 3).flush t = true) :
    (dat0 V c).flushed 3 t = ((cfg0.win 3).blk t).view.read (Elt Ideal) (Amul (V c main_arg2) (V c main_arg1)) := by
  have h7 : t.val % 8 = 7 := (flush0_3 t).mp hf
  show (cfg0.win 3).cut (grid0.coords t) ((dat0 V c).after 3 t) = _
  rw [after0_3]
  funext j
  obtain ⟨p, e, rfl⟩ : ∃ (p : Fin 512) (e : Fin 32), j = ix2 p e := ⟨j 0, j 1, eq_ix2 j⟩
  have keyL : ∀ (Y : Vec Ideal S512x32 .f32), (cfg0.win 3).cut (grid0.coords t) Y (ix2 p e) = Y (ix2 p e) := fun _ => rfl
  have keyR : ∀ (G : (⟨S8192x32, .f32⟩ : BufTy).Contents (Elt Ideal)), ((cfg0.win 3).blk t).view.read (Elt Ideal) G (ix2 p e) = G (((cfg0.win 3).blk t).view.emb (ix2 p e)) := fun _ => rfl
  rw [keyL, keyR, acc0_3 V c t.val t.isLt p e, h7, T3_all]
  unfold Amul
  have h0 : ((((cfg0.win 3).blk t).view.emb (ix2 p e)) 0).val = 512 * (t.val / 8) + p.val := by
    show win0_3.index t 0 * 512 + 1 * p.val = _
    rw [idx0_3_0]; omega
  have h1 : ((((cfg0.win 3).blk t).view.emb (ix2 p e)) 1).val = e.val := by
    show win0_3.index t 1 * 32 + 1 * e.val = _
    rw [idx0_3_1]; omega
  rw [h0, h1]

theorem cover0_3 (i : S8192x32.Idx) : ∃ t : Fin cfg0.N, (cfg0.win 3).flush t = true ∧ i ∈ ((cfg0.win 3).blk t).view.set := by
  have hi0 : (i 0).val < 8192 := (i 0).isLt
  have hi1 : (i 1).val < 32 := (i 1).isLt
  obtain ⟨t, ht⟩ : ∃ t : Fin cfg0.N, t.val = 8 * ((i 0).val / 512) + 7 := ⟨⟨8 * ((i 0).val / 512) + 7, by rw [show cfg0.N = 128 from N_0]; omega⟩, rfl⟩
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [idx0_3_0]; omega
  | ⟨1, _⟩ =>
    show win0_3.index t (1 : Fin 2) * 32 ≤ (i 1).val ∧ (i 1).val < win0_3.index t (1 : Fin 2) * 32 + 32
    rw [idx0_3_1]; omega

/-- u_next after the region. -/
theorem final0_3 (c : Dev nD) : (dat0 V c).arrAt 3 cfg0.N = Amul (V c main_arg2) (V c main_arg1) :=
  (dat0 V c).arrAt_eq_of_cover 3 (Amul (V c main_arg2) (V c main_arg1)) (fun t hf => flushed0_3_eq V c t hf) (cover0_3)

/-! ## the two cores' partials of i_next -/

theorem flushed0_4_eq (c : Dev nD) (t : Fin cfg0.N) (hf : (cfg0.win 4).flush t = true) :
    (dat0 V c).flushed 4 t = ((cfg0.win 4).blk t).view.read (Elt Ideal) (Part (V c main_arg2) (V c main_arg0)) := by
  have h63 : t.val % 64 = 63 := (flush0_4 t).mp hf
  show (cfg0.win 4).cut (grid0.coords t) ((dat0 V c).after 4 t) = _
  rw [after0_4]
  funext j
  obtain ⟨z, r, e, rfl⟩ : ∃ (z : Fin 1) (r : Fin 16384) (e : Fin 32), j = ix3 z r e := ⟨j 0, j 1, j 2, eq_ix3 j⟩
  have keyL : ∀ (Y : Vec Ideal S1x16384x32 .f32), (cfg0.win 4).cut (grid0.coords t) Y (ix3 z r e) = Y (ix3 z r e) := fun _ => rfl
  have keyR : ∀ (G : (⟨S2x16384x32, .f32⟩ : BufTy).Contents (Elt Ideal)), ((cfg0.win 4).blk t).view.read (Elt Ideal) G (ix3 z r e) = G (((cfg0.win 4).blk t).view.emb (ix3 z r e)) := fun _ => rfl
  have hs : r.val / 2048 < 8 := by have := r.isLt; omega
  rw [keyL, keyR, acc0_4 V c t.val t.isLt z r e, h63, cnt_last _ hs]
  unfold Part
  have hz : z.val = 0 := by have := z.isLt; omega
  have h0 : ((((cfg0.win 4).blk t).view.emb (ix3 z r e)) 0).val = t.val / 64 := by
    show win0_4.index t 0 * 1 + 1 * z.val = _
    rw [idx0_4_0]; omega
  have h1 : ((((cfg0.win 4).blk t).view.emb (ix3 z r e)) 1).val = r.val := by
    show win0_4.index t 1 * 16384 + 1 * r.val = _
    rw [idx0_4_1]; omega
  have h2 : ((((cfg0.win 4).blk t).view.emb (ix3 z r e)) 2).val = e.val := by
    show win0_4.index t 2 * 32 + 1 * e.val = _
    rw [idx0_4_2]; omega
  rw [h0, h1, h2]

theorem cover0_4 (i : S2x16384x32.Idx) : ∃ t : Fin cfg0.N, (cfg0.win 4).flush t = true ∧ i ∈ ((cfg0.win 4).blk t).view.set := by
  have hi0 : (i 0).val < 2 := (i 0).isLt
  have hi1 : (i 1).val < 16384 := (i 1).isLt
  have hi2 : (i 2).val < 32 := (i 2).isLt
  obtain ⟨t, ht⟩ : ∃ t : Fin cfg0.N, t.val = 64 * (i 0).val + 63 := ⟨⟨64 * (i 0).val + 63, by rw [show cfg0.N = 128 from N_0]; omega⟩, rfl⟩
  refine ⟨t, (flush0_4 t).mpr (by omega), ?_⟩
  show i ∈ ((View.whole main_v0_1).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [idx0_4_0]; omega
  | ⟨1, _⟩ =>
    show win0_4.index t (1 : Fin 3) * 16384 ≤ (i 1).val ∧ (i 1).val < win0_4.index t (1 : Fin 3) * 16384 + 16384
    rw [idx0_4_1]; omega
  | ⟨2, _⟩ =>
    show win0_4.index t (2 : Fin 3) * 32 ≤ (i 2).val ∧ (i 2).val < win0_4.index t (2 : Fin 3) * 32 + 32
    rw [idx0_4_2]; omega

/-- The two partials after the region. -/
theorem final0_4 (c : Dev nD) : (dat0 V c).arrAt 4 cfg0.N = Part (V c main_arg2) (V c main_arg0) :=
  (dat0 V c).arrAt_eq_of_cover 4 (Part (V c main_arg2) (V c main_arg0)) (fun t hf => flushed0_4_eq V c t hf) (cover0_4)

/-! ## the bf16 copy of the adjacency -/

/-- The adjacency, as the contents of the bf16 array (a change of float format is the identity on the extended reals). -/
def Acopy (c : Dev nD) : S8192x16384.Idx → EReal := fun i => V c main_arg2 i

theorem flushed0_5_eq (c : Dev nD) (t : Fin cfg0.N) (hf : (cfg0.win 5).flush t = true) :
    (dat0 V c).flushed 5 t = ((cfg0.win 5).blk t).view.read (Elt Ideal) (Acopy V c) := by
  have hN : t.val < 128 := lt_of_lt_of_eq t.isLt (show cfg0.N = 128 from N_0)
  show (cfg0.win 5).cut (grid0.coords t) ((dat0 V c).after 5 t) = _
  rw [after0_5]
  funext j
  obtain ⟨p, k, rfl⟩ : ∃ (p : Fin 512) (k : Fin 2048), j = ix2 p k := ⟨j 0, j 1, eq_ix2 j⟩
  have keyL : ∀ (Y : Vec Ideal S512x2048 .bf16), (cfg0.win 5).cut (grid0.coords t) Y (ix2 p k) = Y (ix2 p k) := fun _ => rfl
  have keyR : ∀ (G : (⟨S8192x16384, .bf16⟩ : BufTy).Contents (Elt Ideal)), ((cfg0.win 5).blk t).view.read (Elt Ideal) G (ix2 p k) = G (((cfg0.win 5).blk t).view.emb (ix2 p k)) := fun _ => rfl
  rw [keyL, keyR, acc0_5 V c t.val t.isLt p k, at2_eq _ _ _ (by omega) (by omega)]
  unfold Acopy
  refine congrArg (V c main_arg2) ?_
  funext a
  apply Fin.ext
  match a with
  | ⟨0, _⟩ =>
    show 512 * (t.val / 8) + p.val = win0_5.index t 0 * 512 + 1 * p.val
    rw [idx0_5_0]; omega
  | ⟨1, _⟩ =>
    show 2048 * (t.val % 8) + k.val = win0_5.index t 1 * 2048 + 1 * k.val
    rw [idx0_5_1]; omega

theorem cover0_5 (i : S8192x16384.Idx) : ∃ t : Fin cfg0.N, (cfg0.win 5).flush t = true ∧ i ∈ ((cfg0.win 5).blk t).view.set := by
  have hi0 : (i 0).val < 8192 := (i 0).isLt
  have hi1 : (i 1).val < 16384 := (i 1).isLt
  obtain ⟨t, ht⟩ : ∃ t : Fin cfg0.N, t.val = 8 * ((i 0).val / 512) + (i 1).val / 2048 := ⟨⟨8 * ((i 0).val / 512) + (i 1).val / 2048, by rw [show cfg0.N = 128 from N_0]; omega⟩, rfl⟩
  refine ⟨t, flush0_5 t, ?_⟩
  show i ∈ ((View.whole main_v0_2).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [idx0_5_0]; omega
  | ⟨1, _⟩ =>
    show win0_5.index t (1 : Fin 2) * 2048 ≤ (i 1).val ∧ (i 1).val < win0_5.index t (1 : Fin 2) * 2048 + 2048
    rw [idx0_5_1]; omega

/-- The bf16 copy after the region. -/
theorem final0_5 (c : Dev nD) : (dat0 V c).arrAt 5 cfg0.N = Acopy V c :=
  (dat0 V c).arrAt_eq_of_cover 5 (Acopy V c) (fun t hf => flushed0_5_eq V c t hf) (cover0_5)

end Cert.KernelIdeal.Hand

end
-- ==== Proof.ValOuts1.lean ====
/-
  Round 1: what each control case leaves in the outputs' buffers, at an index, on the extended reals. The row-tile
  accumulator ends at "what it held (zero after a reset) plus the tile product"; the core's partial of i_next ends, on
  the 2048 rows of the point's column tile, at "what it held (zero after a reset) plus the transposed tile product" and
  elsewhere at what it held.
-/
import proofs.«153668_j35003983462547_2_alg».proof.Proof.R1Data
import proofs.«153668_j35003983462547_2_alg».proof.Proof.ValPay
import Idealize.ShloMosaic.Lib.WritesUnit
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

open Idealize.ShloMosaic.Tactic
private theorem hz2 : (![0, 0] : Fin 2 → ℕ) = fun _ => 0 := by funext a; fin_cases a <;> rfl

/-- The zero fill of the i_next partial is zero everywhere. -/
theorem k1_pay2_apply (y : S1x16384x32.Idx) : k1_pay2 (F := Ideal) y = 0 := by
  unfold k1_pay2
  show Ideal.ofBits .f32 0x00000000#32 = 0
  exact Ideal.ofBits_zero_f32

/-- Case A, the row-tile accumulator: reset, then the tile product. -/
theorem out1_A_3_apply (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec Ideal S512x2048 .bf16) (x1 : Vec Ideal S512x32 .f32) (x2 : Vec Ideal S2048x32 .f32) (p : Fin 512) (e : Fin 32) :
    out1_A_3 c i arg3 harg3 arg4 harg4 arg5 harg5 arg6 harg6 arg7 harg7 hc0 hc1 x0 x1 x2 (ix2 p e) = ∑ k : Fin 2048, x0 (ix2 p k) * x2 (ix2 k e) := by
  unfold out1_A_3 kernelRun1_A
  dsimp only
  sl_unfold_words
  refine (View.read_writes_cons_unit_of_mem VO1_3 VO1_3.junk inb_S512x32_S512x32_0_0 _ _ (ix2 p e) (ix2 p e : S512x32.Idx) rfl (fun a => by
    match a with
    | ⟨0, _⟩ => show p.val = 0 + p.val; omega
    | ⟨1, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k1_pay4_apply, View.readCov_unit_zero _ hz2]
  rw [show k1_pay1 (F := Ideal) (ix2 p e) = 0 from Ideal.ofBits_zero_f32, zero_add]

/-- Case B, the row-tile accumulator: reset, then the tile product. -/
theorem out1_B_3_apply (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : ¬condIJ1 i) (x0 : Vec Ideal S512x2048 .bf16) (x1 : Vec Ideal S512x32 .f32) (x2 : Vec Ideal S2048x32 .f32) (f4 : arg7.view.ty.Contents (Elt Ideal)) (p : Fin 512) (e : Fin 32) :
    out1_B_3 c i arg3 harg3 arg4 harg4 arg5 harg5 arg6 harg6 arg7 harg7 hc0 hc1 x0 x1 x2 f4 (ix2 p e) = ∑ k : Fin 2048, x0 (ix2 p k) * x2 (ix2 k e) := by
  unfold out1_B_3 kernelRun1_B
  dsimp only
  sl_unfold_words
  refine (View.read_writes_cons_unit_of_mem VO1_3 VO1_3.junk inb_S512x32_S512x32_0_0 _ _ (ix2 p e) (ix2 p e : S512x32.Idx) rfl (fun a => by
    match a with
    | ⟨0, _⟩ => show p.val = 0 + p.val; omega
    | ⟨1, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k1_pay4_apply, View.readCov_unit_zero _ hz2]
  rw [show k1_pay1 (F := Ideal) (ix2 p e) = 0 from Ideal.ofBits_zero_f32, zero_add]

/-- Case C, the row-tile accumulator: what it held plus the tile product. -/
theorem out1_C_3_apply (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ1 i) (hc1 : ¬condIJ1 i) (x0 : Vec Ideal S512x2048 .bf16) (x1 : Vec Ideal S512x32 .f32) (x2 : Vec Ideal S2048x32 .f32) (f3 : arg6.view.ty.Contents (Elt Ideal)) (f4 : arg7.view.ty.Contents (Elt Ideal)) (p : Fin 512) (e : Fin 32) :
    out1_C_3 c i arg3 harg3 arg4 harg4 arg5 harg5 arg6 harg6 arg7 harg7 hc0 hc1 x0 x1 x2 f3 f4 (ix2 p e)
      = arg6.view.read (Elt Ideal) f3 (ix2 p e) + ∑ k : Fin 2048, x0 (ix2 p k) * x2 (ix2 k e) := by
  unfold out1_C_3 kernelRun1_C
  dsimp only
  refine (View.read_writes_cons_unit_of_mem arg6.view f3 inb_S512x32_S512x32_0_0 _ [] (ix2 p e) (ix2 p e : S512x32.Idx) rfl (fun a => by
    match a with
    | ⟨0, _⟩ => show p.val = 0 + p.val; omega
    | ⟨1, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  exact k1_pay4_apply x0 x2 _ p e

/-- Case A, the i_next partial on the rows of the point's column tile: reset, then the transposed tile product. -/
theorem out1_A_4_in (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec Ideal S512x2048 .bf16) (x1 : Vec Ideal S512x32 .f32) (x2 : Vec Ideal S2048x32 .f32)
    (o : ℕ) (hoff : k1_off1 i = ![0, o, 0]) (z : Fin 1) (r : Fin 16384) (e : Fin 32) (r' : Fin 2048) (hr : r.val = o + r'.val) :
    out1_A_4 c i arg3 harg3 arg4 harg4 arg5 harg5 arg6 harg6 arg7 harg7 hc0 hc1 x0 x1 x2 (ix3 z r e) = ∑ p : Fin 512, x0 (ix2 p r') * x1 (ix2 p e) := by
  unfold out1_A_4 kernelRun1_A
  dsimp only
  sl_unfold_words
  refine (View.read_writes_cons_unit_of_mem VO1_4 VO1_4.junk (k1_off1_inb i) _ _ (ix3 z r e) (ix3 z r' e : S1x2048x32.Idx) hoff (fun a => by
    match a with
    | ⟨0, _⟩ => show z.val = 0 + z.val; omega
    | ⟨1, _⟩ => show r.val = o + r'.val; exact hr
    | ⟨2, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k1_pay5_apply]
  refine (congrArg (· + _) ?_).trans (zero_add _)
  exact (View.read_writes_cons_unit_of_mem _ _ inb_S1x16384x32_S1x16384x32_0_0_0 _ [] _ _ rfl (fun a => by
      match a with
      | ⟨0, _⟩ => exact (Nat.zero_add _).symm
      | ⟨1, _⟩ => exact (Nat.zero_add _).symm
      | ⟨2, _⟩ => exact (Nat.zero_add _).symm)).trans (k1_pay2_apply _)

/-- Case A, the i_next partial off those rows: zero. -/
theorem out1_A_4_out (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : condIJ1 i) (x0 : Vec Ideal S512x2048 .bf16) (x1 : Vec Ideal S512x32 .f32) (x2 : Vec Ideal S2048x32 .f32)
    (o : ℕ) (hoff : k1_off1 i = ![0, o, 0]) (z : Fin 1) (r : Fin 16384) (e : Fin 32) (hr : r.val < o ∨ o + 2048 ≤ r.val) :
    out1_A_4 c i arg3 harg3 arg4 harg4 arg5 harg5 arg6 harg6 arg7 harg7 hc0 hc1 x0 x1 x2 (ix3 z r e) = 0 := by
  unfold out1_A_4 kernelRun1_A
  dsimp only
  sl_unfold_words
  refine (View.read_writes_cons_unit_of_not_mem VO1_4 VO1_4.junk (k1_off1_inb i) _ _ (ix3 z r e) hoff 1 hr).trans ?_
  exact (View.read_writes_cons_unit_of_mem _ _ inb_S1x16384x32_S1x16384x32_0_0_0 _ [] _ _ rfl (fun a => by
      match a with
      | ⟨0, _⟩ => exact (Nat.zero_add _).symm
      | ⟨1, _⟩ => exact (Nat.zero_add _).symm
      | ⟨2, _⟩ => exact (Nat.zero_add _).symm)).trans (k1_pay2_apply _)

/-- Case B, the i_next partial on the rows of the point's column tile: what it held plus the transposed tile product. -/
theorem out1_B_4_in (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : ¬condIJ1 i) (x0 : Vec Ideal S512x2048 .bf16) (x1 : Vec Ideal S512x32 .f32) (x2 : Vec Ideal S2048x32 .f32) (f4 : arg7.view.ty.Contents (Elt Ideal))
    (o : ℕ) (hoff : k1_off1 i = ![0, o, 0]) (z : Fin 1) (r : Fin 16384) (e : Fin 32) (r' : Fin 2048) (hr : r.val = o + r'.val) :
    out1_B_4 c i arg3 harg3 arg4 harg4 arg5 harg5 arg6 harg6 arg7 harg7 hc0 hc1 x0 x1 x2 f4 (ix3 z r e)
      = arg7.view.read (Elt Ideal) f4 (ix3 z r e) + ∑ p : Fin 512, x0 (ix2 p r') * x1 (ix2 p e) := by
  unfold out1_B_4 kernelRun1_B
  dsimp only
  sl_unfold_words
  refine (View.read_writes_cons_unit_of_mem arg7.view f4 (k1_off1_inb i) _ [] (ix3 z r e) (ix3 z r' e : S1x2048x32.Idx) hoff (fun a => by
    match a with
    | ⟨0, _⟩ => show z.val = 0 + z.val; omega
    | ⟨1, _⟩ => show r.val = o + r'.val; exact hr
    | ⟨2, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k1_pay5_apply]
  refine congrArg (· + _) ?_
  show arg7.view.read (Elt Ideal) f4 ((Rect.unit (s := S1x16384x32) (k1_off1 i) S1x2048x32.size (k1_off1_inb i)).idx (ix3 z r' e)) = _
  refine congrArg (arg7.view.read (Elt Ideal) f4) ?_
  funext a
  apply Fin.ext
  show k1_off1 i a + 1 * ((ix3 z r' e : S1x2048x32.Idx) a).val = ((ix3 z r e : S1x16384x32.Idx) a).val
  rw [hoff]
  match a with
  | ⟨0, _⟩ => show 0 + 1 * z.val = z.val; omega
  | ⟨1, _⟩ => show o + 1 * r'.val = r.val; omega
  | ⟨2, _⟩ => show 0 + 1 * e.val = e.val; omega

/-- Case B, the i_next partial off those rows: what it held. -/
theorem out1_B_4_out (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ1 i) (hc1 : ¬condIJ1 i) (x0 : Vec Ideal S512x2048 .bf16) (x1 : Vec Ideal S512x32 .f32) (x2 : Vec Ideal S2048x32 .f32) (f4 : arg7.view.ty.Contents (Elt Ideal))
    (o : ℕ) (hoff : k1_off1 i = ![0, o, 0]) (z : Fin 1) (r : Fin 16384) (e : Fin 32) (hr : r.val < o ∨ o + 2048 ≤ r.val) :
    out1_B_4 c i arg3 harg3 arg4 harg4 arg5 harg5 arg6 harg6 arg7 harg7 hc0 hc1 x0 x1 x2 f4 (ix3 z r e) = arg7.view.read (Elt Ideal) f4 (ix3 z r e) := by
  unfold out1_B_4 kernelRun1_B
  dsimp only
  sl_unfold_words
  exact View.read_writes_cons_unit_of_not_mem arg7.view f4 (k1_off1_inb i) _ [] (ix3 z r e) hoff 1 hr

/-- Case C, the i_next partial on the rows of the point's column tile: what it held plus the transposed tile product. -/
theorem out1_C_4_in (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ1 i) (hc1 : ¬condIJ1 i) (x0 : Vec Ideal S512x2048 .bf16) (x1 : Vec Ideal S512x32 .f32) (x2 : Vec Ideal S2048x32 .f32) (f3 : arg6.view.ty.Contents (Elt Ideal)) (f4 : arg7.view.ty.Contents (Elt Ideal))
    (o : ℕ) (hoff : k1_off1 i = ![0, o, 0]) (z : Fin 1) (r : Fin 16384) (e : Fin 32) (r' : Fin 2048) (hr : r.val = o + r'.val) :
    out1_C_4 c i arg3 harg3 arg4 harg4 arg5 harg5 arg6 harg6 arg7 harg7 hc0 hc1 x0 x1 x2 f3 f4 (ix3 z r e)
      = arg7.view.read (Elt Ideal) f4 (ix3 z r e) + ∑ p : Fin 512, x0 (ix2 p r') * x1 (ix2 p e) := by
  unfold out1_C_4 kernelRun1_C
  dsimp only
  sl_unfold_words
  refine (View.read_writes_cons_unit_of_mem arg7.view f4 (k1_off1_inb i) _ [] (ix3 z r e) (ix3 z r' e : S1x2048x32.Idx) hoff (fun a => by
    match a with
    | ⟨0, _⟩ => show z.val = 0 + z.val; omega
    | ⟨1, _⟩ => show r.val = o + r'.val; exact hr
    | ⟨2, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k1_pay5_apply]
  refine congrArg (· + _) ?_
  show arg7.view.read (Elt Ideal) f4 ((Rect.unit (s := S1x16384x32) (k1_off1 i) S1x2048x32.size (k1_off1_inb i)).idx (ix3 z r' e)) = _
  refine congrArg (arg7.view.read (Elt Ideal) f4) ?_
  funext a
  apply Fin.ext
  show k1_off1 i a + 1 * ((ix3 z r' e : S1x2048x32.Idx) a).val = ((ix3 z r e : S1x16384x32.Idx) a).val
  rw [hoff]
  match a with
  | ⟨0, _⟩ => show 0 + 1 * z.val = z.val; omega
  | ⟨1, _⟩ => show o + 1 * r'.val = r.val; omega
  | ⟨2, _⟩ => show 0 + 1 * e.val = e.val; omega

/-- Case C, the i_next partial off those rows: what it held. -/
theorem out1_C_4_out (c : Dev nD) (i : grid1.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ1 i) (hc1 : ¬condIJ1 i) (x0 : Vec Ideal S512x2048 .bf16) (x1 : Vec Ideal S512x32 .f32) (x2 : Vec Ideal S2048x32 .f32) (f3 : arg6.view.ty.Contents (Elt Ideal)) (f4 : arg7.view.ty.Contents (Elt Ideal))
    (o : ℕ) (hoff : k1_off1 i = ![0, o, 0]) (z : Fin 1) (r : Fin 16384) (e : Fin 32) (hr : r.val < o ∨ o + 2048 ≤ r.val) :
    out1_C_4 c i arg3 harg3 arg4 harg4 arg5 harg5 arg6 harg6 arg7 harg7 hc0 hc1 x0 x1 x2 f3 f4 (ix3 z r e) = arg7.view.read (Elt Ideal) f4 (ix3 z r e) := by
  unfold out1_C_4 kernelRun1_C
  dsimp only
  sl_unfold_words
  exact View.read_writes_cons_unit_of_not_mem arg7.view f4 (k1_off1_inb i) _ [] (ix3 z r e) hoff 1 hr

end Cert.KernelIdeal.Hand

end
-- ==== Proof.ValBlocks1.lean ====
/-
  Round 1: the tiles the grid points see, at natural-number coordinates. Point t = 64·c + 8·i + j reads the adjacency's
  rows 512·(t/8) … and columns 2048·(t%8) …, u_k's rows 512·(t/8) …, i_k's rows 2048·(t%8) …; the body's slice of the
  i_next partial starts at row 2048·(t%8).
-/
import proofs.«153668_j35003983462547_2_alg».proof.Proof.R1Data
import proofs.«153668_j35003983462547_2_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

/-! The windows' block indices over the grid, decided. -/
theorem idx1_0_0 : ∀ t : Fin cfg1.N, win1_0.index t (0 : Fin 2) = t.val / 8 := (by decide +kernel : ∀ t : Fin grid1.N, win1_0.index t (0 : Fin 2) = t.val / 8)
theorem idx1_0_1 : ∀ t : Fin cfg1.N, win1_0.index t (1 : Fin 2) = t.val % 8 := (by decide +kernel : ∀ t : Fin grid1.N, win1_0.index t (1 : Fin 2) = t.val % 8)
theorem idx1_1_0 : ∀ t : Fin cfg1.N, win1_1.index t (0 : Fin 2) = t.val / 8 := (by decide +kernel : ∀ t : Fin grid1.N, win1_1.index t (0 : Fin 2) = t.val / 8)
theorem idx1_1_1 : ∀ t : Fin cfg1.N, win1_1.index t (1 : Fin 2) = 0 := (by decide +kernel : ∀ t : Fin grid1.N, win1_1.index t (1 : Fin 2) = 0)
theorem idx1_2_0 : ∀ t : Fin cfg1.N, win1_2.index t (0 : Fin 2) = t.val % 8 := (by decide +kernel : ∀ t : Fin grid1.N, win1_2.index t (0 : Fin 2) = t.val % 8)
theorem idx1_2_1 : ∀ t : Fin cfg1.N, win1_2.index t (1 : Fin 2) = 0 := (by decide +kernel : ∀ t : Fin grid1.N, win1_2.index t (1 : Fin 2) = 0)
theorem idx1_3_0 : ∀ t : Fin cfg1.N, win1_3.index t (0 : Fin 2) = t.val / 8 := (by decide +kernel : ∀ t : Fin grid1.N, win1_3.index t (0 : Fin 2) = t.val / 8)
theorem idx1_3_1 : ∀ t : Fin cfg1.N, win1_3.index t (1 : Fin 2) = 0 := (by decide +kernel : ∀ t : Fin grid1.N, win1_3.index t (1 : Fin 2) = 0)
theorem idx1_4_0 : ∀ t : Fin cfg1.N, win1_4.index t (0 : Fin 3) = t.val / 64 := (by decide +kernel : ∀ t : Fin grid1.N, win1_4.index t (0 : Fin 3) = t.val / 64)
theorem idx1_4_1 : ∀ t : Fin cfg1.N, win1_4.index t (1 : Fin 3) = 0 := (by decide +kernel : ∀ t : Fin grid1.N, win1_4.index t (1 : Fin 3) = 0)
theorem idx1_4_2 : ∀ t : Fin cfg1.N, win1_4.index t (2 : Fin 3) = 0 := (by decide +kernel : ∀ t : Fin grid1.N, win1_4.index t (2 : Fin 3) = 0)
/-- The body's slice of the i_next partial starts at row 2048·(t%8). -/
theorem koff1_0 : ∀ t : Fin cfg1.N, k1_off1 (grid1.coords t) (0 : Fin 3) = 0 := (by decide +kernel : ∀ t : Fin grid1.N, k1_off1 (grid1.coords t) (0 : Fin 3) = 0)
theorem koff1_1 : ∀ t : Fin cfg1.N, k1_off1 (grid1.coords t) (1 : Fin 3) = 2048 * (t.val % 8) := (by decide +kernel : ∀ t : Fin grid1.N, k1_off1 (grid1.coords t) (1 : Fin 3) = 2048 * (t.val % 8))
theorem koff1_2 : ∀ t : Fin cfg1.N, k1_off1 (grid1.coords t) (2 : Fin 3) = 0 := (by decide +kernel : ∀ t : Fin grid1.N, k1_off1 (grid1.coords t) (2 : Fin 3) = 0)

theorem koff1 (t : Fin cfg1.N) : k1_off1 (grid1.coords t) = ![0, 2048 * (t.val % 8), 0] := by
  funext a
  match a with
  | ⟨0, _⟩ => exact koff1_0 t
  | ⟨1, _⟩ => exact koff1_1 t
  | ⟨2, _⟩ => exact koff1_2 t

variable (V : (c : Dev nD) → (b : Ref sig .tc) → Buf (Elt Ideal) ((c : Thread nD τ).loc b))

/-- The adjacency tile at point t. -/
theorem iblk1_0_apply (c : Dev nD) (t : Fin cfg1.N) (p : Fin 512) (k : Fin 2048) :
    iblk1 V c 0 t (ix2 p k) = at2 (V c main_v0_2) (512 * (t.val / 8) + p.val) (2048 * (t.val % 8) + k.val) := by
  have hN : t.val < 128 := lt_of_lt_of_eq t.isLt (show cfg1.N = 128 from N_1)
  rw [at2_eq _ _ _ (by omega) (by omega)]
  unfold iblk1
  show V c main_v0_2 (((cfg1.win 0).blk t).view.emb (ix2 p k)) = _
  refine congrArg (V c main_v0_2) ?_
  funext a
  apply Fin.ext
  match a with
  | ⟨0, _⟩ =>
    show win1_0.index t 0 * 512 + 1 * p.val = 512 * (t.val / 8) + p.val
    rw [idx1_0_0]; omega
  | ⟨1, _⟩ =>
    show win1_0.index t 1 * 2048 + 1 * k.val = 2048 * (t.val % 8) + k.val
    rw [idx1_0_1]; omega

/-- u_k's row tile at point t. -/
theorem iblk1_1_apply (c : Dev nD) (t : Fin cfg1.N) (p : Fin 512) (e : Fin 32) :
    iblk1 V c 1 t (ix2 p e) = at2 (V c main_v0_0) (512 * (t.val / 8) + p.val) e.val := by
  have hN : t.val < 128 := lt_of_lt_of_eq t.isLt (show cfg1.N = 128 from N_1)
  rw [at2_eq _ _ _ (by omega) e.isLt]
  unfold iblk1
  show V c main_v0_0 (((cfg1.win 1).blk t).view.emb (ix2 p e)) = _
  refine congrArg (V c main_v0_0) ?_
  funext a
  apply Fin.ext
  match a with
  | ⟨0, _⟩ =>
    show win1_1.index t 0 * 512 + 1 * p.val = 512 * (t.val / 8) + p.val
    rw [idx1_1_0]; omega
  | ⟨1, _⟩ =>
    show win1_1.index t 1 * 32 + 1 * e.val = e.val
    rw [idx1_1_1]; omega

/-- i_k's column tile at point t. -/
theorem iblk1_2_apply (c : Dev nD) (t : Fin cfg1.N) (k : Fin 2048) (e : Fin 32) :
    iblk1 V c 2 t (ix2 k e) = at2 (V c main_v5) (2048 * (t.val % 8) + k.val) e.val := by
  have hN : t.val < 128 := lt_of_lt_of_eq t.isLt (show cfg1.N = 128 from N_1)
  rw [at2_eq _ _ _ (by omega) e.isLt]
  unfold iblk1
  show V c main_v5 (((cfg1.win 2).blk t).view.emb (ix2 k e)) = _
  refine congrArg (V c main_v5) ?_
  funext a
  apply Fin.ext
  match a with
  | ⟨0, _⟩ =>
    show win1_2.index t 0 * 2048 + 1 * k.val = 2048 * (t.val % 8) + k.val
    rw [idx1_2_0]; omega
  | ⟨1, _⟩ =>
    show win1_2.index t 1 * 32 + 1 * e.val = e.val
    rw [idx1_2_1]; omega

end Cert.KernelIdeal.Hand

end
-- ==== Proof.ValAcc1.lean ====
/-
  Round 1: what the two accumulators hold after each grid point, in closed form, by induction on the point.
  After point t the row-tile accumulator holds the tile products of column tiles 0 … t%8 of row tile t/8; the core's
  partial of i_next holds, on the rows of column tile s, the transposed tile products of the first `cnt (t%64) s` row
  tiles of core t/64.
-/
import proofs.«153668_j35003983462547_2_alg».proof.Proof.ValOuts1
import proofs.«153668_j35003983462547_2_alg».proof.Proof.ValBlocks1
import proofs.«153668_j35003983462547_2_alg».proof.Proof.ValSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

variable (V : (c : Dev nD) → (b : Ref sig .tc) → Buf (Elt Ideal) ((c : Thread nD τ).loc b))

theorem prevAt1_pos (c : Dev nD) (t : ℕ) (h : t < cfg1.N) (h0 : t ≠ 0) :
    prevAt1 V c ⟨t, h⟩ = outsAt1 V c (t - 1) (Nat.lt_of_le_of_lt (Nat.sub_le _ _) h) := by
  unfold prevAt1; rw [dif_neg (show ¬(⟨t, h⟩ : Fin cfg1.N).val = 0 from h0)]

/-- The row-tile accumulator after point t. -/
theorem acc1_3 (c : Dev nD) : ∀ (t : ℕ) (h : t < cfg1.N) (p : Fin 512) (e : Fin 32),
    (outsAt1 V c t h).1 (ix2 p e) = ∑ j ∈ Finset.range (t % 8 + 1), T3 (V c main_v0_2) (V c main_v5) (t / 8) j p.val e.val := by
  intro t
  induction t using Nat.strong_induction_on with
  | _ t ih =>
    intro h p e
    by_cases h8 : t % 8 = 0
    · have hfin : T3 (V c main_v0_2) (V c main_v5) (t / 8) (t % 8) p.val e.val
          = ∑ j ∈ Finset.range (t % 8 + 1), T3 (V c main_v0_2) (V c main_v5) (t / 8) j p.val e.val := by
        rw [h8, Finset.sum_range_one]
      by_cases h64 : t % 64 = 0
      · have e1 := outsAt1_A V c ⟨t, h⟩ h64
        change outsAt1 V c t h = _ at e1
        rw [e1]; dsimp only
        rw [out1_A_3_apply c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩) (ms1_3 ⟨t, h⟩) (hs1_3 ⟨t, h⟩) (ms1_4 ⟨t, h⟩) (hs1_4 ⟨t, h⟩) ((hcondJ1 ⟨t, h⟩).mpr (by show t % 8 = 0; omega)) ((hcondIJ1 ⟨t, h⟩).mpr h64) (iblk1 V c 0 ⟨t, h⟩) (iblk1 V c 1 ⟨t, h⟩) (iblk1 V c 2 ⟨t, h⟩) p e, sum3_eq (φ := .bf16) (iblk1 V c 0 ⟨t, h⟩) (iblk1 V c 2 ⟨t, h⟩) (V c main_v0_2) (V c main_v5) (t / 8) (t % 8) (fun p k => iblk1_0_apply V c ⟨t, h⟩ p k) (fun k e => iblk1_2_apply V c ⟨t, h⟩ k e) p e]
        exact hfin
      · have e1 := outsAt1_B V c ⟨t, h⟩ h64 h8
        change outsAt1 V c t h = _ at e1
        rw [e1]; dsimp only
        rw [out1_B_3_apply c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩) (ms1_3 ⟨t, h⟩) (hs1_3 ⟨t, h⟩) (ms1_4 ⟨t, h⟩) (hs1_4 ⟨t, h⟩) ((hcondJ1 ⟨t, h⟩).mpr h8) (fun hh => h64 ((hcondIJ1 ⟨t, h⟩).mp hh)) (iblk1 V c 0 ⟨t, h⟩) (iblk1 V c 1 ⟨t, h⟩) (iblk1 V c 2 ⟨t, h⟩) ((hs1_4 ⟨t, h⟩).unread (prevAt1 V c ⟨t, h⟩).2) p e, sum3_eq (φ := .bf16) (iblk1 V c 0 ⟨t, h⟩) (iblk1 V c 2 ⟨t, h⟩) (V c main_v0_2) (V c main_v5) (t / 8) (t % 8) (fun p k => iblk1_0_apply V c ⟨t, h⟩ p k) (fun k e => iblk1_2_apply V c ⟨t, h⟩ k e) p e]
        exact hfin
    · have h64 : ¬t % 64 = 0 := fun hh => h8 (by omega)
      have h0 : t ≠ 0 := fun hh => h8 (by rw [hh])
      have e1 := outsAt1_C V c ⟨t, h⟩ h64 h8
      change outsAt1 V c t h = _ at e1
      rw [e1]; dsimp only
      rw [out1_C_3_apply c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩) (ms1_3 ⟨t, h⟩) (hs1_3 ⟨t, h⟩) (ms1_4 ⟨t, h⟩) (hs1_4 ⟨t, h⟩) (fun hh => h8 ((hcondJ1 ⟨t, h⟩).mp hh)) (fun hh => h64 ((hcondIJ1 ⟨t, h⟩).mp hh)) (iblk1 V c 0 ⟨t, h⟩) (iblk1 V c 1 ⟨t, h⟩) (iblk1 V c 2 ⟨t, h⟩) ((hs1_3 ⟨t, h⟩).unread (prevAt1 V c ⟨t, h⟩).1) ((hs1_4 ⟨t, h⟩).unread (prevAt1 V c ⟨t, h⟩).2) p e, sum3_eq (φ := .bf16) (iblk1 V c 0 ⟨t, h⟩) (iblk1 V c 2 ⟨t, h⟩) (V c main_v0_2) (V c main_v5) (t / 8) (t % 8) (fun p k => iblk1_0_apply V c ⟨t, h⟩ p k) (fun k e => iblk1_2_apply V c ⟨t, h⟩ k e) p e]
      rw [(hs1_3 ⟨t, h⟩).read_unread, prevAt1_pos V c t h h0, ih (t - 1) (by omega) _ p e]
      rw [show (t - 1) % 8 + 1 = t % 8 from by omega, show (t - 1) / 8 = t / 8 from by omega, Finset.sum_range_succ]

/-- The core's partial of i_next after point t. -/
theorem acc1_4 (c : Dev nD) : ∀ (t : ℕ) (h : t < cfg1.N) (z : Fin 1) (r : Fin 16384) (e : Fin 32),
    (outsAt1 V c t h).2 (ix3 z r e)
      = ∑ i' ∈ Finset.range (cnt (t % 64) (r.val / 2048)), T4 (V c main_v0_2) (V c main_v0_0) (8 * (t / 64) + i') r.val e.val := by
  intro t
  induction t using Nat.strong_induction_on with
  | _ t ih =>
    intro h z r e
    have hN : t < 128 := lt_of_lt_of_eq h (show cfg1.N = 128 from N_1)
    have hs : r.val / 2048 < 8 := by have := r.isLt; omega
    by_cases h64 : t % 64 = 0
    · have e1 := outsAt1_A V c ⟨t, h⟩ h64
      change outsAt1 V c t h = _ at e1
      rw [e1]; dsimp only
      have hc0 : cnt (t % 64) (r.val / 2048) = if r.val / 2048 = 0 then 1 else 0 := by rw [h64]; exact cnt_zero _ hs
      rw [hc0]
      by_cases hin : r.val / 2048 = t % 8
      · have hr : r.val = 2048 * (t % 8) + (r.val - 2048 * (t % 8)) := by omega
        rw [out1_A_4_in c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩) (ms1_3 ⟨t, h⟩) (hs1_3 ⟨t, h⟩) (ms1_4 ⟨t, h⟩) (hs1_4 ⟨t, h⟩) ((hcondJ1 ⟨t, h⟩).mpr (by show t % 8 = 0; omega)) ((hcondIJ1 ⟨t, h⟩).mpr h64) (iblk1 V c 0 ⟨t, h⟩) (iblk1 V c 1 ⟨t, h⟩) (iblk1 V c 2 ⟨t, h⟩) (2048 * (t % 8)) (koff1 ⟨t, h⟩) z r e ⟨r.val - 2048 * (t % 8), by omega⟩ hr]
        rw [sum4_eq (φ := .bf16) (iblk1 V c 0 ⟨t, h⟩) (iblk1 V c 1 ⟨t, h⟩) (V c main_v0_2) (V c main_v0_0) (t / 8) r.val ⟨r.val - 2048 * (t % 8), by omega⟩ e (fun p => by rw [iblk1_0_apply V c ⟨t, h⟩ p ⟨r.val - 2048 * (t % 8), by omega⟩]; show at2 _ _ (2048 * (t % 8) + (r.val - 2048 * (t % 8))) = _; rw [← hr]) (fun p => iblk1_1_apply V c ⟨t, h⟩ p e)]
        rw [if_pos (by omega), Finset.sum_range_one]
        rw [show t / 8 = 8 * (t / 64) + 0 from by omega]
      · rw [out1_A_4_out c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩) (ms1_3 ⟨t, h⟩) (hs1_3 ⟨t, h⟩) (ms1_4 ⟨t, h⟩) (hs1_4 ⟨t, h⟩) ((hcondJ1 ⟨t, h⟩).mpr (by show t % 8 = 0; omega)) ((hcondIJ1 ⟨t, h⟩).mpr h64) (iblk1 V c 0 ⟨t, h⟩) (iblk1 V c 1 ⟨t, h⟩) (iblk1 V c 2 ⟨t, h⟩) (2048 * (t % 8)) (koff1 ⟨t, h⟩) z r e (by omega)]
        rw [if_neg (by omega), Finset.sum_range_zero]
    · have h0 : t ≠ 0 := fun hh => h64 (by rw [hh])
      have hm : t % 64 ≠ 0 := h64
      have hprev : (prevAt1 V c ⟨t, h⟩).2 (ix3 z r e)
          = ∑ i' ∈ Finset.range (cnt (t % 64 - 1) (r.val / 2048)), T4 (V c main_v0_2) (V c main_v0_0) (8 * (t / 64) + i') r.val e.val := by
        rw [prevAt1_pos V c t h h0, ih (t - 1) (by omega) _ z r e]
        rw [show (t - 1) % 64 = t % 64 - 1 from by omega, show (t - 1) / 64 = t / 64 from by omega]
      rw [cnt_succ _ _ hs hm]
      by_cases h8 : t % 8 = 0
      · have e1 := outsAt1_B V c ⟨t, h⟩ h64 h8
        change outsAt1 V c t h = _ at e1
        rw [e1]; dsimp only
        by_cases hin : r.val / 2048 = t % 8
        · have hr : r.val = 2048 * (t % 8) + (r.val - 2048 * (t % 8)) := by omega
          rw [out1_B_4_in c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩) (ms1_3 ⟨t, h⟩) (hs1_3 ⟨t, h⟩) (ms1_4 ⟨t, h⟩) (hs1_4 ⟨t, h⟩) ((hcondJ1 ⟨t, h⟩).mpr h8) (fun hh => h64 ((hcondIJ1 ⟨t, h⟩).mp hh)) (iblk1 V c 0 ⟨t, h⟩) (iblk1 V c 1 ⟨t, h⟩) (iblk1 V c 2 ⟨t, h⟩) ((hs1_4 ⟨t, h⟩).unread (prevAt1 V c ⟨t, h⟩).2) (2048 * (t % 8)) (koff1 ⟨t, h⟩) z r e ⟨r.val - 2048 * (t % 8), by omega⟩ hr]
          rw [sum4_eq (φ := .bf16) (iblk1 V c 0 ⟨t, h⟩) (iblk1 V c 1 ⟨t, h⟩) (V c main_v0_2) (V c main_v0_0) (t / 8) r.val ⟨r.val - 2048 * (t % 8), by omega⟩ e (fun p => by rw [iblk1_0_apply V c ⟨t, h⟩ p ⟨r.val - 2048 * (t % 8), by omega⟩]; show at2 _ _ (2048 * (t % 8) + (r.val - 2048 * (t % 8))) = _; rw [← hr]) (fun p => iblk1_1_apply V c ⟨t, h⟩ p e)]
          rw [(hs1_4 ⟨t, h⟩).read_unread, hprev, if_pos (by omega), Finset.sum_range_succ]
          rw [cnt_pred_eq _ _ hs hm (by omega), show t / 8 = 8 * (t / 64) + t % 64 / 8 from by omega]
        · rw [out1_B_4_out c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩) (ms1_3 ⟨t, h⟩) (hs1_3 ⟨t, h⟩) (ms1_4 ⟨t, h⟩) (hs1_4 ⟨t, h⟩) ((hcondJ1 ⟨t, h⟩).mpr h8) (fun hh => h64 ((hcondIJ1 ⟨t, h⟩).mp hh)) (iblk1 V c 0 ⟨t, h⟩) (iblk1 V c 1 ⟨t, h⟩) (iblk1 V c 2 ⟨t, h⟩) ((hs1_4 ⟨t, h⟩).unread (prevAt1 V c ⟨t, h⟩).2) (2048 * (t % 8)) (koff1 ⟨t, h⟩) z r e (by omega)]
          rw [(hs1_4 ⟨t, h⟩).read_unread, hprev, if_neg (by omega), Nat.add_zero]
      · have e1 := outsAt1_C V c ⟨t, h⟩ h64 h8
        change outsAt1 V c t h = _ at e1
        rw [e1]; dsimp only
        by_cases hin : r.val / 2048 = t % 8
        · have hr : r.val = 2048 * (t % 8) + (r.val - 2048 * (t % 8)) := by omega
          rw [out1_C_4_in c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩) (ms1_3 ⟨t, h⟩) (hs1_3 ⟨t, h⟩) (ms1_4 ⟨t, h⟩) (hs1_4 ⟨t, h⟩) (fun hh => h8 ((hcondJ1 ⟨t, h⟩).mp hh)) (fun hh => h64 ((hcondIJ1 ⟨t, h⟩).mp hh)) (iblk1 V c 0 ⟨t, h⟩) (iblk1 V c 1 ⟨t, h⟩) (iblk1 V c 2 ⟨t, h⟩) ((hs1_3 ⟨t, h⟩).unread (prevAt1 V c ⟨t, h⟩).1) ((hs1_4 ⟨t, h⟩).unread (prevAt1 V c ⟨t, h⟩).2) (2048 * (t % 8)) (koff1 ⟨t, h⟩) z r e ⟨r.val - 2048 * (t % 8), by omega⟩ hr]
          rw [sum4_eq (φ := .bf16) (iblk1 V c 0 ⟨t, h⟩) (iblk1 V c 1 ⟨t, h⟩) (V c main_v0_2) (V c main_v0_0) (t / 8) r.val ⟨r.val - 2048 * (t % 8), by omega⟩ e (fun p => by rw [iblk1_0_apply V c ⟨t, h⟩ p ⟨r.val - 2048 * (t % 8), by omega⟩]; show at2 _ _ (2048 * (t % 8) + (r.val - 2048 * (t % 8))) = _; rw [← hr]) (fun p => iblk1_1_apply V c ⟨t, h⟩ p e)]
          rw [(hs1_4 ⟨t, h⟩).read_unread, hprev, if_pos (by omega), Finset.sum_range_succ]
          rw [cnt_pred_eq _ _ hs hm (by omega), show t / 8 = 8 * (t / 64) + t % 64 / 8 from by omega]
        · rw [out1_C_4_out c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩) (ms1_3 ⟨t, h⟩) (hs1_3 ⟨t, h⟩) (ms1_4 ⟨t, h⟩) (hs1_4 ⟨t, h⟩) (fun hh => h8 ((hcondJ1 ⟨t, h⟩).mp hh)) (fun hh => h64 ((hcondIJ1 ⟨t, h⟩).mp hh)) (iblk1 V c 0 ⟨t, h⟩) (iblk1 V c 1 ⟨t, h⟩) (iblk1 V c 2 ⟨t, h⟩) ((hs1_3 ⟨t, h⟩).unread (prevAt1 V c ⟨t, h⟩).1) ((hs1_4 ⟨t, h⟩).unread (prevAt1 V c ⟨t, h⟩).2) (2048 * (t % 8)) (koff1 ⟨t, h⟩) z r e (by omega)]
          rw [(hs1_4 ⟨t, h⟩).read_unread, hprev, if_neg (by omega), Nat.add_zero]

end Cert.KernelIdeal.Hand

end
-- ==== Proof.ValArr1.lean ====
/-
  Round 1: the output arrays after the region. Each write-back of the row-tile accumulator (after the last column tile)
  carries the whole row of products, so u_next ends as `Amul A i_k`; each core's write-back of its partial (after its last
  point) carries its eight row tiles' transposed products, so the two partials are the two halves of `ATmul A u_k`.
  Every index of an output array lies in the block of some point that writes back.
-/
import proofs.«153668_j35003983462547_2_alg».proof.Proof.ValAcc1
import proofs.«153668_j35003983462547_2_alg».proof.Proof.Spec
import proofs.«153668_j35003983462547_2_alg».proof.Proof.ValArr0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## u_next -/

theorem flushed1_3_eq (c : Dev nD) (t : Fin cfg1.N) (hf : (cfg1.win 3).flush t = true) :
    (dat1 V c).flushed 3 t = ((cfg1.win 3).blk t).view.read (Elt Ideal) (Amul (V c main_v0_2) (V c main_v5)) := by
  have h7 : t.val % 8 = 7 := (flush1_3 t).mp hf
  show (cfg1.win 3).cut (grid1.coords t) ((dat1 V c).after 3 t) = _
  rw [after1_3]
  funext j
  obtain ⟨p, e, rfl⟩ : ∃ (p : Fin 512) (e : Fin 32), j = ix2 p e := ⟨j 0, j 1, eq_ix2 j⟩
  have keyL : ∀ (Y : Vec Ideal S512x32 .f32), (cfg1.win 3).cut (grid1.coords t) Y (ix2 p e) = Y (ix2 p e) := fun _ => rfl
  have keyR : ∀ (G : (⟨S8192x32, .f32⟩ : BufTy).Contents (Elt Ideal)), ((cfg1.win 3).blk t).view.read (Elt Ideal) G (ix2 p e) = G (((cfg1.win 3).blk t).view.emb (ix2 p e)) := fun _ => rfl
  rw [keyL, keyR, acc1_3 V c t.val t.isLt p e, h7, T3_all]
  unfold Amul
  have h0 : ((((cfg1.win 3).blk t).view.emb (ix2 p e)) 0).val = 512 * (t.val / 8) + p.val := by
    show win1_3.index t 0 * 512 + 1 * p.val = _
    rw [idx1_3_0]; omega
  have h1 : ((((cfg1.win 3).blk t).view.emb (ix2 p e)) 1).val = e.val := by
    show win1_3.index t 1 * 32 + 1 * e.val = _
    rw [idx1_3_1]; omega
  rw [h0, h1]

theorem cover1_3 (i : S8192x32.Idx) : ∃ t : Fin cfg1.N, (cfg1.win 3).flush t = true ∧ i ∈ ((cfg1.win 3).blk t).view.set := by
  have hi0 : (i 0).val < 8192 := (i 0).isLt
  have hi1 : (i 1).val < 32 := (i 1).isLt
  obtain ⟨t, ht⟩ : ∃ t : Fin cfg1.N, t.val = 8 * ((i 0).val / 512) + 7 := ⟨⟨8 * ((i 0).val / 512) + 7, by rw [show cfg1.N = 128 from N_1]; omega⟩, rfl⟩
  refine ⟨t, (flush1_3 t).mpr (by omega), ?_⟩
  show i ∈ ((View.whole main_v8_0).slice (win1_3.rect t)).set
  rw [View.set_slice_whole, Rect.mem_set_unit]
  intro a
  match a with
  | ⟨0, _⟩ =>
    show win1_3.index t (0 : Fin 2) * 512 ≤ (i 0).val ∧ (i 0).val < win1_3.index t (0 : Fin 2) * 512 + 512
    rw [idx1_3_0]; omega
  | ⟨1, _⟩ =>
    show win1_3.index t (1 : Fin 2) * 32 ≤ (i 1).val ∧ (i 1).val < win1_3.index t (1 : Fin 2) * 32 + 32
    rw [idx1_3_1]; omega

/-- u_next after the region. -/
theorem final1_3 (c : Dev nD) : (dat1 V c).arrAt 3 cfg1.N = Amul (V c main_v0_2) (V c main_v5) :=
  (dat1 V c).arrAt_eq_of_cover 3 (Amul (V c main_v0_2) (V c main_v5)) (fun t hf => flushed1_3_eq V c t hf) (cover1_3)

/-! ## the two cores' partials of i_next -/

theorem flushed1_4_eq (c : Dev nD) (t : Fin cfg1.N) (hf : (cfg1.win 4).flush t = true) :
    (dat1 V c).flushed 4 t = ((cfg1.win 4).blk t).view.read (Elt Ideal) (Part (V c main_v0_2) (V c main_v0_0)) := by
  have h63 : t.val % 64 = 63 := (flush1_4 t).mp hf
  show (cfg1.win 4).cut (grid1.coords t) ((dat1 V c).after 4 t) = _
  rw [after1_4]
  funext j
  obtain ⟨z, r, e, rfl⟩ : ∃ (z : Fin 1) (r : Fin 16384) (e : Fin 32), j = ix3 z r e := ⟨j 0, j 1, j 2, eq_ix3 j⟩
  have keyL : ∀ (Y : Vec Ideal S1x16384x32 .f32), (cfg1.win 4).cut (grid1.coords t) Y (ix3 z r e) = Y (ix3 z r e) := fun _ => rfl
  have keyR : ∀ (G : (⟨S2x16384x32, .f32⟩ : BufTy).Contents (Elt Ideal)), ((cfg1.win 4).blk t).view.read (Elt Ideal) G (ix3 z r e) = G (((cfg1.win 4).blk t).view.emb (ix3 z r e)) := fun _ => rfl
  have hs : r.val / 2048 < 8 := by have := r.isLt; omega
  rw [keyL, keyR, acc1_4 V c t.val t.isLt z r e, h63, cnt_last _ hs]
  unfold Part
  have hz : z.val = 0 := by have := z.isLt; omega
  have h0 : ((((cfg1.win 4).blk t).view.emb (ix3 z r e)) 0).val = t.val / 64 := by
    show win1_4.index t 0 * 1 + 1 * z.val = _
    rw [idx1_4_0]; omega
  have h1 : ((((cfg1.win 4).blk t).view.emb (ix3 z r e)) 1).val = r.val := by
    show win1_4.index t 1 * 16384 + 1 * r.val = _
    rw [idx1_4_1]; omega
  have h2 : ((((cfg1.win 4).blk t).view.emb (ix3 z r e)) 2).val = e.val := by
    show win1_4.index t 2 * 32 + 1 * e.val = _
    rw [idx1_4_2]; omega
  rw [h0, h1, h2]

theorem cover1_4 (i : S2x16384x32.Idx) : ∃ t : Fin cfg1.N, (cfg1.win 4).flush t = true ∧ i ∈ ((cfg1.win 4).blk t).view.set := by
  have hi0 : (i 0).val < 2 := (i 0).isLt
  have hi1 : (i 1).val < 16384 := (i 1).isLt
  have hi2 : (i 2).val < 32 := (i 2).isLt
  obtain ⟨t, ht⟩ : ∃ t : Fin cfg1.N, t.val = 64 * (i 0).val + 63 := ⟨⟨64 * (i 0).val + 63, by rw [show cfg1.N = 128 from N_1]; omega⟩, rfl⟩
  refine ⟨t, (flush1_4 t).mpr (by omega), ?_⟩
  show i ∈ ((View.whole main_v8_1).slice (win1_4.rect t)).set
  rw [View.set_slice_whole, Rect.mem_set_unit]
  intro a
  match a with
  | ⟨0, _⟩ =>
    show win1_4.index t (0 : Fin 3) * 1 ≤ (i 0).val ∧ (i 0).val < win1_4.index t (0 : Fin 3) * 1 + 1
    rw [idx1_4_0]; omega
  | ⟨1, _⟩ =>
    show win1_4.index t (1 : Fin 3) * 16384 ≤ (i 1).val ∧ (i 1).val < win1_4.index t (1 : Fin 3) * 16384 + 16384
    rw [idx1_4_1]; omega
  | ⟨2, _⟩ =>
    show win1_4.index t (2 : Fin 3) * 32 ≤ (i 2).val ∧ (i 2).val < win1_4.index t (2 : Fin 3) * 32 + 32
    rw [idx1_4_2]; omega

/-- The two partials after the region. -/
theorem final1_4 (c : Dev nD) : (dat1 V c).arrAt 4 cfg1.N = Part (V c main_v0_2) (V c main_v0_0) :=
  (dat1 V c).arrAt_eq_of_cover 4 (Part (V c main_v0_2) (V c main_v0_0)) (fun t hf => flushed1_4_eq V c t hf) (cover1_4)

end Cert.KernelIdeal.Hand

end
-- ==== Proof.ValOuts2.lean ====
/-
  Round 2: what each control case leaves in the outputs' buffers, at an index, on the extended reals. The row-tile
  accumulator ends at "what it held (zero after a reset) plus the tile product"; the core's partial of i_next ends, on
  the 2048 rows of the point's column tile, at "what it held (zero after a reset) plus the transposed tile product" and
  elsewhere at what it held.
-/
import proofs.«153668_j35003983462547_2_alg».proof.Proof.R2Data
import proofs.«153668_j35003983462547_2_alg».proof.Proof.ValPay
import Idealize.ShloMosaic.Lib.WritesUnit
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

open Idealize.ShloMosaic.Tactic
private theorem hz2 : (![0, 0] : Fin 2 → ℕ) = fun _ => 0 := by funext a; fin_cases a <;> rfl

/-- The zero fill of the i_next partial is zero everywhere. -/
theorem k2_pay2_apply (y : S1x16384x32.Idx) : k2_pay2 (F := Ideal) y = 0 := by
  unfold k2_pay2
  show Ideal.ofBits .f32 0x00000000#32 = 0
  exact Ideal.ofBits_zero_f32

/-- Case A, the row-tile accumulator: reset, then the tile product. -/
theorem out2_A_3_apply (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec Ideal S512x2048 .bf16) (x1 : Vec Ideal S512x32 .f32) (x2 : Vec Ideal S2048x32 .f32) (p : Fin 512) (e : Fin 32) :
    out2_A_3 c i arg3 harg3 arg4 harg4 arg5 harg5 arg6 harg6 arg7 harg7 hc0 hc1 x0 x1 x2 (ix2 p e) = ∑ k : Fin 2048, x0 (ix2 p k) * x2 (ix2 k e) := by
  unfold out2_A_3 kernelRun2_A
  dsimp only
  sl_unfold_words
  refine (View.read_writes_cons_unit_of_mem VO2_3 VO2_3.junk inb_S512x32_S512x32_0_0 _ _ (ix2 p e) (ix2 p e : S512x32.Idx) rfl (fun a => by
    match a with
    | ⟨0, _⟩ => show p.val = 0 + p.val; omega
    | ⟨1, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k2_pay4_apply, View.readCov_unit_zero _ hz2]
  rw [show k2_pay1 (F := Ideal) (ix2 p e) = 0 from Ideal.ofBits_zero_f32, zero_add]

/-- Case B, the row-tile accumulator: reset, then the tile product. -/
theorem out2_B_3_apply (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : ¬condIJ2 i) (x0 : Vec Ideal S512x2048 .bf16) (x1 : Vec Ideal S512x32 .f32) (x2 : Vec Ideal S2048x32 .f32) (f4 : arg7.view.ty.Contents (Elt Ideal)) (p : Fin 512) (e : Fin 32) :
    out2_B_3 c i arg3 harg3 arg4 harg4 arg5 harg5 arg6 harg6 arg7 harg7 hc0 hc1 x0 x1 x2 f4 (ix2 p e) = ∑ k : Fin 2048, x0 (ix2 p k) * x2 (ix2 k e) := by
  unfold out2_B_3 kernelRun2_B
  dsimp only
  sl_unfold_words
  refine (View.read_writes_cons_unit_of_mem VO2_3 VO2_3.junk inb_S512x32_S512x32_0_0 _ _ (ix2 p e) (ix2 p e : S512x32.Idx) rfl (fun a => by
    match a with
    | ⟨0, _⟩ => show p.val = 0 + p.val; omega
    | ⟨1, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k2_pay4_apply, View.readCov_unit_zero _ hz2]
  rw [show k2_pay1 (F := Ideal) (ix2 p e) = 0 from Ideal.ofBits_zero_f32, zero_add]

/-- Case C, the row-tile accumulator: what it held plus the tile product. -/
theorem out2_C_3_apply (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ2 i) (hc1 : ¬condIJ2 i) (x0 : Vec Ideal S512x2048 .bf16) (x1 : Vec Ideal S512x32 .f32) (x2 : Vec Ideal S2048x32 .f32) (f3 : arg6.view.ty.Contents (Elt Ideal)) (f4 : arg7.view.ty.Contents (Elt Ideal)) (p : Fin 512) (e : Fin 32) :
    out2_C_3 c i arg3 harg3 arg4 harg4 arg5 harg5 arg6 harg6 arg7 harg7 hc0 hc1 x0 x1 x2 f3 f4 (ix2 p e)
      = arg6.view.read (Elt Ideal) f3 (ix2 p e) + ∑ k : Fin 2048, x0 (ix2 p k) * x2 (ix2 k e) := by
  unfold out2_C_3 kernelRun2_C
  dsimp only
  refine (View.read_writes_cons_unit_of_mem arg6.view f3 inb_S512x32_S512x32_0_0 _ [] (ix2 p e) (ix2 p e : S512x32.Idx) rfl (fun a => by
    match a with
    | ⟨0, _⟩ => show p.val = 0 + p.val; omega
    | ⟨1, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  exact k2_pay4_apply x0 x2 _ p e

/-- Case A, the i_next partial on the rows of the point's column tile: reset, then the transposed tile product. -/
theorem out2_A_4_in (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec Ideal S512x2048 .bf16) (x1 : Vec Ideal S512x32 .f32) (x2 : Vec Ideal S2048x32 .f32)
    (o : ℕ) (hoff : k2_off1 i = ![0, o, 0]) (z : Fin 1) (r : Fin 16384) (e : Fin 32) (r' : Fin 2048) (hr : r.val = o + r'.val) :
    out2_A_4 c i arg3 harg3 arg4 harg4 arg5 harg5 arg6 harg6 arg7 harg7 hc0 hc1 x0 x1 x2 (ix3 z r e) = ∑ p : Fin 512, x0 (ix2 p r') * x1 (ix2 p e) := by
  unfold out2_A_4 kernelRun2_A
  dsimp only
  sl_unfold_words
  refine (View.read_writes_cons_unit_of_mem VO2_4 VO2_4.junk (k2_off1_inb i) _ _ (ix3 z r e) (ix3 z r' e : S1x2048x32.Idx) hoff (fun a => by
    match a with
    | ⟨0, _⟩ => show z.val = 0 + z.val; omega
    | ⟨1, _⟩ => show r.val = o + r'.val; exact hr
    | ⟨2, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k2_pay5_apply]
  refine (congrArg (· + _) ?_).trans (zero_add _)
  exact (View.read_writes_cons_unit_of_mem _ _ inb_S1x16384x32_S1x16384x32_0_0_0 _ [] _ _ rfl (fun a => by
      match a with
      | ⟨0, _⟩ => exact (Nat.zero_add _).symm
      | ⟨1, _⟩ => exact (Nat.zero_add _).symm
      | ⟨2, _⟩ => exact (Nat.zero_add _).symm)).trans (k2_pay2_apply _)

/-- Case A, the i_next partial off those rows: zero. -/
theorem out2_A_4_out (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : condIJ2 i) (x0 : Vec Ideal S512x2048 .bf16) (x1 : Vec Ideal S512x32 .f32) (x2 : Vec Ideal S2048x32 .f32)
    (o : ℕ) (hoff : k2_off1 i = ![0, o, 0]) (z : Fin 1) (r : Fin 16384) (e : Fin 32) (hr : r.val < o ∨ o + 2048 ≤ r.val) :
    out2_A_4 c i arg3 harg3 arg4 harg4 arg5 harg5 arg6 harg6 arg7 harg7 hc0 hc1 x0 x1 x2 (ix3 z r e) = 0 := by
  unfold out2_A_4 kernelRun2_A
  dsimp only
  sl_unfold_words
  refine (View.read_writes_cons_unit_of_not_mem VO2_4 VO2_4.junk (k2_off1_inb i) _ _ (ix3 z r e) hoff 1 hr).trans ?_
  exact (View.read_writes_cons_unit_of_mem _ _ inb_S1x16384x32_S1x16384x32_0_0_0 _ [] _ _ rfl (fun a => by
      match a with
      | ⟨0, _⟩ => exact (Nat.zero_add _).symm
      | ⟨1, _⟩ => exact (Nat.zero_add _).symm
      | ⟨2, _⟩ => exact (Nat.zero_add _).symm)).trans (k2_pay2_apply _)

/-- Case B, the i_next partial on the rows of the point's column tile: what it held plus the transposed tile product. -/
theorem out2_B_4_in (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : ¬condIJ2 i) (x0 : Vec Ideal S512x2048 .bf16) (x1 : Vec Ideal S512x32 .f32) (x2 : Vec Ideal S2048x32 .f32) (f4 : arg7.view.ty.Contents (Elt Ideal))
    (o : ℕ) (hoff : k2_off1 i = ![0, o, 0]) (z : Fin 1) (r : Fin 16384) (e : Fin 32) (r' : Fin 2048) (hr : r.val = o + r'.val) :
    out2_B_4 c i arg3 harg3 arg4 harg4 arg5 harg5 arg6 harg6 arg7 harg7 hc0 hc1 x0 x1 x2 f4 (ix3 z r e)
      = arg7.view.read (Elt Ideal) f4 (ix3 z r e) + ∑ p : Fin 512, x0 (ix2 p r') * x1 (ix2 p e) := by
  unfold out2_B_4 kernelRun2_B
  dsimp only
  sl_unfold_words
  refine (View.read_writes_cons_unit_of_mem arg7.view f4 (k2_off1_inb i) _ [] (ix3 z r e) (ix3 z r' e : S1x2048x32.Idx) hoff (fun a => by
    match a with
    | ⟨0, _⟩ => show z.val = 0 + z.val; omega
    | ⟨1, _⟩ => show r.val = o + r'.val; exact hr
    | ⟨2, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k2_pay5_apply]
  refine congrArg (· + _) ?_
  show arg7.view.read (Elt Ideal) f4 ((Rect.unit (s := S1x16384x32) (k2_off1 i) S1x2048x32.size (k2_off1_inb i)).idx (ix3 z r' e)) = _
  refine congrArg (arg7.view.read (Elt Ideal) f4) ?_
  funext a
  apply Fin.ext
  show k2_off1 i a + 1 * ((ix3 z r' e : S1x2048x32.Idx) a).val = ((ix3 z r e : S1x16384x32.Idx) a).val
  rw [hoff]
  match a with
  | ⟨0, _⟩ => show 0 + 1 * z.val = z.val; omega
  | ⟨1, _⟩ => show o + 1 * r'.val = r.val; omega
  | ⟨2, _⟩ => show 0 + 1 * e.val = e.val; omega

/-- Case B, the i_next partial off those rows: what it held. -/
theorem out2_B_4_out (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : condJ2 i) (hc1 : ¬condIJ2 i) (x0 : Vec Ideal S512x2048 .bf16) (x1 : Vec Ideal S512x32 .f32) (x2 : Vec Ideal S2048x32 .f32) (f4 : arg7.view.ty.Contents (Elt Ideal))
    (o : ℕ) (hoff : k2_off1 i = ![0, o, 0]) (z : Fin 1) (r : Fin 16384) (e : Fin 32) (hr : r.val < o ∨ o + 2048 ≤ r.val) :
    out2_B_4 c i arg3 harg3 arg4 harg4 arg5 harg5 arg6 harg6 arg7 harg7 hc0 hc1 x0 x1 x2 f4 (ix3 z r e) = arg7.view.read (Elt Ideal) f4 (ix3 z r e) := by
  unfold out2_B_4 kernelRun2_B
  dsimp only
  sl_unfold_words
  exact View.read_writes_cons_unit_of_not_mem arg7.view f4 (k2_off1_inb i) _ [] (ix3 z r e) hoff 1 hr

/-- Case C, the i_next partial on the rows of the point's column tile: what it held plus the transposed tile product. -/
theorem out2_C_4_in (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ2 i) (hc1 : ¬condIJ2 i) (x0 : Vec Ideal S512x2048 .bf16) (x1 : Vec Ideal S512x32 .f32) (x2 : Vec Ideal S2048x32 .f32) (f3 : arg6.view.ty.Contents (Elt Ideal)) (f4 : arg7.view.ty.Contents (Elt Ideal))
    (o : ℕ) (hoff : k2_off1 i = ![0, o, 0]) (z : Fin 1) (r : Fin 16384) (e : Fin 32) (r' : Fin 2048) (hr : r.val = o + r'.val) :
    out2_C_4 c i arg3 harg3 arg4 harg4 arg5 harg5 arg6 harg6 arg7 harg7 hc0 hc1 x0 x1 x2 f3 f4 (ix3 z r e)
      = arg7.view.read (Elt Ideal) f4 (ix3 z r e) + ∑ p : Fin 512, x0 (ix2 p r') * x1 (ix2 p e) := by
  unfold out2_C_4 kernelRun2_C
  dsimp only
  sl_unfold_words
  refine (View.read_writes_cons_unit_of_mem arg7.view f4 (k2_off1_inb i) _ [] (ix3 z r e) (ix3 z r' e : S1x2048x32.Idx) hoff (fun a => by
    match a with
    | ⟨0, _⟩ => show z.val = 0 + z.val; omega
    | ⟨1, _⟩ => show r.val = o + r'.val; exact hr
    | ⟨2, _⟩ => show e.val = 0 + e.val; omega)).trans ?_
  simp only [View.readAt_eq_ld, harg3.read_unread, harg4.read_unread, harg5.read_unread, View.ld_unit_zero (S := S512x2048) hz2, View.ld_unit_zero (S := S2048x32) hz2, View.ld_unit_zero (S := S512x32) hz2]
  rw [k2_pay5_apply]
  refine congrArg (· + _) ?_
  show arg7.view.read (Elt Ideal) f4 ((Rect.unit (s := S1x16384x32) (k2_off1 i) S1x2048x32.size (k2_off1_inb i)).idx (ix3 z r' e)) = _
  refine congrArg (arg7.view.read (Elt Ideal) f4) ?_
  funext a
  apply Fin.ext
  show k2_off1 i a + 1 * ((ix3 z r' e : S1x2048x32.Idx) a).val = ((ix3 z r e : S1x16384x32.Idx) a).val
  rw [hoff]
  match a with
  | ⟨0, _⟩ => show 0 + 1 * z.val = z.val; omega
  | ⟨1, _⟩ => show o + 1 * r'.val = r.val; omega
  | ⟨2, _⟩ => show 0 + 1 * e.val = e.val; omega

/-- Case C, the i_next partial off those rows: what it held. -/
theorem out2_C_4_out (c : Dev nD) (i : grid2.Coords)
    (arg3 : Memref sig .tc .vmem S512x2048 .bf16) (harg3 : arg3.IsWhole) (arg4 : Memref sig .tc .vmem S512x32 .f32) (harg4 : arg4.IsWhole)
    (arg5 : Memref sig .tc .vmem S2048x32 .f32) (harg5 : arg5.IsWhole) (arg6 : Memref sig .tc .vmem S512x32 .f32) (harg6 : arg6.IsWhole)
    (arg7 : Memref sig .tc .vmem S1x16384x32 .f32) (harg7 : arg7.IsWhole) (hc0 : ¬condJ2 i) (hc1 : ¬condIJ2 i) (x0 : Vec Ideal S512x2048 .bf16) (x1 : Vec Ideal S512x32 .f32) (x2 : Vec Ideal S2048x32 .f32) (f3 : arg6.view.ty.Contents (Elt Ideal)) (f4 : arg7.view.ty.Contents (Elt Ideal))
    (o : ℕ) (hoff : k2_off1 i = ![0, o, 0]) (z : Fin 1) (r : Fin 16384) (e : Fin 32) (hr : r.val < o ∨ o + 2048 ≤ r.val) :
    out2_C_4 c i arg3 harg3 arg4 harg4 arg5 harg5 arg6 harg6 arg7 harg7 hc0 hc1 x0 x1 x2 f3 f4 (ix3 z r e) = arg7.view.read (Elt Ideal) f4 (ix3 z r e) := by
  unfold out2_C_4 kernelRun2_C
  dsimp only
  sl_unfold_words
  exact View.read_writes_cons_unit_of_not_mem arg7.view f4 (k2_off1_inb i) _ [] (ix3 z r e) hoff 1 hr

end Cert.KernelIdeal.Hand

end
-- ==== Proof.ValBlocks2.lean ====
/-
  Round 2: the tiles the grid points see, at natural-number coordinates. Point t = 64·c + 8·i + j reads the adjacency's
  rows 512·(t/8) … and columns 2048·(t%8) …, u_k's rows 512·(t/8) …, i_k's rows 2048·(t%8) …; the body's slice of the
  i_next partial starts at row 2048·(t%8).
-/
import proofs.«153668_j35003983462547_2_alg».proof.Proof.R2Data
import proofs.«153668_j35003983462547_2_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

/-! The windows' block indices over the grid, decided. -/
theorem idx2_0_0 : ∀ t : Fin cfg2.N, win2_0.index t (0 : Fin 2) = t.val / 8 := (by decide +kernel : ∀ t : Fin grid2.N, win2_0.index t (0 : Fin 2) = t.val / 8)
theorem idx2_0_1 : ∀ t : Fin cfg2.N, win2_0.index t (1 : Fin 2) = t.val % 8 := (by decide +kernel : ∀ t : Fin grid2.N, win2_0.index t (1 : Fin 2) = t.val % 8)
theorem idx2_1_0 : ∀ t : Fin cfg2.N, win2_1.index t (0 : Fin 2) = t.val / 8 := (by decide +kernel : ∀ t : Fin grid2.N, win2_1.index t (0 : Fin 2) = t.val / 8)
theorem idx2_1_1 : ∀ t : Fin cfg2.N, win2_1.index t (1 : Fin 2) = 0 := (by decide +kernel : ∀ t : Fin grid2.N, win2_1.index t (1 : Fin 2) = 0)
theorem idx2_2_0 : ∀ t : Fin cfg2.N, win2_2.index t (0 : Fin 2) = t.val % 8 := (by decide +kernel : ∀ t : Fin grid2.N, win2_2.index t (0 : Fin 2) = t.val % 8)
theorem idx2_2_1 : ∀ t : Fin cfg2.N, win2_2.index t (1 : Fin 2) = 0 := (by decide +kernel : ∀ t : Fin grid2.N, win2_2.index t (1 : Fin 2) = 0)
theorem idx2_3_0 : ∀ t : Fin cfg2.N, win2_3.index t (0 : Fin 2) = t.val / 8 := (by decide +kernel : ∀ t : Fin grid2.N, win2_3.index t (0 : Fin 2) = t.val / 8)
theorem idx2_3_1 : ∀ t : Fin cfg2.N, win2_3.index t (1 : Fin 2) = 0 := (by decide +kernel : ∀ t : Fin grid2.N, win2_3.index t (1 : Fin 2) = 0)
theorem idx2_4_0 : ∀ t : Fin cfg2.N, win2_4.index t (0 : Fin 3) = t.val / 64 := (by decide +kernel : ∀ t : Fin grid2.N, win2_4.index t (0 : Fin 3) = t.val / 64)
theorem idx2_4_1 : ∀ t : Fin cfg2.N, win2_4.index t (1 : Fin 3) = 0 := (by decide +kernel : ∀ t : Fin grid2.N, win2_4.index t (1 : Fin 3) = 0)
theorem idx2_4_2 : ∀ t : Fin cfg2.N, win2_4.index t (2 : Fin 3) = 0 := (by decide +kernel : ∀ t : Fin grid2.N, win2_4.index t (2 : Fin 3) = 0)
/-- The body's slice of the i_next partial starts at row 2048·(t%8). -/
theorem koff2_0 : ∀ t : Fin cfg2.N, k2_off1 (grid2.coords t) (0 : Fin 3) = 0 := (by decide +kernel : ∀ t : Fin grid2.N, k2_off1 (grid2.coords t) (0 : Fin 3) = 0)
theorem koff2_1 : ∀ t : Fin cfg2.N, k2_off1 (grid2.coords t) (1 : Fin 3) = 2048 * (t.val % 8) := (by decide +kernel : ∀ t : Fin grid2.N, k2_off1 (grid2.coords t) (1 : Fin 3) = 2048 * (t.val % 8))
theorem koff2_2 : ∀ t : Fin cfg2.N, k2_off1 (grid2.coords t) (2 : Fin 3) = 0 := (by decide +kernel : ∀ t : Fin grid2.N, k2_off1 (grid2.coords t) (2 : Fin 3) = 0)

theorem koff2 (t : Fin cfg2.N) : k2_off1 (grid2.coords t) = ![0, 2048 * (t.val % 8), 0] := by
  funext a
  match a with
  | ⟨0, _⟩ => exact koff2_0 t
  | ⟨1, _⟩ => exact koff2_1 t
  | ⟨2, _⟩ => exact koff2_2 t

variable (V : (c : Dev nD) → (b : Ref sig .tc) → Buf (Elt Ideal) ((c : Thread nD τ).loc b))

/-- The adjacency tile at point t. -/
theorem iblk2_0_apply (c : Dev nD) (t : Fin cfg2.N) (p : Fin 512) (k : Fin 2048) :
    iblk2 V c 0 t (ix2 p k) = at2 (V c main_v0_2) (512 * (t.val / 8) + p.val) (2048 * (t.val % 8) + k.val) := by
  have hN : t.val < 128 := lt_of_lt_of_eq t.isLt (show cfg2.N = 128 from N_2)
  rw [at2_eq _ _ _ (by omega) (by omega)]
  unfold iblk2
  show V c main_v0_2 (((cfg2.win 0).blk t).view.emb (ix2 p k)) = _
  refine congrArg (V c main_v0_2) ?_
  funext a
  apply Fin.ext
  match a with
  | ⟨0, _⟩ =>
    show win2_0.index t 0 * 512 + 1 * p.val = 512 * (t.val / 8) + p.val
    rw [idx2_0_0]; omega
  | ⟨1, _⟩ =>
    show win2_0.index t 1 * 2048 + 1 * k.val = 2048 * (t.val % 8) + k.val
    rw [idx2_0_1]; omega

/-- u_k's row tile at point t. -/
theorem iblk2_1_apply (c : Dev nD) (t : Fin cfg2.N) (p : Fin 512) (e : Fin 32) :
    iblk2 V c 1 t (ix2 p e) = at2 (V c main_v8_0) (512 * (t.val / 8) + p.val) e.val := by
  have hN : t.val < 128 := lt_of_lt_of_eq t.isLt (show cfg2.N = 128 from N_2)
  rw [at2_eq _ _ _ (by omega) e.isLt]
  unfold iblk2
  show V c main_v8_0 (((cfg2.win 1).blk t).view.emb (ix2 p e)) = _
  refine congrArg (V c main_v8_0) ?_
  funext a
  apply Fin.ext
  match a with
  | ⟨0, _⟩ =>
    show win2_1.index t 0 * 512 + 1 * p.val = 512 * (t.val / 8) + p.val
    rw [idx2_1_0]; omega
  | ⟨1, _⟩ =>
    show win2_1.index t 1 * 32 + 1 * e.val = e.val
    rw [idx2_1_1]; omega

/-- i_k's column tile at point t. -/
theorem iblk2_2_apply (c : Dev nD) (t : Fin cfg2.N) (k : Fin 2048) (e : Fin 32) :
    iblk2 V c 2 t (ix2 k e) = at2 (V c main_v13) (2048 * (t.val % 8) + k.val) e.val := by
  have hN : t.val < 128 := lt_of_lt_of_eq t.isLt (show cfg2.N = 128 from N_2)
  rw [at2_eq _ _ _ (by omega) e.isLt]
  unfold iblk2
  show V c main_v13 (((cfg2.win 2).blk t).view.emb (ix2 k e)) = _
  refine congrArg (V c main_v13) ?_
  funext a
  apply Fin.ext
  match a with
  | ⟨0, _⟩ =>
    show win2_2.index t 0 * 2048 + 1 * k.val = 2048 * (t.val % 8) + k.val
    rw [idx2_2_0]; omega
  | ⟨1, _⟩ =>
    show win2_2.index t 1 * 32 + 1 * e.val = e.val
    rw [idx2_2_1]; omega

end Cert.KernelIdeal.Hand

end
-- ==== Proof.ValAcc2.lean ====
/-
  Round 2: what the two accumulators hold after each grid point, in closed form, by induction on the point.
  After point t the row-tile accumulator holds the tile products of column tiles 0 … t%8 of row tile t/8; the core's
  partial of i_next holds, on the rows of column tile s, the transposed tile products of the first `cnt (t%64) s` row
  tiles of core t/64.
-/
import proofs.«153668_j35003983462547_2_alg».proof.Proof.ValOuts2
import proofs.«153668_j35003983462547_2_alg».proof.Proof.ValBlocks2
import proofs.«153668_j35003983462547_2_alg».proof.Proof.ValSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

variable (V : (c : Dev nD) → (b : Ref sig .tc) → Buf (Elt Ideal) ((c : Thread nD τ).loc b))

theorem prevAt2_pos (c : Dev nD) (t : ℕ) (h : t < cfg2.N) (h0 : t ≠ 0) :
    prevAt2 V c ⟨t, h⟩ = outsAt2 V c (t - 1) (Nat.lt_of_le_of_lt (Nat.sub_le _ _) h) := by
  unfold prevAt2; rw [dif_neg (show ¬(⟨t, h⟩ : Fin cfg2.N).val = 0 from h0)]

/-- The row-tile accumulator after point t. -/
theorem acc2_3 (c : Dev nD) : ∀ (t : ℕ) (h : t < cfg2.N) (p : Fin 512) (e : Fin 32),
    (outsAt2 V c t h).1 (ix2 p e) = ∑ j ∈ Finset.range (t % 8 + 1), T3 (V c main_v0_2) (V c main_v13) (t / 8) j p.val e.val := by
  intro t
  induction t using Nat.strong_induction_on with
  | _ t ih =>
    intro h p e
    by_cases h8 : t % 8 = 0
    · have hfin : T3 (V c main_v0_2) (V c main_v13) (t / 8) (t % 8) p.val e.val
          = ∑ j ∈ Finset.range (t % 8 + 1), T3 (V c main_v0_2) (V c main_v13) (t / 8) j p.val e.val := by
        rw [h8, Finset.sum_range_one]
      by_cases h64 : t % 64 = 0
      · have e1 := outsAt2_A V c ⟨t, h⟩ h64
        change outsAt2 V c t h = _ at e1
        rw [e1]; dsimp only
        rw [out2_A_3_apply c (grid2.coords ⟨t, h⟩) (ms2_0 ⟨t, h⟩) (hs2_0 ⟨t, h⟩) (ms2_1 ⟨t, h⟩) (hs2_1 ⟨t, h⟩) (ms2_2 ⟨t, h⟩) (hs2_2 ⟨t, h⟩) (ms2_3 ⟨t, h⟩) (hs2_3 ⟨t, h⟩) (ms2_4 ⟨t, h⟩) (hs2_4 ⟨t, h⟩) ((hcondJ2 ⟨t, h⟩).mpr (by show t % 8 = 0; omega)) ((hcondIJ2 ⟨t, h⟩).mpr h64) (iblk2 V c 0 ⟨t, h⟩) (iblk2 V c 1 ⟨t, h⟩) (iblk2 V c 2 ⟨t, h⟩) p e, sum3_eq (φ := .bf16) (iblk2 V c 0 ⟨t, h⟩) (iblk2 V c 2 ⟨t, h⟩) (V c main_v0_2) (V c main_v13) (t / 8) (t % 8) (fun p k => iblk2_0_apply V c ⟨t, h⟩ p k) (fun k e => iblk2_2_apply V c ⟨t, h⟩ k e) p e]
        exact hfin
      · have e1 := outsAt2_B V c ⟨t, h⟩ h64 h8
        change outsAt2 V c t h = _ at e1
        rw [e1]; dsimp only
        rw [out2_B_3_apply c (grid2.coords ⟨t, h⟩) (ms2_0 ⟨t, h⟩) (hs2_0 ⟨t, h⟩) (ms2_1 ⟨t, h⟩) (hs2_1 ⟨t, h⟩) (ms2_2 ⟨t, h⟩) (hs2_2 ⟨t, h⟩) (ms2_3 ⟨t, h⟩) (hs2_3 ⟨t, h⟩) (ms2_4 ⟨t, h⟩) (hs2_4 ⟨t, h⟩) ((hcondJ2 ⟨t, h⟩).mpr h8) (fun hh => h64 ((hcondIJ2 ⟨t, h⟩).mp hh)) (iblk2 V c 0 ⟨t, h⟩) (iblk2 V c 1 ⟨t, h⟩) (iblk2 V c 2 ⟨t, h⟩) ((hs2_4 ⟨t, h⟩).unread (prevAt2 V c ⟨t, h⟩).2) p e, sum3_eq (φ := .bf16) (iblk2 V c 0 ⟨t, h⟩) (iblk2 V c 2 ⟨t, h⟩) (V c main_v0_2) (V c main_v13) (t / 8) (t % 8) (fun p k => iblk2_0_apply V c ⟨t, h⟩ p k) (fun k e => iblk2_2_apply V c ⟨t, h⟩ k e) p e]
        exact hfin
    · have h64 : ¬t % 64 = 0 := fun hh => h8 (by omega)
      have h0 : t ≠ 0 := fun hh => h8 (by rw [hh])
      have e1 := outsAt2_C V c ⟨t, h⟩ h64 h8
      change outsAt2 V c t h = _ at e1
      rw [e1]; dsimp only
      rw [out2_C_3_apply c (grid2.coords ⟨t, h⟩) (ms2_0 ⟨t, h⟩) (hs2_0 ⟨t, h⟩) (ms2_1 ⟨t, h⟩) (hs2_1 ⟨t, h⟩) (ms2_2 ⟨t, h⟩) (hs2_2 ⟨t, h⟩) (ms2_3 ⟨t, h⟩) (hs2_3 ⟨t, h⟩) (ms2_4 ⟨t, h⟩) (hs2_4 ⟨t, h⟩) (fun hh => h8 ((hcondJ2 ⟨t, h⟩).mp hh)) (fun hh => h64 ((hcondIJ2 ⟨t, h⟩).mp hh)) (iblk2 V c 0 ⟨t, h⟩) (iblk2 V c 1 ⟨t, h⟩) (iblk2 V c 2 ⟨t, h⟩) ((hs2_3 ⟨t, h⟩).unread (prevAt2 V c ⟨t, h⟩).1) ((hs2_4 ⟨t, h⟩).unread (prevAt2 V c ⟨t, h⟩).2) p e, sum3_eq (φ := .bf16) (iblk2 V c 0 ⟨t, h⟩) (iblk2 V c 2 ⟨t, h⟩) (V c main_v0_2) (V c main_v13) (t / 8) (t % 8) (fun p k => iblk2_0_apply V c ⟨t, h⟩ p k) (fun k e => iblk2_2_apply V c ⟨t, h⟩ k e) p e]
      rw [(hs2_3 ⟨t, h⟩).read_unread, prevAt2_pos V c t h h0, ih (t - 1) (by omega) _ p e]
      rw [show (t - 1) % 8 + 1 = t % 8 from by omega, show (t - 1) / 8 = t / 8 from by omega, Finset.sum_range_succ]

/-- The core's partial of i_next after point t. -/
theorem acc2_4 (c : Dev nD) : ∀ (t : ℕ) (h : t < cfg2.N) (z : Fin 1) (r : Fin 16384) (e : Fin 32),
    (outsAt2 V c t h).2 (ix3 z r e)
      = ∑ i' ∈ Finset.range (cnt (t % 64) (r.val / 2048)), T4 (V c main_v0_2) (V c main_v8_0) (8 * (t / 64) + i') r.val e.val := by
  intro t
  induction t using Nat.strong_induction_on with
  | _ t ih =>
    intro h z r e
    have hN : t < 128 := lt_of_lt_of_eq h (show cfg2.N = 128 from N_2)
    have hs : r.val / 2048 < 8 := by have := r.isLt; omega
    by_cases h64 : t % 64 = 0
    · have e1 := outsAt2_A V c ⟨t, h⟩ h64
      change outsAt2 V c t h = _ at e1
      rw [e1]; dsimp only
      have hc0 : cnt (t % 64) (r.val / 2048) = if r.val / 2048 = 0 then 1 else 0 := by rw [h64]; exact cnt_zero _ hs
      rw [hc0]
      by_cases hin : r.val / 2048 = t % 8
      · have hr : r.val = 2048 * (t % 8) + (r.val - 2048 * (t % 8)) := by omega
        rw [out2_A_4_in c (grid2.coords ⟨t, h⟩) (ms2_0 ⟨t, h⟩) (hs2_0 ⟨t, h⟩) (ms2_1 ⟨t, h⟩) (hs2_1 ⟨t, h⟩) (ms2_2 ⟨t, h⟩) (hs2_2 ⟨t, h⟩) (ms2_3 ⟨t, h⟩) (hs2_3 ⟨t, h⟩) (ms2_4 ⟨t, h⟩) (hs2_4 ⟨t, h⟩) ((hcondJ2 ⟨t, h⟩).mpr (by show t % 8 = 0; omega)) ((hcondIJ2 ⟨t, h⟩).mpr h64) (iblk2 V c 0 ⟨t, h⟩) (iblk2 V c 1 ⟨t, h⟩) (iblk2 V c 2 ⟨t, h⟩) (2048 * (t % 8)) (koff2 ⟨t, h⟩) z r e ⟨r.val - 2048 * (t % 8), by omega⟩ hr]
        rw [sum4_eq (φ := .bf16) (iblk2 V c 0 ⟨t, h⟩) (iblk2 V c 1 ⟨t, h⟩) (V c main_v0_2) (V c main_v8_0) (t / 8) r.val ⟨r.val - 2048 * (t % 8), by omega⟩ e (fun p => by rw [iblk2_0_apply V c ⟨t, h⟩ p ⟨r.val - 2048 * (t % 8), by omega⟩]; show at2 _ _ (2048 * (t % 8) + (r.val - 2048 * (t % 8))) = _; rw [← hr]) (fun p => iblk2_1_apply V c ⟨t, h⟩ p e)]
        rw [if_pos (by omega), Finset.sum_range_one]
        rw [show t / 8 = 8 * (t / 64) + 0 from by omega]
      · rw [out2_A_4_out c (grid2.coords ⟨t, h⟩) (ms2_0 ⟨t, h⟩) (hs2_0 ⟨t, h⟩) (ms2_1 ⟨t, h⟩) (hs2_1 ⟨t, h⟩) (ms2_2 ⟨t, h⟩) (hs2_2 ⟨t, h⟩) (ms2_3 ⟨t, h⟩) (hs2_3 ⟨t, h⟩) (ms2_4 ⟨t, h⟩) (hs2_4 ⟨t, h⟩) ((hcondJ2 ⟨t, h⟩).mpr (by show t % 8 = 0; omega)) ((hcondIJ2 ⟨t, h⟩).mpr h64) (iblk2 V c 0 ⟨t, h⟩) (iblk2 V c 1 ⟨t, h⟩) (iblk2 V c 2 ⟨t, h⟩) (2048 * (t % 8)) (koff2 ⟨t, h⟩) z r e (by omega)]
        rw [if_neg (by omega), Finset.sum_range_zero]
    · have h0 : t ≠ 0 := fun hh => h64 (by rw [hh])
      have hm : t % 64 ≠ 0 := h64
      have hprev : (prevAt2 V c ⟨t, h⟩).2 (ix3 z r e)
          = ∑ i' ∈ Finset.range (cnt (t % 64 - 1) (r.val / 2048)), T4 (V c main_v0_2) (V c main_v8_0) (8 * (t / 64) + i') r.val e.val := by
        rw [prevAt2_pos V c t h h0, ih (t - 1) (by omega) _ z r e]
        rw [show (t - 1) % 64 = t % 64 - 1 from by omega, show (t - 1) / 64 = t / 64 from by omega]
      rw [cnt_succ _ _ hs hm]
      by_cases h8 : t % 8 = 0
      · have e1 := outsAt2_B V c ⟨t, h⟩ h64 h8
        change outsAt2 V c t h = _ at e1
        rw [e1]; dsimp only
        by_cases hin : r.val / 2048 = t % 8
        · have hr : r.val = 2048 * (t % 8) + (r.val - 2048 * (t % 8)) := by omega
          rw [out2_B_4_in c (grid2.coords ⟨t, h⟩) (ms2_0 ⟨t, h⟩) (hs2_0 ⟨t, h⟩) (ms2_1 ⟨t, h⟩) (hs2_1 ⟨t, h⟩) (ms2_2 ⟨t, h⟩) (hs2_2 ⟨t, h⟩) (ms2_3 ⟨t, h⟩) (hs2_3 ⟨t, h⟩) (ms2_4 ⟨t, h⟩) (hs2_4 ⟨t, h⟩) ((hcondJ2 ⟨t, h⟩).mpr h8) (fun hh => h64 ((hcondIJ2 ⟨t, h⟩).mp hh)) (iblk2 V c 0 ⟨t, h⟩) (iblk2 V c 1 ⟨t, h⟩) (iblk2 V c 2 ⟨t, h⟩) ((hs2_4 ⟨t, h⟩).unread (prevAt2 V c ⟨t, h⟩).2) (2048 * (t % 8)) (koff2 ⟨t, h⟩) z r e ⟨r.val - 2048 * (t % 8), by omega⟩ hr]
          rw [sum4_eq (φ := .bf16) (iblk2 V c 0 ⟨t, h⟩) (iblk2 V c 1 ⟨t, h⟩) (V c main_v0_2) (V c main_v8_0) (t / 8) r.val ⟨r.val - 2048 * (t % 8), by omega⟩ e (fun p => by rw [iblk2_0_apply V c ⟨t, h⟩ p ⟨r.val - 2048 * (t % 8), by omega⟩]; show at2 _ _ (2048 * (t % 8) + (r.val - 2048 * (t % 8))) = _; rw [← hr]) (fun p => iblk2_1_apply V c ⟨t, h⟩ p e)]
          rw [(hs2_4 ⟨t, h⟩).read_unread, hprev, if_pos (by omega), Finset.sum_range_succ]
          rw [cnt_pred_eq _ _ hs hm (by omega), show t / 8 = 8 * (t / 64) + t % 64 / 8 from by omega]
        · rw [out2_B_4_out c (grid2.coords ⟨t, h⟩) (ms2_0 ⟨t, h⟩) (hs2_0 ⟨t, h⟩) (ms2_1 ⟨t, h⟩) (hs2_1 ⟨t, h⟩) (ms2_2 ⟨t, h⟩) (hs2_2 ⟨t, h⟩) (ms2_3 ⟨t, h⟩) (hs2_3 ⟨t, h⟩) (ms2_4 ⟨t, h⟩) (hs2_4 ⟨t, h⟩) ((hcondJ2 ⟨t, h⟩).mpr h8) (fun hh => h64 ((hcondIJ2 ⟨t, h⟩).mp hh)) (iblk2 V c 0 ⟨t, h⟩) (iblk2 V c 1 ⟨t, h⟩) (iblk2 V c 2 ⟨t, h⟩) ((hs2_4 ⟨t, h⟩).unread (prevAt2 V c ⟨t, h⟩).2) (2048 * (t % 8)) (koff2 ⟨t, h⟩) z r e (by omega)]
          rw [(hs2_4 ⟨t, h⟩).read_unread, hprev, if_neg (by omega), Nat.add_zero]
      · have e1 := outsAt2_C V c ⟨t, h⟩ h64 h8
        change outsAt2 V c t h = _ at e1
        rw [e1]; dsimp only
        by_cases hin : r.val / 2048 = t % 8
        · have hr : r.val = 2048 * (t % 8) + (r.val - 2048 * (t % 8)) := by omega
          rw [out2_C_4_in c (grid2.coords ⟨t, h⟩) (ms2_0 ⟨t, h⟩) (hs2_0 ⟨t, h⟩) (ms2_1 ⟨t, h⟩) (hs2_1 ⟨t, h⟩) (ms2_2 ⟨t, h⟩) (hs2_2 ⟨t, h⟩) (ms2_3 ⟨t, h⟩) (hs2_3 ⟨t, h⟩) (ms2_4 ⟨t, h⟩) (hs2_4 ⟨t, h⟩) (fun hh => h8 ((hcondJ2 ⟨t, h⟩).mp hh)) (fun hh => h64 ((hcondIJ2 ⟨t, h⟩).mp hh)) (iblk2 V c 0 ⟨t, h⟩) (iblk2 V c 1 ⟨t, h⟩) (iblk2 V c 2 ⟨t, h⟩) ((hs2_3 ⟨t, h⟩).unread (prevAt2 V c ⟨t, h⟩).1) ((hs2_4 ⟨t, h⟩).unread (prevAt2 V c ⟨t, h⟩).2) (2048 * (t % 8)) (koff2 ⟨t, h⟩) z r e ⟨r.val - 2048 * (t % 8), by omega⟩ hr]
          rw [sum4_eq (φ := .bf16) (iblk2 V c 0 ⟨t, h⟩) (iblk2 V c 1 ⟨t, h⟩) (V c main_v0_2) (V c main_v8_0) (t / 8) r.val ⟨r.val - 2048 * (t % 8), by omega⟩ e (fun p => by rw [iblk2_0_apply V c ⟨t, h⟩ p ⟨r.val - 2048 * (t % 8), by omega⟩]; show at2 _ _ (2048 * (t % 8) + (r.val - 2048 * (t % 8))) = _; rw [← hr]) (fun p => iblk2_1_apply V c ⟨t, h⟩ p e)]
          rw [(hs2_4 ⟨t, h⟩).read_unread, hprev, if_pos (by omega), Finset.sum_range_succ]
          rw [cnt_pred_eq _ _ hs hm (by omega), show t / 8 = 8 * (t / 64) + t % 64 / 8 from by omega]
        · rw [out2_C_4_out c (grid2.coords ⟨t, h⟩) (ms2_0 ⟨t, h⟩) (hs2_0 ⟨t, h⟩) (ms2_1 ⟨t, h⟩) (hs2_1 ⟨t, h⟩) (ms2_2 ⟨t, h⟩) (hs2_2 ⟨t, h⟩) (ms2_3 ⟨t, h⟩) (hs2_3 ⟨t, h⟩) (ms2_4 ⟨t, h⟩) (hs2_4 ⟨t, h⟩) (fun hh => h8 ((hcondJ2 ⟨t, h⟩).mp hh)) (fun hh => h64 ((hcondIJ2 ⟨t, h⟩).mp hh)) (iblk2 V c 0 ⟨t, h⟩) (iblk2 V c 1 ⟨t, h⟩) (iblk2 V c 2 ⟨t, h⟩) ((hs2_3 ⟨t, h⟩).unread (prevAt2 V c ⟨t, h⟩).1) ((hs2_4 ⟨t, h⟩).unread (prevAt2 V c ⟨t, h⟩).2) (2048 * (t % 8)) (koff2 ⟨t, h⟩) z r e (by omega)]
          rw [(hs2_4 ⟨t, h⟩).read_unread, hprev, if_neg (by omega), Nat.add_zero]

end Cert.KernelIdeal.Hand

end
-- ==== Proof.ValArr2.lean ====
/-
  Round 2: the output arrays after the region. Each write-back of the row-tile accumulator (after the last column tile)
  carries the whole row of products, so u_next ends as `Amul A i_k`; each core's write-back of its partial (after its last
  point) carries its eight row tiles' transposed products, so the two partials are the two halves of `ATmul A u_k`.
  Every index of an output array lies in the block of some point that writes back.
-/
import proofs.«153668_j35003983462547_2_alg».proof.Proof.ValAcc2
import proofs.«153668_j35003983462547_2_alg».proof.Proof.Spec
import proofs.«153668_j35003983462547_2_alg».proof.Proof.ValArr0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## u_next -/

theorem flushed2_3_eq (c : Dev nD) (t : Fin cfg2.N) (hf : (cfg2.win 3).flush t = true) :
    (dat2 V c).flushed 3 t = ((cfg2.win 3).blk t).view.read (Elt Ideal) (Amul (V c main_v0_2) (V c main_v13)) := by
  have h7 : t.val % 8 = 7 := (flush2_3 t).mp hf
  show (cfg2.win 3).cut (grid2.coords t) ((dat2 V c).after 3 t) = _
  rw [after2_3]
  funext j
  obtain ⟨p, e, rfl⟩ : ∃ (p : Fin 512) (e : Fin 32), j = ix2 p e := ⟨j 0, j 1, eq_ix2 j⟩
  have keyL : ∀ (Y : Vec Ideal S512x32 .f32), (cfg2.win 3).cut (grid2.coords t) Y (ix2 p e) = Y (ix2 p e) := fun _ => rfl
  have keyR : ∀ (G : (⟨S8192x32, .f32⟩ : BufTy).Contents (Elt Ideal)), ((cfg2.win 3).blk t).view.read (Elt Ideal) G (ix2 p e) = G (((cfg2.win 3).blk t).view.emb (ix2 p e)) := fun _ => rfl
  rw [keyL, keyR, acc2_3 V c t.val t.isLt p e, h7, T3_all]
  unfold Amul
  have h0 : ((((cfg2.win 3).blk t).view.emb (ix2 p e)) 0).val = 512 * (t.val / 8) + p.val := by
    show win2_3.index t 0 * 512 + 1 * p.val = _
    rw [idx2_3_0]; omega
  have h1 : ((((cfg2.win 3).blk t).view.emb (ix2 p e)) 1).val = e.val := by
    show win2_3.index t 1 * 32 + 1 * e.val = _
    rw [idx2_3_1]; omega
  rw [h0, h1]

theorem cover2_3 (i : S8192x32.Idx) : ∃ t : Fin cfg2.N, (cfg2.win 3).flush t = true ∧ i ∈ ((cfg2.win 3).blk t).view.set := by
  have hi0 : (i 0).val < 8192 := (i 0).isLt
  have hi1 : (i 1).val < 32 := (i 1).isLt
  obtain ⟨t, ht⟩ : ∃ t : Fin cfg2.N, t.val = 8 * ((i 0).val / 512) + 7 := ⟨⟨8 * ((i 0).val / 512) + 7, by rw [show cfg2.N = 128 from N_2]; omega⟩, rfl⟩
  refine ⟨t, (flush2_3 t).mpr (by omega), ?_⟩
  show i ∈ ((View.whole main_v16_0).slice (win2_3.rect t)).set
  rw [View.set_slice_whole, Rect.mem_set_unit]
  intro a
  match a with
  | ⟨0, _⟩ =>
    show win2_3.index t (0 : Fin 2) * 512 ≤ (i 0).val ∧ (i 0).val < win2_3.index t (0 : Fin 2) * 512 + 512
    rw [idx2_3_0]; omega
  | ⟨1, _⟩ =>
    show win2_3.index t (1 : Fin 2) * 32 ≤ (i 1).val ∧ (i 1).val < win2_3.index t (1 : Fin 2) * 32 + 32
    rw [idx2_3_1]; omega

/-- u_next after the region. -/
theorem final2_3 (c : Dev nD) : (dat2 V c).arrAt 3 cfg2.N = Amul (V c main_v0_2) (V c main_v13) :=
  (dat2 V c).arrAt_eq_of_cover 3 (Amul (V c main_v0_2) (V c main_v13)) (fun t hf => flushed2_3_eq V c t hf) (cover2_3)

/-! ## the two cores' partials of i_next -/

theorem flushed2_4_eq (c : Dev nD) (t : Fin cfg2.N) (hf : (cfg2.win 4).flush t = true) :
    (dat2 V c).flushed 4 t = ((cfg2.win 4).blk t).view.read (Elt Ideal) (Part (V c main_v0_2) (V c main_v8_0)) := by
  have h63 : t.val % 64 = 63 := (flush2_4 t).mp hf
  show (cfg2.win 4).cut (grid2.coords t) ((dat2 V c).after 4 t) = _
  rw [after2_4]
  funext j
  obtain ⟨z, r, e, rfl⟩ : ∃ (z : Fin 1) (r : Fin 16384) (e : Fin 32), j = ix3 z r e := ⟨j 0, j 1, j 2, eq_ix3 j⟩
  have keyL : ∀ (Y : Vec Ideal S1x16384x32 .f32), (cfg2.win 4).cut (grid2.coords t) Y (ix3 z r e) = Y (ix3 z r e) := fun _ => rfl
  have keyR : ∀ (G : (⟨S2x16384x32, .f32⟩ : BufTy).Contents (Elt Ideal)), ((cfg2.win 4).blk t).view.read (Elt Ideal) G (ix3 z r e) = G (((cfg2.win 4).blk t).view.emb (ix3 z r e)) := fun _ => rfl
  have hs : r.val / 2048 < 8 := by have := r.isLt; omega
  rw [keyL, keyR, acc2_4 V c t.val t.isLt z r e, h63, cnt_last _ hs]
  unfold Part
  have hz : z.val = 0 := by have := z.isLt; omega
  have h0 : ((((cfg2.win 4).blk t).view.emb (ix3 z r e)) 0).val = t.val / 64 := by
    show win2_4.index t 0 * 1 + 1 * z.val = _
    rw [idx2_4_0]; omega
  have h1 : ((((cfg2.win 4).blk t).view.emb (ix3 z r e)) 1).val = r.val := by
    show win2_4.index t 1 * 16384 + 1 * r.val = _
    rw [idx2_4_1]; omega
  have h2 : ((((cfg2.win 4).blk t).view.emb (ix3 z r e)) 2).val = e.val := by
    show win2_4.index t 2 * 32 + 1 * e.val = _
    rw [idx2_4_2]; omega
  rw [h0, h1, h2]

theorem cover2_4 (i : S2x16384x32.Idx) : ∃ t : Fin cfg2.N, (cfg2.win 4).flush t = true ∧ i ∈ ((cfg2.win 4).blk t).view.set := by
  have hi0 : (i 0).val < 2 := (i 0).isLt
  have hi1 : (i 1).val < 16384 := (i 1).isLt
  have hi2 : (i 2).val < 32 := (i 2).isLt
  obtain ⟨t, ht⟩ : ∃ t : Fin cfg2.N, t.val = 64 * (i 0).val + 63 := ⟨⟨64 * (i 0).val + 63, by rw [show cfg2.N = 128 from N_2]; omega⟩, rfl⟩
  refine ⟨t, (flush2_4 t).mpr (by omega), ?_⟩
  show i ∈ ((View.whole main_v16_1).slice (win2_4.rect t)).set
  rw [View.set_slice_whole, Rect.mem_set_unit]
  intro a
  match a with
  | ⟨0, _⟩ =>
    show win2_4.index t (0 : Fin 3) * 1 ≤ (i 0).val ∧ (i 0).val < win2_4.index t (0 : Fin 3) * 1 + 1
    rw [idx2_4_0]; omega
  | ⟨1, _⟩ =>
    show win2_4.index t (1 : Fin 3) * 16384 ≤ (i 1).val ∧ (i 1).val < win2_4.index t (1 : Fin 3) * 16384 + 16384
    rw [idx2_4_1]; omega
  | ⟨2, _⟩ =>
    show win2_4.index t (2 : Fin 3) * 32 ≤ (i 2).val ∧ (i 2).val < win2_4.index t (2 : Fin 3) * 32 + 32
    rw [idx2_4_2]; omega

/-- The two partials after the region. -/
theorem final2_4 (c : Dev nD) : (dat2 V c).arrAt 4 cfg2.N = Part (V c main_v0_2) (V c main_v8_0) :=
  (dat2 V c).arrAt_eq_of_cover 4 (Part (V c main_v0_2) (V c main_v8_0)) (fun t hf => flushed2_4_eq V c t hf) (cover2_4)

end Cert.KernelIdeal.Hand

end
-- ==== Proof.ValHost.lean ====
/-
  The three rounds chained: the unscoped buffers at each boundary of @main, on the extended reals, in terms of the two
  contractions `Amul` (A·x) and `ATmul` (Aᵀ·x) of the launch arrays.
  Round 0 leaves u₁ = A·i₀, the two partials of i₁ = Aᵀ·u₀ and the bf16 copy of A, which is A. The host adds the two
  partials (the two halves of the contraction over A's rows) and adds the round's results to the running sums. Rounds 1
  and 2 do the same from (A, u₁, i₁) and (A, u₂, i₂). The results are the running sums scaled by 1/4.
-/
import proofs.«153668_j35003983462547_2_alg».proof.Proof.Run
import proofs.«153668_j35003983462547_2_alg».proof.Proof.ValArr0
import proofs.«153668_j35003983462547_2_alg».proof.Proof.ValArr1
import proofs.«153668_j35003983462547_2_alg».proof.Proof.ValArr2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.LinkProp
open Idealize.ShloMosaic Idealize.ShloMosaic.TcCoe Idealize.ShloMosaic.ValueIdx Idealize.SL.Sem

open Idealize.ShloMosaic.StableHlo

/-- The two per-core partials, sliced apart, reshaped and added, are the whole contraction over A's rows. -/
theorem halves_eq (A' : (⟨2, ![8192, 16384]⟩ : Shape).Idx → EReal) (UK : (⟨2, ![8192, 32]⟩ : Shape).Idx → EReal)
    (P : (⟨S2x16384x32, .f32⟩ : BufTy).Contents (Elt Ideal)) (hP : ∀ i, P i = Part A' UK i) (i : S16384x32.Idx) :
    addf (F := Ideal) (s := S16384x32) (φ := .f32)
        (shapeCast S16384x32 (extractStridedSlice S1x16384x32 ![0, 0, 0] P slices_S2x16384x32_S1x16384x32_0_0_0) shapeCasts_S1x16384x32_S16384x32)
        (shapeCast S16384x32 (extractStridedSlice S1x16384x32 ![1, 0, 0] P slices_S2x16384x32_S1x16384x32_1_0_0) shapeCasts_S1x16384x32_S16384x32) i
      = ATmul A' UK i := by
  rw [addf_apply]
  rw [shapeCast_dropUnit_apply ![16384, 32] _ shapeCasts_S1x16384x32_S16384x32 i, shapeCast_dropUnit_apply ![16384, 32] _ shapeCasts_S1x16384x32_S16384x32 i]
  rw [extractStridedSlice_apply ![0, 0, 0] P slices_S2x16384x32_S1x16384x32_0_0_0 _ (ix3 (0 : Fin 2) (i 0) (i 1)) (fun a => by
      match a with
      | ⟨0, _⟩ => rfl
      | ⟨1, _⟩ => exact (Nat.zero_add _).symm
      | ⟨2, _⟩ => exact (Nat.zero_add _).symm)]
  rw [extractStridedSlice_apply ![1, 0, 0] P slices_S2x16384x32_S1x16384x32_1_0_0 _ (ix3 (1 : Fin 2) (i 0) (i 1)) (fun a => by
      match a with
      | ⟨0, _⟩ => rfl
      | ⟨1, _⟩ => exact (Nat.zero_add _).symm
      | ⟨2, _⟩ => exact (Nat.zero_add _).symm)]
  rw [hP, hP]
  unfold Part ATmul
  exact T4_all A' UK (i 0).val (i 1).val

variable (m : (ℓ : Loc nD τ sig) → Buf (Elt Ideal) ℓ) (c : Dev nD)

/-- The launch arrays. -/
abbrev A0 : S8192x16384.Idx → EReal := m ((c : Thread nD τ).loc main_arg2)
abbrev U0 : S8192x32.Idx → EReal := m ((c : Thread nD τ).loc main_arg0)
abbrev I0 : S16384x32.Idx → EReal := m ((c : Thread nD τ).loc main_arg1)

/-! ## Round 0 -/

theorem B1_v0_0 : (B1 m c (Proc.devRef .tc main_v0_0) : S8192x32.Idx → EReal) = Amul (A0 m c) (I0 m c) :=
  (B1_arr m c 3).trans (final0_3 (BV0 m) c)
theorem B1_v0_1 : (B1 m c (Proc.devRef .tc main_v0_1) : S2x16384x32.Idx → EReal) = Part (A0 m c) (U0 m c) :=
  (B1_arr m c 4).trans (final0_4 (BV0 m) c)
theorem B1_v0_2 (i : S8192x16384.Idx) : (B1 m c (Proc.devRef .tc main_v0_2) : S8192x16384.Idx → EReal) i = A0 m c i :=
  congrFun ((B1_arr m c 5).trans (final0_5 (BV0 m) c)) i

theorem B2_v5 : (B2 m c (Proc.devRef .tc main_v5) : S16384x32.Idx → EReal) = ATmul (A0 m c) (U0 m c) := by
  have e : B2 m c (Proc.devRef .tc main_v5) = addf (F := Ideal) (s := S16384x32) (φ := .f32)
      (shapeCast S16384x32 (extractStridedSlice S1x16384x32 ![0, 0, 0] (B1 m c (Proc.devRef .tc main_v0_1)) slices_S2x16384x32_S1x16384x32_0_0_0) shapeCasts_S1x16384x32_S16384x32)
      (shapeCast S16384x32 (extractStridedSlice S1x16384x32 ![1, 0, 0] (B1 m c (Proc.devRef .tc main_v0_1)) slices_S2x16384x32_S1x16384x32_1_0_0) shapeCasts_S1x16384x32_S16384x32) := by
    show StableHlo.after hostOps1 (B1 m c) (Proc.devRef .tc main_v5) = _
    after_results
    try rfl
  rw [e]
  funext i
  exact halves_eq (A0 m c) (U0 m c) _ (fun j => congrFun (B1_v0_1 m c) j) i

theorem B2_v6 : (B2 m c (Proc.devRef .tc main_v6) : S8192x32.Idx → EReal) = addf (F := Ideal) (s := S8192x32) (φ := .f32) (U0 m c) (Amul (A0 m c) (I0 m c)) := by
  have e : B2 m c (Proc.devRef .tc main_v6) = addf (F := Ideal) (s := S8192x32) (φ := .f32) (B1 m c (Proc.devRef .tc main_arg0)) (B1 m c (Proc.devRef .tc main_v0_0)) := by
    show StableHlo.after hostOps1 (B1 m c) (Proc.devRef .tc main_v6) = _
    after_results
  rw [e, B1_v0_0]
  refine congrArg (fun x => addf (F := Ideal) (s := S8192x32) (φ := .f32) x _) ?_
  exact (B1_arr m c 1).trans (((dat0 (BV0 m) c).arrAt_in 1 rfl _).trans (A_eq0 (BV0 m) c 1))

theorem B2_v7 : (B2 m c (Proc.devRef .tc main_v7) : S16384x32.Idx → EReal) = addf (F := Ideal) (s := S16384x32) (φ := .f32) (I0 m c) (ATmul (A0 m c) (U0 m c)) := by
  have e : B2 m c (Proc.devRef .tc main_v7) = addf (F := Ideal) (s := S16384x32) (φ := .f32) (B1 m c (Proc.devRef .tc main_arg1)) (B2 m c (Proc.devRef .tc main_v5)) := by
    show StableHlo.after hostOps1 (B1 m c) (Proc.devRef .tc main_v7) = _
    after_results
    try rfl
  rw [e, B2_v5]
  refine congrArg (fun x => addf (F := Ideal) (s := S16384x32) (φ := .f32) x _) ?_
  exact (B1_arr m c 2).trans (((dat0 (BV0 m) c).arrAt_in 2 rfl _).trans (A_eq0 (BV0 m) c 2))

theorem B2_v0_2 (i : S8192x16384.Idx) : (B2 m c (Proc.devRef .tc main_v0_2) : S8192x16384.Idx → EReal) i = A0 m c i := by
  rw [B2_of m c main_v0_2 (by decide)]; exact B1_v0_2 m c i
theorem B2_v0_0 : (B2 m c (Proc.devRef .tc main_v0_0) : S8192x32.Idx → EReal) = Amul (A0 m c) (I0 m c) := by
  rw [B2_of m c main_v0_0 (by decide)]; exact B1_v0_0 m c

/-! ## Round 1 -/

theorem B3_v8_0 : (B3 m c (Proc.devRef .tc main_v8_0) : S8192x32.Idx → EReal) = Amul (A0 m c) (ATmul (A0 m c) (U0 m c)) :=
  ((B3_arr m c 3).trans (final1_3 (BV2 m) c)).trans (Amul_congr (B2_v0_2 m c) (congrFun (B2_v5 m c)))
theorem Part_congr {A A' : (⟨2, ![8192, 16384]⟩ : Shape).Idx → EReal} {UK UK' : (⟨2, ![8192, 32]⟩ : Shape).Idx → EReal}
    (hA : ∀ i, A i = A' i) (hU : ∀ i, UK i = UK' i) : Part A UK = Part A' UK' := by
  funext i; unfold Part T4
  exact Finset.sum_congr rfl fun _ _ => Finset.sum_congr rfl fun _ _ => by rw [at2_congr hA, at2_congr hU]

theorem B3_v8_1 : (B3 m c (Proc.devRef .tc main_v8_1) : S2x16384x32.Idx → EReal) = Part (A0 m c) (Amul (A0 m c) (I0 m c)) :=
  ((B3_arr m c 4).trans (final1_4 (BV2 m) c)).trans (Part_congr (B2_v0_2 m c) (congrFun (B2_v0_0 m c)))
theorem B3_v0_2 (i : S8192x16384.Idx) : (B3 m c (Proc.devRef .tc main_v0_2) : S8192x16384.Idx → EReal) i = A0 m c i := by
  have e : B3 m c (Proc.devRef .tc main_v0_2) = B2 m c (Proc.devRef .tc main_v0_2) :=
    (B3_arr m c 0).trans (((dat1 (BV2 m) c).arrAt_in 0 rfl _).trans (A_eq1 (BV2 m) c 0))
  rw [e]; exact B2_v0_2 m c i
theorem B3_v6 : (B3 m c (Proc.devRef .tc main_v6) : S8192x32.Idx → EReal) = addf (F := Ideal) (s := S8192x32) (φ := .f32) (U0 m c) (Amul (A0 m c) (I0 m c)) := by
  rw [B3_of_ne m c main_v6 (by decide)]; exact B2_v6 m c
theorem B3_v7 : (B3 m c (Proc.devRef .tc main_v7) : S16384x32.Idx → EReal) = addf (F := Ideal) (s := S16384x32) (φ := .f32) (I0 m c) (ATmul (A0 m c) (U0 m c)) := by
  rw [B3_of_ne m c main_v7 (by decide)]; exact B2_v7 m c

theorem B4_v13 : (B4 m c (Proc.devRef .tc main_v13) : S16384x32.Idx → EReal) = ATmul (A0 m c) (Amul (A0 m c) (I0 m c)) := by
  have e : B4 m c (Proc.devRef .tc main_v13) = addf (F := Ideal) (s := S16384x32) (φ := .f32)
      (shapeCast S16384x32 (extractStridedSlice S1x16384x32 ![0, 0, 0] (B3 m c (Proc.devRef .tc main_v8_1)) slices_S2x16384x32_S1x16384x32_0_0_0) shapeCasts_S1x16384x32_S16384x32)
      (shapeCast S16384x32 (extractStridedSlice S1x16384x32 ![1, 0, 0] (B3 m c (Proc.devRef .tc main_v8_1)) slices_S2x16384x32_S1x16384x32_1_0_0) shapeCasts_S1x16384x32_S16384x32) := by
    show StableHlo.after hostOps2 (B3 m c) (Proc.devRef .tc main_v13) = _
    after_results
    try rfl
  rw [e]
  funext i
  exact halves_eq (A0 m c) (Amul (A0 m c) (I0 m c)) _ (fun j => congrFun (B3_v8_1 m c) j) i
theorem B4_v14 : (B4 m c (Proc.devRef .tc main_v14) : S8192x32.Idx → EReal)
    = addf (F := Ideal) (s := S8192x32) (φ := .f32) (addf (F := Ideal) (s := S8192x32) (φ := .f32) (U0 m c) (Amul (A0 m c) (I0 m c))) (Amul (A0 m c) (ATmul (A0 m c) (U0 m c))) := by
  have e : B4 m c (Proc.devRef .tc main_v14) = addf (F := Ideal) (s := S8192x32) (φ := .f32) (B3 m c (Proc.devRef .tc main_v6)) (B3 m c (Proc.devRef .tc main_v8_0)) := by
    show StableHlo.after hostOps2 (B3 m c) (Proc.devRef .tc main_v14) = _
    after_results
  rw [e, B3_v6, B3_v8_0]
theorem B4_v15 : (B4 m c (Proc.devRef .tc main_v15) : S16384x32.Idx → EReal)
    = addf (F := Ideal) (s := S16384x32) (φ := .f32) (addf (F := Ideal) (s := S16384x32) (φ := .f32) (I0 m c) (ATmul (A0 m c) (U0 m c))) (ATmul (A0 m c) (Amul (A0 m c) (I0 m c))) := by
  have e : B4 m c (Proc.devRef .tc main_v15) = addf (F := Ideal) (s := S16384x32) (φ := .f32) (B3 m c (Proc.devRef .tc main_v7)) (B4 m c (Proc.devRef .tc main_v13)) := by
    show StableHlo.after hostOps2 (B3 m c) (Proc.devRef .tc main_v15) = _
    after_results
    try rfl
  rw [e, B3_v7, B4_v13]
theorem B4_v0_2 (i : S8192x16384.Idx) : (B4 m c (Proc.devRef .tc main_v0_2) : S8192x16384.Idx → EReal) i = A0 m c i := by
  rw [B4_of m c main_v0_2 (by decide)]; exact B3_v0_2 m c i
theorem B4_v8_0 : (B4 m c (Proc.devRef .tc main_v8_0) : S8192x32.Idx → EReal) = Amul (A0 m c) (ATmul (A0 m c) (U0 m c)) := by
  rw [B4_of m c main_v8_0 (by decide)]; exact B3_v8_0 m c

/-! ## Round 2 -/

theorem B5_v16_0 : (B5 m c (Proc.devRef .tc main_v16_0) : S8192x32.Idx → EReal) = Amul (A0 m c) (ATmul (A0 m c) (Amul (A0 m c) (I0 m c))) :=
  ((B5_arr m c 3).trans (final2_3 (BV4 m) c)).trans (Amul_congr (B4_v0_2 m c) (congrFun (B4_v13 m c)))
theorem B5_v16_1 : (B5 m c (Proc.devRef .tc main_v16_1) : S2x16384x32.Idx → EReal) = Part (A0 m c) (Amul (A0 m c) (ATmul (A0 m c) (U0 m c))) :=
  ((B5_arr m c 4).trans (final2_4 (BV4 m) c)).trans (Part_congr (B4_v0_2 m c) (congrFun (B4_v8_0 m c)))
theorem B5_v14 : (B5 m c (Proc.devRef .tc main_v14) : S8192x32.Idx → EReal)
    = addf (F := Ideal) (s := S8192x32) (φ := .f32) (addf (F := Ideal) (s := S8192x32) (φ := .f32) (U0 m c) (Amul (A0 m c) (I0 m c))) (Amul (A0 m c) (ATmul (A0 m c) (U0 m c))) := by
  rw [B5_of_ne m c main_v14 (by decide)]; exact B4_v14 m c
theorem B5_v15 : (B5 m c (Proc.devRef .tc main_v15) : S16384x32.Idx → EReal)
    = addf (F := Ideal) (s := S16384x32) (φ := .f32) (addf (F := Ideal) (s := S16384x32) (φ := .f32) (I0 m c) (ATmul (A0 m c) (U0 m c))) (ATmul (A0 m c) (Amul (A0 m c) (I0 m c))) := by
  rw [B5_of_ne m c main_v15 (by decide)]; exact B4_v15 m c

/-! ## The results -/

/-- The first result: the running sum of u, scaled by 1/4. -/
theorem B6_v25 : (B6 m c (Proc.devRef .tc main_v25) : S8192x32.Idx → EReal)
    = mulf (F := Ideal) (s := S8192x32) (φ := .f32)
        (addf (F := Ideal) (s := S8192x32) (φ := .f32) (addf (F := Ideal) (s := S8192x32) (φ := .f32) (addf (F := Ideal) (s := S8192x32) (φ := .f32) (U0 m c) (Amul (A0 m c) (I0 m c))) (Amul (A0 m c) (ATmul (A0 m c) (U0 m c)))) (Amul (A0 m c) (ATmul (A0 m c) (Amul (A0 m c) (I0 m c)))))
        (broadcastInDim S8192x32 ![] bcast_S_S8192x32 (constant (F := Ideal) S_ .f32 0x3E800000#32)) := by
  have e : B6 m c (Proc.devRef .tc main_v25) = mulf (F := Ideal) (s := S8192x32) (φ := .f32) (addf (F := Ideal) (s := S8192x32) (φ := .f32) (B5 m c (Proc.devRef .tc main_v14)) (B5 m c (Proc.devRef .tc main_v16_0)))
      (broadcastInDim S8192x32 ![] bcast_S_S8192x32 (constant (F := Ideal) S_ .f32 0x3E800000#32)) := by
    show StableHlo.after hostOps3 (B5 m c) (Proc.devRef .tc main_v25) = _
    after_results
  rw [e, B5_v14, B5_v16_0]

/-- The second result: the running sum of i, scaled by 1/4. -/
theorem B6_v27 : (B6 m c (Proc.devRef .tc main_v27) : S16384x32.Idx → EReal)
    = mulf (F := Ideal) (s := S16384x32) (φ := .f32)
        (addf (F := Ideal) (s := S16384x32) (φ := .f32) (addf (F := Ideal) (s := S16384x32) (φ := .f32) (addf (F := Ideal) (s := S16384x32) (φ := .f32) (I0 m c) (ATmul (A0 m c) (U0 m c))) (ATmul (A0 m c) (Amul (A0 m c) (I0 m c)))) (ATmul (A0 m c) (Amul (A0 m c) (ATmul (A0 m c) (U0 m c)))))
        (broadcastInDim S16384x32 ![] bcast_S_S16384x32 (constant (F := Ideal) S_ .f32 0x3E800000#32)) := by
  have e : B6 m c (Proc.devRef .tc main_v27) = mulf (F := Ideal) (s := S16384x32) (φ := .f32)
      (addf (F := Ideal) (s := S16384x32) (φ := .f32) (B5 m c (Proc.devRef .tc main_v15))
        (addf (F := Ideal) (s := S16384x32) (φ := .f32)
          (shapeCast S16384x32 (extractStridedSlice S1x16384x32 ![0, 0, 0] (B5 m c (Proc.devRef .tc main_v16_1)) slices_S2x16384x32_S1x16384x32_0_0_0) shapeCasts_S1x16384x32_S16384x32)
          (shapeCast S16384x32 (extractStridedSlice S1x16384x32 ![1, 0, 0] (B5 m c (Proc.devRef .tc main_v16_1)) slices_S2x16384x32_S1x16384x32_1_0_0) shapeCasts_S1x16384x32_S16384x32)))
      (broadcastInDim S16384x32 ![] bcast_S_S16384x32 (constant (F := Ideal) S_ .f32 0x3E800000#32)) := by
    show StableHlo.after hostOps3 (B5 m c) (Proc.devRef .tc main_v27) = _
    after_results
    try rfl
  have hh : addf (F := Ideal) (s := S16384x32) (φ := .f32)
      (shapeCast S16384x32 (extractStridedSlice S1x16384x32 ![0, 0, 0] (B5 m c (Proc.devRef .tc main_v16_1)) slices_S2x16384x32_S1x16384x32_0_0_0) shapeCasts_S1x16384x32_S16384x32)
      (shapeCast S16384x32 (extractStridedSlice S1x16384x32 ![1, 0, 0] (B5 m c (Proc.devRef .tc main_v16_1)) slices_S2x16384x32_S1x16384x32_1_0_0) shapeCasts_S1x16384x32_S16384x32)
      = ATmul (A0 m c) (Amul (A0 m c) (ATmul (A0 m c) (U0 m c))) :=
    funext fun i => halves_eq (A0 m c) (Amul (A0 m c) (ATmul (A0 m c) (U0 m c))) _ (fun j => congrFun (B5_v16_1 m c) j) i
  rw [e, B5_v15, hh]

end Cert.KernelIdeal.Hand

end
-- ==== Proof.RefBridge.lean ====
/-
  The reference, read on the extended reals: its `dot_general` of A with i_k is `Amul A i_k`, its `dot_general` of A's
  transpose with u_k is `ATmul A u_k`, so its two results are the three rounds' running sums scaled by 1/4, in terms of
  `Amul` and `ATmul` alone.
-/
import proofs.«153668_j35003983462547_2_alg».proof.Proof.Gen.ReferenceIdeal.Read
import proofs.«153668_j35003983462547_2_alg».proof.Proof.Spec

noncomputable section

namespace Cert.ReferenceIdeal.RefValue

open Cert.ReferenceIdeal Cert.ReferenceIdeal.Gen Cert.ReferenceIdeal.Read Cert.LinkProp
open Idealize.ShloMosaic Idealize.ShloMosaic.TcCoe Idealize.ShloMosaic.ValueIdx Idealize.SL.Sem

theorem ref_mm (x1 : (⟨S16384x32, .f32⟩ : BufTy).Contents (Elt Ideal)) (x2 : (⟨S8192x16384, .f32⟩ : BufTy).Contents (Elt Ideal)) :
    val_main_v0 (F := Ideal) x1 x2 = Amul x2 x1 := by
  funext i
  rw [val_main_v0_apply]
  unfold Amul
  refine Finset.sum_congr rfl fun k _ => ?_
  rw [at2_eq (n0 := 8192) (n1 := 16384) x2 _ _ (i 0).isLt k.isLt, at2_eq (n0 := 16384) (n1 := 32) x1 _ _ k.isLt (i 1).isLt]
  refine congrArg₂ (· * ·) (congrArg x2 ?_) (congrArg x1 ?_) <;>
    (funext a; match a with | ⟨0, _⟩ => rfl | ⟨1, _⟩ => rfl)

theorem ref_mt (x0 : (⟨S8192x32, .f32⟩ : BufTy).Contents (Elt Ideal)) (x2 : (⟨S8192x16384, .f32⟩ : BufTy).Contents (Elt Ideal)) :
    val_main_v2 (F := Ideal) x0 x2 = ATmul x2 x0 := by
  funext i
  rw [val_main_v2_apply]
  simp only [val_main_v1_apply]
  unfold ATmul
  refine Finset.sum_congr rfl fun k _ => ?_
  rw [at2_eq (n0 := 8192) (n1 := 16384) x2 _ _ k.isLt (i 0).isLt, at2_eq (n0 := 8192) (n1 := 32) x0 _ _ k.isLt (i 1).isLt]
  refine congrArg₂ (· * ·) (congrArg x2 ?_) (congrArg x0 ?_) <;>
    (funext a; match a with | ⟨0, _⟩ => rfl | ⟨1, _⟩ => rfl)

theorem ref_v16 (x0 : (⟨S8192x32, .f32⟩ : BufTy).Contents (Elt Ideal)) (x1 : (⟨S16384x32, .f32⟩ : BufTy).Contents (Elt Ideal)) (x2 : (⟨S8192x16384, .f32⟩ : BufTy).Contents (Elt Ideal)) :
    val_main_v16 (F := Ideal) x0 x1 x2
      = mulf (F := Ideal) (s := S8192x32) (φ := .f32) (addf (F := Ideal) (s := S8192x32) (φ := .f32) (addf (F := Ideal) (s := S8192x32) (φ := .f32) (addf (F := Ideal) (s := S8192x32) (φ := .f32) x0 (Amul x2 x1)) (Amul x2 (ATmul x2 x0))) (Amul x2 (ATmul x2 (Amul x2 x1)))) (val_main_v15 (F := Ideal)) := by
  have h5 : val_main_v5 (F := Ideal) x0 x2 = val_main_v0 (val_main_v2 x0 x2) x2 := rfl
  have h7 : val_main_v7 (F := Ideal) x1 x2 = val_main_v2 (val_main_v0 x1 x2) x2 := rfl
  have h10 : val_main_v10 (F := Ideal) x1 x2 = val_main_v0 (val_main_v7 x1 x2) x2 := rfl
  unfold val_main_v16 val_main_v13 val_main_v8 val_main_v3
  rw [h10, h7, h5]
  simp only [ref_mm, ref_mt]

theorem ref_v18 (x0 : (⟨S8192x32, .f32⟩ : BufTy).Contents (Elt Ideal)) (x1 : (⟨S16384x32, .f32⟩ : BufTy).Contents (Elt Ideal)) (x2 : (⟨S8192x16384, .f32⟩ : BufTy).Contents (Elt Ideal)) :
    val_main_v18 (F := Ideal) x0 x1 x2
      = mulf (F := Ideal) (s := S16384x32) (φ := .f32) (addf (F := Ideal) (s := S16384x32) (φ := .f32) (addf (F := Ideal) (s := S16384x32) (φ := .f32) (addf (F := Ideal) (s := S16384x32) (φ := .f32) x1 (ATmul x2 x0)) (ATmul x2 (Amul x2 x1))) (ATmul x2 (Amul x2 (ATmul x2 x0)))) (val_main_v17 (F := Ideal)) := by
  have h5 : val_main_v5 (F := Ideal) x0 x2 = val_main_v0 (val_main_v2 x0 x2) x2 := rfl
  have h7 : val_main_v7 (F := Ideal) x1 x2 = val_main_v2 (val_main_v0 x1 x2) x2 := rfl
  have h12 : val_main_v12 (F := Ideal) x0 x2 = val_main_v2 (val_main_v5 x0 x2) x2 := rfl
  unfold val_main_v18 val_main_v14 val_main_v9 val_main_v4
  rw [h12, h7, h5]
  simp only [ref_mm, ref_mt]

end Cert.ReferenceIdeal.RefValue

end
-- ==== Proof.lean ====
/-
  Link propagation, three rounds (u ← A·i, i ← Aᵀ·u, running sums, mean over the four layers): the Pallas kernel against
  the jnp reference, on the extended reals.

  The kernel runs each round as a pipelined region over a grid (core, row tile, column tile) that streams the adjacency
  matrix in [512, 2048] tiles: u_next's row tile is accumulated over the column tiles, each core's partial of i_next over
  all of the core's tiles; the host adds the two partials and keeps the running sums. On the extended reals a change of
  float format is the identity and addition is associative and commutative, so the tiled accumulations are the whole
  contractions A·i_k and Aᵀ·u_k the reference computes, and the two programs' results agree element by element.
  The frames (each program runs to the end, faults nowhere, leaves its arguments unchanged) hold at any instance; the
  idealized kernel differs from the kernel by no rewrite.
-/
import proofs.«153668_j35003983462547_2_alg».proof.Defs
import proofs.«153668_j35003983462547_2_alg».proof.Proof.Gen.Kernel
import proofs.«153668_j35003983462547_2_alg».proof.Proof.Gen.KernelIdeal
import proofs.«153668_j35003983462547_2_alg».proof.Proof.Gen.ReferenceIdeal
import proofs.«153668_j35003983462547_2_alg».proof.Proof.Gen.ReferenceIdeal.Read
import proofs.«153668_j35003983462547_2_alg».proof.Proof.Gen.Pre_finite_inputs
import proofs.«153668_j35003983462547_2_alg».proof.Proof.Run
import proofs.«153668_j35003983462547_2_alg».proof.Proof.Bits.Run
import proofs.«153668_j35003983462547_2_alg».proof.Proof.ValHost
import proofs.«153668_j35003983462547_2_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.Hand.frame (F := Bits) m ρ
/-- The idealized kernel's frame. -/
theorem frame_ki : Cert.frame_KernelIdeal := fun m ρ _ => Cert.KernelIdeal.Hand.frame (F := Ideal) m ρ
/-- The reference's frame: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation of the kernel was rewritten by the idealization. -/
theorem preserves : Cert.preserves_Kernel_KernelIdeal := trivial

open Cert.KernelIdeal Cert.KernelIdeal.Hand in
/-- Both programs end with the running sums of three rounds of A·i and Aᵀ·u, scaled by 1/4. -/
theorem algebraic : Cert.algebraic_KernelIdeal_ReferenceIdeal := by
  intro m ρ m' ρ' _ hagree
  refine ⟨fun c => B6 m c (Proc.devRef .tc main_v25), fun c => B6 m c (Proc.devRef .tc main_v27), ?_, ?_⟩
  · exact (θ_run Cert.KernelIdeal.defs _ _).mono (fun r h c =>
      ⟨h c _ (mem_uc main_v25 (by decide)), h c _ (mem_uc main_v27 (by decide)),
       (h c _ (mem_uc main_arg0 (by decide))).trans (B6_main_arg0 m c),
       (h c _ (mem_uc main_arg1 (by decide))).trans (B6_main_arg1 m c),
       (h c _ (mem_uc main_arg2 (by decide))).trans (B6_main_arg2 m c)⟩) (Cert.KernelIdeal.Hand.run_all (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [(hagree c).1, (hagree c).2.1, (hagree c).2.2]
      exact (Cert.ReferenceIdeal.Read.val_main_v16_eq _ _ _).trans ((Cert.ReferenceIdeal.RefValue.ref_v16 _ _ _).trans (B6_v25 m c).symm)
    · rw [(hagree c).1, (hagree c).2.1, (hagree c).2.2]
      exact (Cert.ReferenceIdeal.Read.val_main_v18_eq _ _ _).trans ((Cert.ReferenceIdeal.RefValue.ref_v18 _ _ _).trans (B6_v27 m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
